-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x1024 : Shape := ⟨2, ![1024, 1024]⟩
abbrev S2048x512 : Shape := ⟨2, ![2048, 512]⟩
abbrev S1024x512 : Shape := ⟨2, ![1024, 512]⟩
abbrev S4 : Shape := ⟨1, ![4]⟩
abbrev S_ : Shape := ⟨0, ![]⟩
abbrev S256x512 : Shape := ⟨2, ![256, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S2048x512, .f32⟩
  | .local _ .vmem, ⟨0, _⟩ => ⟨S1024x1024, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  { ofTc nBuf bufTy 1 10 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 2 → Nat :=
  let c0 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32 : BitVec 32 := 512#32
  let v17 : BitVec 32 := Scalar.muli v9 c512_i32
  let v18 : Index := Scalar.indexCast v17
  ![0, v18.toNat]
def k0_dev2 (d0 : Dev nD) : Nat :=
  let c0_i32_14 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_13 : BitVec 32 := 4#32
  let v25 : BitVec 32 := Scalar.muli v9 c4_i32_13
  let v26 : BitVec 32 := Scalar.addi c0_i32_14 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v27 : BitVec 32 := Scalar.muli v5 c2_i32_15
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.muli v8 c1_i32_16
  let v30 : BitVec 32 := Scalar.addi v28 v29
  v30.toNat
def k0_off2 (d0 : Dev nD) : Fin 2 → Nat :=
  let c256 : Index := 256#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_21 : BitVec 32 := 512#32
  let v37 : BitVec 32 := Scalar.muli v9 c512_i32_21
  let v38 : Index := Scalar.indexCast v37
  ![256, v38.toNat]
def k0_dev3 (d0 : Dev nD) : Nat :=
  let c0_i32_27 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_26 : BitVec 32 := 4#32
  let v45 : BitVec 32 := Scalar.muli v9 c4_i32_26
  let v46 : BitVec 32 := Scalar.addi c0_i32_27 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v47 : BitVec 32 := Scalar.muli v5 c2_i32_28
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v49 : BitVec 32 := Scalar.muli v8 c1_i32_29
  let v50 : BitVec 32 := Scalar.addi v48 v49
  v50.toNat
def k0_off3 (d0 : Dev nD) : Fin 2 → Nat :=
  let c512 : Index := 512#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_33 : BitVec 32 := 512#32
  let v57 : BitVec 32 := Scalar.muli v9 c512_i32_33
  let v58 : Index := Scalar.indexCast v57
  ![512, v58.toNat]
def k0_dev4 (d0 : Dev nD) : Nat :=
  let c0_i32_39 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_38 : BitVec 32 := 4#32
  let v65 : BitVec 32 := Scalar.muli v9 c4_i32_38
  let v66 : BitVec 32 := Scalar.addi c0_i32_39 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v67 : BitVec 32 := Scalar.muli v5 c2_i32_40
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v69 : BitVec 32 := Scalar.muli v8 c1_i32_41
  let v70 : BitVec 32 := Scalar.addi v68 v69
  v70.toNat
def k0_off4 (d0 : Dev nD) : Fin 2 → Nat :=
  let c768 : Index := 768#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_46 : BitVec 32 := 512#32
  let v77 : BitVec 32 := Scalar.muli v9 c512_i32_46
  let v78 : Index := Scalar.indexCast v77
  ![768, v78.toNat]
def k0_dev5 (d0 : Dev nD) : Nat :=
  let c0_i32_51 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_50 : BitVec 32 := 4#32
  let v85 : BitVec 32 := Scalar.muli v9 c4_i32_50
  let v86 : BitVec 32 := Scalar.addi c0_i32_51 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v87 : BitVec 32 := Scalar.muli v5 c2_i32_52
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v89 : BitVec 32 := Scalar.muli v8 c1_i32_53
  let v90 : BitVec 32 := Scalar.addi v88 v89
  v90.toNat
def k0_off5 (d0 : Dev nD) : Fin 2 → Nat :=
  let c0_58 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_57 : BitVec 32 := 512#32
  let v97 : BitVec 32 := Scalar.muli v2 c512_i32_57
  let v98 : Index := Scalar.indexCast v97
  ![0, v98.toNat]
def k0_off6 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v101 : BitVec 32 := Scalar.muli v2 c1024_i32
  let v102 : Index := Scalar.indexCast v101
  let c0_59 : Index := 0#32
  ![v102.toNat, 0]
def k0_off7 (d0 : Dev nD) (c0_i32_80 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32_79 : BitVec 32 := 1024#32
  let v120 : BitVec 32 := Scalar.muli v9 c1024_i32_79
  let v121 : BitVec 32 := Scalar.addi v120 c0_i32_80
  let v122 : Index := Scalar.indexCast v121
  let c0_81 : Index := 0#32
  ![v122.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S256x512 : 0 < S256x512.numel
  shapeCasts_S256x512_S256x512 : S256x512.ShapeCasts S256x512
  bitsLt_bf16_f32 : FTy.bits .bf16 < FTy.bits .f32
  inb_S1024x512_S256x512_0_0 : ∀ a, (![0, 0] : Fin 2 → Nat) a + S256x512.size a ≤ S1024x512.size a
  packedbf16_S1024x512_S256x512_0_0 : (Rect.unit (s := S1024x512) ![0, 0] S256x512.size inb_S1024x512_S256x512_0_0).PackedRows (EltTy.packing .bf16)
  inb_S4_S1_0 : ∀ a, (![0] : Fin 1 → Nat) a + S1.size a ≤ S4.size a
  squeezes_S1_S_ : S1.Squeezes S_
  wordsbf16_S1024x512_S256x512_0_0 : (Rect.unit (s := S1024x512) ![0, 0] S256x512.size inb_S1024x512_S256x512_0_0).WholeWords (EltTy.packing .bf16)
  inb_S1024x512_S256x512_256_0 : ∀ a, (![256, 0] : Fin 2 → Nat) a + S256x512.size a ≤ S1024x512.size a
  packedbf16_S1024x512_S256x512_256_0 : (Rect.unit (s := S1024x512) ![256, 0] S256x512.size inb_S1024x512_S256x512_256_0).PackedRows (EltTy.packing .bf16)
  inb_S4_S1_1 : ∀ a, (![1] : Fin 1 → Nat) a + S1.size a ≤ S4.size a
  wordsbf16_S1024x512_S256x512_256_0 : (Rect.unit (s := S1024x512) ![256, 0] S256x512.size inb_S1024x512_S256x512_256_0).WholeWords (EltTy.packing .bf16)
  inb_S1024x512_S256x512_512_0 : ∀ a, (![512, 0] : Fin 2 → Nat) a + S256x512.size a ≤ S1024x512.size a
  packedbf16_S1024x512_S256x512_512_0 : (Rect.unit (s := S1024x512) ![512, 0] S256x512.size inb_S1024x512_S256x512_512_0).PackedRows (EltTy.packing .bf16)
  inb_S4_S1_2 : ∀ a, (![2] : Fin 1 → Nat) a + S1.size a ≤ S4.size a
  wordsbf16_S1024x512_S256x512_512_0 : (Rect.unit (s := S1024x512) ![512, 0] S256x512.size inb_S1024x512_S256x512_512_0).WholeWords (EltTy.packing .bf16)
  inb_S1024x512_S256x512_768_0 : ∀ a, (![768, 0] : Fin 2 → Nat) a + S256x512.size a ≤ S1024x512.size a
  packedbf16_S1024x512_S256x512_768_0 : (Rect.unit (s := S1024x512) ![768, 0] S256x512.size inb_S1024x512_S256x512_768_0).PackedRows (EltTy.packing .bf16)
  inb_S4_S1_3 : ∀ a, (![3] : Fin 1 → Nat) a + S1.size a ≤ S4.size a
  wordsbf16_S1024x512_S256x512_768_0 : (Rect.unit (s := S1024x512) ![768, 0] S256x512.size inb_S1024x512_S256x512_768_0).WholeWords (EltTy.packing .bf16)
  h_S1024x512 : 0 < S1024x512.numel
  shapeCasts_S1024x512_S1024x512 : S1024x512.ShapeCasts S1024x512
  hcc0_scratch2 : 2 + S4.numel ≤ 10
  hcc0_scratch3 : 6 + S4.numel ≤ 10
  k0_dev1_lt : ∀ d0 : Dev nD, (k0_dev1 d0) < nD
  k0_off1_inb : ∀ d0 : Dev nD, ∀ a, (k0_off1 d0) a + S256x512.size a ≤ S1024x1024.size a
  k0_dev2_lt : ∀ d0 : Dev nD, (k0_dev2 d0) < nD
  k0_off2_inb : ∀ d0 : Dev nD, ∀ a, (k0_off2 d0) a + S256x512.size a ≤ S1024x1024.size a
  k0_dev3_lt : ∀ d0 : Dev nD, (k0_dev3 d0) < nD
  k0_off3_inb : ∀ d0 : Dev nD, ∀ a, (k0_off3 d0) a + S256x512.size a ≤ S1024x1024.size a
  k0_dev4_lt : ∀ d0 : Dev nD, (k0_dev4 d0) < nD
  k0_off4_inb : ∀ d0 : Dev nD, ∀ a, (k0_off4 d0) a + S256x512.size a ≤ S1024x1024.size a
  k0_dev5_lt : ∀ d0 : Dev nD, (k0_dev5 d0) < nD
  k0_off5_inb : ∀ d0 : Dev nD, ∀ a, (k0_off5 d0) a + S1024x512.size a ≤ S1024x1024.size a
  k0_off6_inb : ∀ d0 : Dev nD, ∀ a, (k0_off6 d0) a + S1024x512.size a ≤ S2048x512.size a
  k0_off7_inb : ∀ d0 : Dev nD, ∀ (r : Fin 4), ∀ a, (k0_off7 d0 (BitVec.ofNat 32 (256 * r.val))) a + S256x512.size a ≤ S2048x512.size a
  hstage0_0 : ∀ j, (stage0_0 j).IsWhole
  hstage0_1 : ∀ j, (stage0_1 j).IsWhole

variable [Facts₀]

abbrev cc0_scratch2 : DmaSems sig S4 := SemArray.consecutive 2 S4 hcc0_scratch2
abbrev cc0_scratch3 : DmaSems sig S4 := SemArray.consecutive 6 S4 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩

abbrev nBuf : Space → Nat
  | .hbm => 1
  | .vmem => 0
  | .smem => 0
  | _ => 0

abbrev bufTy : (tb : Table) → Fin (tcTables nBuf tb) → BufTy
  | .hbm, ⟨0, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelIdealP.Proto.lean ====
/-
  The exchange between a device and its partner on the first mesh axis, as a protocol.

  A device is numbered 4x + 2y + z; its partner has the other x and the same y, z. Each device holds rows
  [1024x, 1024x + 1024) of the whole array, all 1024 columns, and must end with all 2048 rows of columns
  [512x, 512x + 512). It keeps its own rows of those columns and needs the partner's rows of them; so it sends
  the partner the OTHER half of its columns, rounded to bf16, in four bands of 256 rows, band h through its own
  send semaphore h onto the partner's receive semaphore h, after the two have told each other (one unit on the
  partner's barrier semaphore) that their landing buffers exist.

  One round per semaphore, one duty per round. The barrier's duty is paid by the partner's signal and hands over
  the partner's whole landing buffer; send duty h returns band h of the staging buffer holding what was staged;
  receive duty h hands over band h of the landing buffer holding the partner's staged band.
-/
import proofs.«900407_g7700000000000408_dist_a2a_v7x_xyz2x2x2_x_m1024_n512_f32_1_alg».proof.Proof.Gen.KernelIdeal
import proofs.«900407_g7700000000000408_dist_a2a_v7x_xyz2x2x2_x_m1024_n512_f32_1_alg».proof.Proof.Gen.KernelIdeal.Skeleton
import proofs.«900407_g7700000000000408_dist_a2a_v7x_xyz2x2x2_x_m1024_n512_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdealP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the pipeline's staging cells, and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-! ## The partner -/

/-- The device with the other coordinate on the first mesh axis. -/
def peer (c : Dev nD) : Dev nD := ⟨k0_dev1 c, k0_dev1_lt c⟩

theorem peer_val (c : Dev nD) : (peer c).val = (2 * ((c.val / 2) % 2) + (c.val % 2) + 4) - 4 * (c.val / 4) := k0_dev1_eq c
theorem peer_peer (c : Dev nD) : peer (peer c) = c := by
  apply Fin.ext; rw [peer_val, peer_val]; have : c.val < 8 := c.isLt; omega
theorem peer_ne (c : Dev nD) : peer c ≠ c := fun h => by
  have h' := congrArg Fin.val h; rw [peer_val] at h'; have : c.val < 8 := c.isLt; omega
theorem peer_x (c : Dev nD) : (peer c).val / 4 = 1 - c.val / 4 := by rw [peer_val]; have : c.val < 8 := c.isLt; omega

/-- Every device id the body computes names the partner. -/
theorem dev2_eq (c : Dev nD) : (⟨k0_dev2 c, k0_dev2_lt c⟩ : Dev nD) = peer c := Fin.ext ((k0_dev2_eq c).trans (k0_dev1_eq c).symm)
theorem dev3_eq (c : Dev nD) : (⟨k0_dev3 c, k0_dev3_lt c⟩ : Dev nD) = peer c := Fin.ext ((k0_dev3_eq c).trans (k0_dev1_eq c).symm)
theorem dev4_eq (c : Dev nD) : (⟨k0_dev4 c, k0_dev4_lt c⟩ : Dev nD) = peer c := Fin.ext ((k0_dev4_eq c).trans (k0_dev1_eq c).symm)
theorem dev5_eq (c : Dev nD) : (⟨k0_dev5 c, k0_dev5_lt c⟩ : Dev nD) = peer c := Fin.ext ((k0_dev5_eq c).trans (k0_dev1_eq c).symm)

def swap : Dev nD ≃ Dev nD := ⟨peer, peer, peer_peer, peer_peer⟩

/-! ## The buffers, the bands, the semaphores -/

abbrev xM : Memref sig .tc .vmem S1024x1024 .f32 := Memref.whole cc0_stg0_0
abbrev oM : Memref sig .tc .vmem S2048x512 .f32 := Memref.whole cc0_stg1_0
abbrev sM : Memref sig .tc .vmem S1024x512 .bf16 := Memref.whole cc0_scratch0
abbrev rM : Memref sig .tc .vmem S1024x512 .bf16 := Memref.whole cc0_scratch1

/-- Band h: rows [256h, 256h + 256), all 512 columns. -/
def rowOff (h : Fin 4) : Fin 2 → ℕ := ![256 * h.val, 0]
theorem rowInb (h : Fin 4) : ∀ a, rowOff h a + S256x512.size a ≤ S1024x512.size a := by revert h; decide
abbrev rowR (h : Fin 4) : Rect S1024x512 := Rect.unit (s := S1024x512) (rowOff h) S256x512.size (rowInb h)
abbrev sSl (h : Fin 4) : Memref sig .tc .vmem S256x512 .bf16 := sM.slice (rowR h) (fun _ => rfl)
abbrev rSl (h : Fin 4) : Memref sig .tc .vmem S256x512 .bf16 := rM.slice (rowR h) (fun _ => rfl)

abbrev barS : Sem sig := (SemArray.scalar (sig.barrier 0 rfl) : Sems sig S_).sem
def sendS (h : Fin 4) : DmaSem sig := ⟨2 + h.val, by have := h.isLt; show 2 + h.val < 10; omega⟩
def recvS (h : Fin 4) : DmaSem sig := ⟨6 + h.val, by have := h.isLt; show 6 + h.val < 10; omega⟩

abbrev barCell (c : Dev nD) : GSem nD τ sig := ((c : Thread nD τ), .reg barS)
abbrev sendCell (c : Dev nD) (h : Fin 4) : GSem nD τ sig := ((c : Thread nD τ), .dma (sendS h))
abbrev recvCell (c : Dev nD) (h : Fin 4) : GSem nD τ sig := ((c : Thread nD τ), .dma (recvS h))

/-- What one band's transfer credits each of its two semaphores. -/
abbrev Nc (h : Fin 4) : ℕ := (rSl h).view.dmaCredit
theorem Nc_pos (h : Fin 4) : 0 < Nc h := View.dmaCredit_pos _ (by decide)
theorem sNc (h : Fin 4) : (sSl h).view.dmaCredit = Nc h := rfl

/-! ## Contents -/

/-- The device's block of the argument, as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- Where the body reads band h of the half it sends. -/
def offX (c : Dev nD) : Fin 4 → Fin 2 → ℕ
  | 0 => k0_off1 c | 1 => k0_off2 c | 2 => k0_off3 c | 3 => k0_off4 c
theorem offX_inb (c : Dev nD) (h : Fin 4) : ∀ a, offX c h a + S256x512.size a ≤ S1024x1024.size a := by
  fin_cases h
  · exact k0_off1_inb c
  · exact k0_off2_inb c
  · exact k0_off3_inb c
  · exact k0_off4_inb c

/-- Band h of the half a device sends, as loaded. -/
def ldX (c : Dev nD) (h : Fin 4) : Vec F S256x512 .f32 :=
  (xM : Memref sig .tc .vmem S1024x1024 .f32).view.readAt (Elt F)
    (Rect.unit (s := S1024x1024) (offX c h) S256x512.size (offX_inb c h)).toLoadRect (xstg m ρ c)

/-- The half a device keeps, as loaded. -/
def ldK (c : Dev nD) : Vec F S1024x512 .f32 :=
  (xM : Memref sig .tc .vmem S1024x1024 .f32).view.readAt (Elt F)
    (Rect.unit (s := S1024x1024) (k0_off5 c) S1024x512.size (k0_off5_inb c)).toLoadRect (xstg m ρ c)

/-- The staging buffer once all four bands are staged: row r of it is row r mod 256 of band r / 256, rounded. -/
def sbufC (c : Dev nD) : (cc0_scratch0 : Ref sig .tc).ty.Contents (Elt F) := fun i =>
  k0_pay2 (ldX m ρ c ⟨(i 0).val / 256, by have : (i 0).val < 1024 := (i 0).isLt; omega⟩)
    (ValueIdx.ix2 (⟨(i 0).val % 256, Nat.mod_lt _ (by decide)⟩ : Fin 256) (⟨(i 1).val, (i 1).isLt⟩ : Fin 512))

/-- The landing buffer once all four bands have landed: the partner's staging buffer. -/
def rbufC (c : Dev nD) : (cc0_scratch1 : Ref sig .tc).ty.Contents (Elt F) := sbufC m ρ (peer c)

/-- Band h of the landing buffer, as loaded. -/
def ldR (c : Dev nD) (h : Fin 4) : Vec F S256x512 .bf16 :=
  (rM : Memref sig .tc .vmem S1024x512 .bf16).view.readAt (Elt F) (rowR h).toLoadRect (rbufC m ρ c)

/-- The result block: rows of the device's own half of the rows hold the half of the columns it kept, the other
    rows what landed, widened again. -/
def outAt (c : Dev nD) : (cc0_stg1_0 : Ref sig .tc).ty.Contents (Elt F) := fun i =>
  if (i 0).val / 1024 = c.val / 4 then
    k0_pay6 (ldK m ρ c) (ValueIdx.ix2 (⟨(i 0).val % 1024, Nat.mod_lt _ (by decide)⟩ : Fin 1024) (⟨(i 1).val, (i 1).isLt⟩ : Fin 512))
  else
    k0_pay7 (ldR m ρ c ⟨((i 0).val % 1024) / 256, by have := Nat.mod_lt (i 0).val (show 0 < 1024 by decide); omega⟩)
      (ValueIdx.ix2 (⟨(i 0).val % 256, Nat.mod_lt _ (by decide)⟩ : Fin 256) (⟨(i 1).val, (i 1).isLt⟩ : Fin 512))

/-! ## Points-to assertions by band -/

def sBand (c : Dev nD) (h : Fin 4) (f : Buf (Elt F) ((sSl h).view.loc (c : Thread nD τ))) : sProp 𝕄 :=
  (sSl h).view.loc (c : Thread nD τ) ↦[(sSl h).view.set]{fullShare} f
def rBand (c : Dev nD) (h : Fin 4) (f : Buf (Elt F) ((rSl h).view.loc (c : Thread nD τ))) : sProp 𝕄 :=
  (rSl h).view.loc (c : Thread nD τ) ↦[(rSl h).view.set]{fullShare} f
def rWhole (c : Dev nD) (f : Buf (Elt F) ((rM : Memref sig .tc .vmem S1024x512 .bf16).view.loc (c : Thread nD τ))) : sProp 𝕄 :=
  (rM : Memref sig .tc .vmem S1024x512 .bf16).view.loc (c : Thread nD τ) ↦[(rM : Memref sig .tc .vmem S1024x512 .bf16).view.set]{fullShare} f

omit [FloatOps F] in
instance sBand_storable (c : Dev nD) (h : Fin 4) (f) : BI.Storable (upEmb : UEmb _ 𝕄) (sBand (F := F) c h f) := by unfold sBand; infer_instance
omit [FloatOps F] in
instance rBand_storable (c : Dev nD) (h : Fin 4) (f) : BI.Storable (upEmb : UEmb _ 𝕄) (rBand (F := F) c h f) := by unfold rBand; infer_instance
omit [FloatOps F] in
instance rWhole_storable (c : Dev nD) (f) : BI.Storable (upEmb : UEmb _ 𝕄) (rWhole (F := F) c f) := by unfold rWhole; infer_instance

/-! ## The schedule -/

def barPay (c : Dev nD) : sProp 𝕄 := iprop(∃ f, rWhole (peer c) f)
def sendPay (c : Dev nD) (h : Fin 4) : sProp 𝕄 := sBand c h (sbufC m ρ c)
def recvPay (c : Dev nD) (h : Fin 4) : sProp 𝕄 := rBand c h (rbufC m ρ c)

abbrev IsBar (g : GSem nD τ sig) : Prop := g.1.2 = .tc ∧ g.2 = .reg barS
abbrev IsSend (g : GSem nD τ sig) (h : Fin 4) : Prop := g.1.2 = .tc ∧ g.2 = .dma (sendS h)
abbrev IsRecv (g : GSem nD τ sig) (h : Fin 4) : Prop := g.1.2 = .tc ∧ g.2 = .dma (recvS h)
abbrev IsXfer (g : GSem nD τ sig) : Prop := g.1.2 = .tc ∧ ∃ h : Fin 4, g.2 = .dma (sendS h) ∨ g.2 = .dma (recvS h)

/-- Which band a DMA semaphore of the exchange serves. -/
def bandOf (q : DmaSem sig) : Fin 4 := ⟨(q.val + 2) % 4, Nat.mod_lt _ (by decide)⟩
theorem bandOf_send (h : Fin 4) : bandOf (sendS h) = h := by revert h; decide
theorem bandOf_recv (h : Fin 4) : bandOf (recvS h) = h := by revert h; decide

def exRd : Rounds.Schedule (GSem nD τ sig) Unit 𝕄 where
  duties g r := if r = 0 ∧ (IsBar g ∨ IsXfer g) then Finset.univ else ∅
  unitless _ := False
  amount g _ _ := match g.2 with
    | .reg _ => 1
    | .dma q => Nc (bandOf q)
  payload g _ _ := match g.2 with
    | .reg _ => barPay g.1.1
    | .dma q => if q.val < 6 then sendPay m ρ g.1.1 (bandOf q) else recvPay m ρ g.1.1 (bandOf q)
  amount_pos g _ _ _ := by
    rcases hg : g.2 with s | q
    · simp only [hg]; exact Nat.one_pos
    · simp only [hg]; exact Nc_pos _

end Cert.KernelIdealP

end
-- ==== Proof.KernelIdealP.Sched.lean ====
/-
  The schedule's tables read at each of a device's nine semaphores, what a device owes its partner at launch
  (one unit on the partner's barrier, one band's credit on each of the partner's four receive semaphores), and the
  levels that order the waits: barrier below receive, everything else lowest. A device waits on its barrier
  owing only receive credit, and on its send and receive semaphores owing nothing.
-/
import proofs.«900407_g7700000000000408_dist_a2a_v7x_xyz2x2x2_x_m1024_n512_f32_1_alg».proof.Proof.KernelIdealP.Proto

noncomputable section

namespace Cert.KernelIdealP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance exRd_payload_storable (g : GSem nD τ sig) (r : ℕ) (d : Unit) :
    BI.Storable (upEmb : UEmb _ 𝕄) ((exRd (F := F) m ρ).payload g r d) := by
  show BI.Storable upEmb (match g.2 with
    | .reg _ => barPay g.1.1
    | .dma q => if q.val < 6 then sendPay m ρ g.1.1 (bandOf q) else recvPay m ρ g.1.1 (bandOf q))
  unfold barPay sendPay recvPay
  (repeat' split) <;> infer_instance

section Tables
variable (c : Dev nD) (h : Fin 4)

theorem send_ne_bar : (SemLoc.dma (sendS h) : SemLoc sig) ≠ .reg barS := fun e => by cases e
theorem recv_ne_bar : (SemLoc.dma (recvS h) : SemLoc sig) ≠ .reg barS := fun e => by cases e
theorem send_ne_recv (h' : Fin 4) : (SemLoc.dma (sendS h) : SemLoc sig) ≠ .dma (recvS h') := by revert h h'; decide
theorem recv_ne_send (h' : Fin 4) : (SemLoc.dma (recvS h) : SemLoc sig) ≠ .dma (sendS h') := by revert h h'; decide
theorem sendS_inj {h h' : Fin 4} (e : sendS h = sendS h') : h = h' := by revert h h'; decide
theorem recvS_inj {h h' : Fin 4} (e : recvS h = recvS h') : h = h' := by revert h h'; decide

theorem duties_bar : (exRd (F := F) m ρ).duties (barCell c) 0 = Finset.univ := by
  dsimp only [exRd]; exact if_pos ⟨rfl, .inl ⟨rfl, rfl⟩⟩
theorem duties_send : (exRd (F := F) m ρ).duties (sendCell c h) 0 = Finset.univ := by
  dsimp only [exRd]; exact if_pos ⟨rfl, .inr ⟨rfl, h, .inl rfl⟩⟩
theorem duties_recv : (exRd (F := F) m ρ).duties (recvCell c h) 0 = Finset.univ := by
  dsimp only [exRd]; exact if_pos ⟨rfl, .inr ⟨rfl, h, .inr rfl⟩⟩
theorem duties_later (g : GSem nD τ sig) : ∀ r, 1 ≤ r → (exRd (F := F) m ρ).duties g r = ∅ :=
  fun r hr => by dsimp only [exRd]; rw [if_neg fun h => by omega]

theorem amount_bar (d : Unit) : (exRd (F := F) m ρ).amount (barCell c) 0 d = 1 := rfl
theorem amount_send (d : Unit) : (exRd (F := F) m ρ).amount (sendCell c h) 0 d = Nc h := by
  show Nc (bandOf (sendS h)) = Nc h; rw [bandOf_send]
theorem amount_recv (d : Unit) : (exRd (F := F) m ρ).amount (recvCell c h) 0 d = Nc h := by
  show Nc (bandOf (recvS h)) = Nc h; rw [bandOf_recv]

theorem expect_bar : (exRd (F := F) m ρ).expect (barCell c) 0 = 1 := by
  unfold Schedule.expect Schedule.amountOf
  rw [duties_bar, Finset.univ_unique, Finset.sum_singleton, amount_bar]
theorem expect_send : (exRd (F := F) m ρ).expect (sendCell c h) 0 = Nc h := by
  unfold Schedule.expect Schedule.amountOf
  rw [duties_send, Finset.univ_unique, Finset.sum_singleton, amount_send]
theorem expect_recv : (exRd (F := F) m ρ).expect (recvCell c h) 0 = Nc h := by
  unfold Schedule.expect Schedule.amountOf
  rw [duties_recv, Finset.univ_unique, Finset.sum_singleton, amount_recv]

theorem payload_bar (d : Unit) : (exRd (F := F) m ρ).payload (barCell c) 0 d = barPay c := rfl
theorem payload_send (d : Unit) : (exRd (F := F) m ρ).payload (sendCell c h) 0 d = sendPay m ρ c h := by
  show (if (sendS h).val < 6 then sendPay m ρ c (bandOf (sendS h)) else recvPay m ρ c (bandOf (sendS h))) = _
  rw [if_pos (by have := h.isLt; show 2 + h.val < 6; omega), bandOf_send]
theorem payload_recv (d : Unit) : (exRd (F := F) m ρ).payload (recvCell c h) 0 d = recvPay m ρ c h := by
  show (if (recvS h).val < 6 then sendPay m ρ c (bandOf (recvS h)) else recvPay m ρ c (bandOf (recvS h))) = _
  rw [if_neg (by show ¬ (6 + h.val < 6); omega), bandOf_recv]

theorem rest_bar : bigSep ((exRd (F := F) m ρ).duties (barCell c) 0 \ ∅) (fun d => (exRd (F := F) m ρ).payload (barCell c) 0 d) = barPay c := by
  rw [Finset.sdiff_empty, duties_bar, Finset.univ_unique, bigSep_singleton, payload_bar]
theorem rest_send : bigSep ((exRd (F := F) m ρ).duties (sendCell c h) 0 \ ∅) (fun d => (exRd (F := F) m ρ).payload (sendCell c h) 0 d) = sendPay m ρ c h := by
  rw [Finset.sdiff_empty, duties_send, Finset.univ_unique, bigSep_singleton, payload_send]
theorem rest_recv : bigSep ((exRd (F := F) m ρ).duties (recvCell c h) 0 \ ∅) (fun d => (exRd (F := F) m ρ).payload (recvCell c h) 0 d) = recvPay m ρ c h := by
  rw [Finset.sdiff_empty, duties_recv, Finset.univ_unique, bigSep_singleton, payload_recv]

end Tables

/-! ## What each device owes at launch; the levels -/

/-- After the barrier signal a device owes the partner's four receive semaphores a band's credit each, summed so that
    band 0's transfer peels the last summand, band 3's the first. -/
def O4 (c : Dev nD) : CellTallies nD τ sig Unit := tallyAt (recvCell (peer c) 3) () (Nc 3)
def O3 (c : Dev nD) : CellTallies nD τ sig Unit := O4 c + tallyAt (recvCell (peer c) 2) () (Nc 2)
def O2 (c : Dev nD) : CellTallies nD τ sig Unit := O3 c + tallyAt (recvCell (peer c) 1) () (Nc 1)
def O1 (c : Dev nD) : CellTallies nD τ sig Unit := O2 c + tallyAt (recvCell (peer c) 0) () (Nc 0)
/-- At launch: those, and one unit on the partner's barrier. -/
def O₀ (c : Dev nD) : CellTallies nD τ sig Unit := O1 c + tallyAt (barCell (peer c)) () 1

def L (g : GSem nD τ sig) : Finset Unit := if g.1.2 = .tc then {()} else ∅
/-- Barrier semaphores at 1, receive semaphores at 2, everything else (staging, send) at 0. -/
def lv (g : GSem nD τ sig) (_ : Unit) : ℕ :=
  match g.2 with
  | .reg _ => 1
  | .dma q => if 6 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (h : Fin 4) (u : Unit) : lv (recvCell c h) u = 2 := by
  show (if 6 ≤ (recvS h).val then 2 else 0) = 2; rw [if_pos (by show 6 ≤ 6 + h.val; omega)]

theorem O1_pos {c : Dev nD} {g : GSem nD τ sig} {u : Unit} (hp : 0 < O1 c g u) : ∃ h : Fin 4, g = recvCell (peer c) h := by
  unfold O1 O2 O3 O4 at hp
  simp only [Pi.add_apply, Finsupp.add_apply, tallyAt_apply] at hp
  by_contra hn
  rw [not_exists] at hn
  rw [if_neg (fun h' => hn 3 h'.1), if_neg (fun h' => hn 2 h'.1), if_neg (fun h' => hn 1 h'.1), if_neg (fun h' => hn 0 h'.1)] at hp
  exact Nat.lt_irrefl 0 hp

theorem O₀_pos {c : Dev nD} {g : GSem nD τ sig} {u : Unit} (hp : 0 < O₀ c g u) :
    (∃ h : Fin 4, g = recvCell (peer c) h) ∨ g = barCell (peer c) := by
  unfold O₀ at hp
  rw [Pi.add_apply, Finsupp.add_apply, tallyAt_apply] at hp
  by_cases hb : g = barCell (peer c) ∧ u = ()
  · exact .inr hb.1
  · rw [if_neg hb, Nat.add_zero] at hp; exact .inl (O1_pos hp)

/-- A wait on a semaphore at level 0 (staging, send) is allowed whatever of its launch debt a device still owes. -/
theorem mayWait_low (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨h, rfl⟩ | rfl <;> exact Finset.mem_singleton_self _)
      (fun p hp => by
        rw [Finset.mem_singleton.mp hp]; show (if 6 ≤ q.val then 2 else 0) ≤ 0; rw [if_neg (by omega)])
      (fun g u hg => by
        rcases O₀_pos hg with ⟨h, rfl⟩ | rfl
        · rw [lv_recv]; decide
        · rw [lv_bar]; decide)
  · rw [MayWait_zero]; iintro -; iempintro

/-- At its barrier wait a device owes receive credit only: above the barrier. -/
theorem mayWait_bar (c : Dev nD) :
    (levAts L lv : sProp 𝕄) ⊢ MayWait (c : Thread nD τ) (.reg barS) () (O1 c) :=
  MayOwe.of_cut (L := L) (lev := lv) 1 (fun p hp => by rw [Finset.mem_singleton.mp hp, L_tc]; exact Finset.mem_singleton_self _)
    (fun g u hg => by obtain ⟨h, rfl⟩ := O1_pos hg; exact Finset.mem_singleton_self _)
    (fun p hp => by rw [Finset.mem_singleton.mp hp]; exact le_refl 1)
    (fun g u hg => by obtain ⟨h, rfl⟩ := O1_pos hg; rw [lv_recv]; decide)

end Cert.KernelIdealP

end
-- ==== Proof.KernelIdealP.Data.lean ====
/-
  The proof data of the one grid point. Before the body a device holds its two scratch buffers at arbitrary
  contents, its place at round 0 of its nine semaphores, the tokens of the nine duties it pays (the partner's
  barrier and four receive duties, its own four send duties), credit for what it will wait for from the partner
  (one barrier unit, four bands' receive credit), and owes the partner exactly that. After the body the staging
  buffer holds the four staged bands, the landing buffer the partner's, the eight scoped semaphores are back at
  zero, nothing is owed, and the result block is the kept half beside the landed half.
-/
import proofs.«900407_g7700000000000408_dist_a2a_v7x_xyz2x2x2_x_m1024_n512_f32_1_alg».proof.Proof.KernelIdealP.Sched
import proofs.«900407_g7700000000000408_dist_a2a_v7x_xyz2x2x2_x_m1024_n512_f32_1_alg».proof.Proof.Gen.KernelIdeal.Points

noncomputable section

namespace Cert.KernelIdealP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The nine semaphores of a device, enumerated -/

/-- The kernel's own (scoped) semaphores, as the launch indexes them: send 0–3, receive 0–3; -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)
/-- all nine of the exchange: the barrier, then those. -/
abbrev csem : Fin 9 → SemLoc sig := fun
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)
abbrev kcell (ck : Dev nD × Fin 9) : GSem nD τ sig := ((ck.1 : Thread nD τ), csem ck.2)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The ghost state -/

/-- Every semaphore's invariant, under the names the launch allocated them at, and that round 0 of each is reached. -/
def records (K : Dev nD × Fin 9 → ℕ) : sProp 𝕄 :=
  iprop((bigSep Finset.univ fun ck : Dev nD × Fin 9 => cellInv ER (exRd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem inv_at (K : Dev nD × Fin 9 → ℕ) (ck : Dev nD × Fin 9) :
    (bigSep Finset.univ fun ck : Dev nD × Fin 9 => (cellInv ER (exRd m ρ) (K ck) (kcell ck) : sProp 𝕄)) ⊢ cellInv ER (exRd m ρ) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- The tokens of the duties a device PAYS: the partner's barrier duty, the partner's four receive duties, its own
    four send duties. -/
def payToks (c : Dev nD) : sProp 𝕄 :=
  iprop(dutyTok ER (barCell (peer c)) 0 ()
    ∗ (dutyTok ER (sendCell c 0) 0 () ∗ dutyTok ER (sendCell c 1) 0 () ∗ dutyTok ER (sendCell c 2) 0 () ∗ dutyTok ER (sendCell c 3) 0 ())
    ∗ (dutyTok ER (recvCell (peer c) 0) 0 () ∗ dutyTok ER (recvCell (peer c) 1) 0 () ∗ dutyTok ER (recvCell (peer c) 2) 0 () ∗ dutyTok ER (recvCell (peer c) 3) 0 ()))

/-- What stays with one device: its place at round 0 of its nine semaphores, and the tokens it pays with. -/
def linear (c : Dev nD) : sProp 𝕄 :=
  iprop((bigSep Finset.univ fun k : Fin 9 => atPos ER (kcell (c, k)) 0 ∅ 0) ∗ payToks c)

def ghost (K : Dev nD × Fin 9 → ℕ) (c : Dev nD) : sProp 𝕄 := iprop(records m ρ K ∗ linear c)

/-- The credit a device waits with: one barrier unit, four bands' receive credit. -/
def creds (c : Dev nD) : sProp 𝕄 :=
  iprop(cred (tallyAt (barCell c) () 1)
    ∗ cred (tallyAt (recvCell c 0) () (Nc 0)) ∗ cred (tallyAt (recvCell c 1) () (Nc 1)) ∗ cred (tallyAt (recvCell c 2) () (Nc 2)) ∗ cred (tallyAt (recvCell c 3) () (Nc 3)))

def start (c : Dev nD) : sProp 𝕄 := iprop((∃ K, ghost m ρ K c) ∗ creds c ∗ levAts L lv)

def sWhole (c : Dev nD) (f : Buf (Elt F) ((sM : Memref sig .tc .vmem S1024x512 .bf16).view.loc (c : Thread nD τ))) : sProp 𝕄 :=
  (sM : Memref sig .tc .vmem S1024x512 .bf16).view.loc (c : Thread nD τ) ↦[(sM : Memref sig .tc .vmem S1024x512 .bf16).view.set]{fullShare} f

theorem sWhole_eq (c : Dev nD) (f : Buf (Elt F) ((c : Thread nD τ).loc cc0_scratch0)) :
    sWhole c f = (((c : Thread nD τ).loc cc0_scratch0) ↦{fullShare} f : sProp 𝕄) := by unfold sWhole; rw [View.set_whole]
theorem rWhole_eq (c : Dev nD) (f : Buf (Elt F) ((c : Thread nD τ).loc cc0_scratch1)) :
    rWhole c f = (((c : Thread nD τ).loc cc0_scratch1) ↦{fullShare} f : sProp 𝕄) := by unfold rWhole; rw [View.set_whole]

/-- The scoped semaphores of the exchange, back at zero. -/
def ownZero (c : Dev nD) : sProp 𝕄 :=
  iprop(semVal (sendCell c 0) 0 ∗ semVal (sendCell c 1) 0 ∗ semVal (sendCell c 2) 0 ∗ semVal (sendCell c 3) 0
    ∗ semVal (recvCell c 0) 0 ∗ semVal (recvCell c 1) 0 ∗ semVal (recvCell c 2) 0 ∗ semVal (recvCell c 3) 0)

def Φ₀ (c : Dev nD) : sProp 𝕄 := iprop(start m ρ c ∗ (∃ f, sWhole c f) ∗ ∃ f, rWhole c f)
def Φ₁ (c : Dev nD) : sProp 𝕄 := iprop(sWhole c (sbufC m ρ c) ∗ rWhole c (rbufC m ρ c) ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdealP

end
-- ==== Proof.KernelIdealP.Bands.lean ====
/-
  One band of 256 rows of the two bf16 scratch buffers.

  An index i of band h of a 1024 x 512 buffer has i 0 = 256 h + y 0 with y 0 < 256 and i 1 = y 1, so
  (i 0) / 256 = h and (i 0) % 256 = y 0. A store of a 256 x 512 payload through the band puts the payload's entry y
  at i; the staged contents read the same payload at the same y. A copy of band h of one buffer onto band h of
  another puts at i what the first buffer holds at i.
-/
import proofs.«900407_g7700000000000408_dist_a2a_v7x_xyz2x2x2_x_m1024_n512_f32_1_alg».proof.Proof.KernelIdealP.Proto
import Idealize.ShloMosaic.Rules.PointsTo

noncomputable section

namespace Cert.KernelIdealP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## An index of a band, by coordinates -/

/-- The row of the buffer under row y 0 of band h. -/
theorem band_row (h : Fin 4) (y : S256x512.Idx) : ((rowR h).emb y 0).val = 256 * h.val + (y 0).val :=
  (Rect.emb_apply (rowR h) y 0).trans (by show 256 * h.val + 1 * (y 0).val = _; rw [Nat.one_mul])

/-- The column of the buffer under column y 1 of band h. -/
theorem band_col (h : Fin 4) (y : S256x512.Idx) : ((rowR h).emb y 1).val = (y 1).val :=
  (Rect.emb_apply (rowR h) y 1).trans (by show 0 + 1 * (y 1).val = _; rw [Nat.one_mul, Nat.zero_add])

/-- The rounded band read at an entry depends on the band and the entry only. -/
theorem pay_congr (c : Dev nD) {h h' : Fin 4} (e : h' = h) {y y' : S256x512.Idx} (ey : y' = y) :
    k0_pay2 (ldX m ρ c h') y' = k0_pay2 (ldX m ρ c h) y := by subst e; subst ey; rfl

/-- The staged contents under entry y of band h: entry y of band h of the half sent, rounded. -/
theorem sbufC_band (c : Dev nD) (h : Fin 4) (y : S256x512.Idx) :
    sbufC m ρ c ((rowR h).emb y) = k0_pay2 (ldX m ρ c h) y := by
  have hy0 : (y 0).val < 256 := ValueIdx.idx2_lt0 y
  refine pay_congr m ρ c (Fin.ext ?_) ?_
  · show ((rowR h).emb y 0).val / 256 = h.val
    rw [band_row]; omega
  · refine Eq.trans ?_ (ValueIdx.eq_ix2 y).symm
    refine congrArg₂ ValueIdx.ix2 (Fin.ext ?_) (Fin.ext ?_)
    · show ((rowR h).emb y 0).val % 256 = (y 0).val
      rw [band_row]; omega
    · exact band_col h y

/-! ## The store of a band -/

theorem sband_store (c : Dev nD) (h : Fin 4) (f0 : Buf (Elt F) (((sM : Memref sig .tc .vmem S1024x512 .bf16).access (rowR h)).loc (c : Thread nD τ))) :
    ∀ i ∈ ((sM : Memref sig .tc .vmem S1024x512 .bf16).access (rowR h)).set,
      (((sM : Memref sig .tc .vmem S1024x512 .bf16).access (rowR h)).write (Elt F) f0 (k0_pay2 (ldX m ρ c h)) Finset.univ) i = sbufC m ρ c i := by
  intro i hi
  obtain ⟨y, -, rfl⟩ := Finset.mem_map.mp hi
  refine (View.write_emb_of_mem _ _ (Finset.mem_univ y)).trans ?_
  refine (cast_eq _ _).trans ?_
  exact (sbufC_band m ρ c h y).symm

theorem sband_restate (c : Dev nD) (h : Fin 4) (f0 : Buf (Elt F) (((sM : Memref sig .tc .vmem S1024x512 .bf16).access (rowR h)).loc (c : Thread nD τ))) :
    ((((sM : Memref sig .tc .vmem S1024x512 .bf16).access (rowR h)).loc (c : Thread nD τ) ↦[((sM : Memref sig .tc .vmem S1024x512 .bf16).access (rowR h)).set]{fullShare} (((sM : Memref sig .tc .vmem S1024x512 .bf16).access (rowR h)).write (Elt F) f0 (k0_pay2 (ldX m ρ c h)) Finset.univ)) : sProp 𝕄) = sBand c h (sbufC m ρ c) :=
  pointsTo_congr (sband_store m ρ c h f0)

/-! ## The landing of a band -/

theorem rband_land (c : Dev nD) (h : Fin 4) (fd : Buf (Elt F) ((rSl h).view.loc ((peer c : Dev nD) : Thread nD τ))) :
    ∀ i ∈ (rSl h).view.set, ((rSl h).view.write (Elt F) fd ((sSl h).view.read (Elt F) (sbufC m ρ c)) Finset.univ) i = rbufC m ρ (peer c) i := by
  intro i hi
  obtain ⟨y, -, rfl⟩ := Finset.mem_map.mp hi
  refine (View.write_emb_of_mem _ _ (Finset.mem_univ y)).trans ?_
  refine (cast_eq _ _).trans ?_
  refine (View.read_apply _ y).trans ?_
  refine (cast_eq _ _).trans ?_
  show sbufC m ρ c ((rowR h).emb y) = sbufC m ρ (peer (peer c)) ((rowR h).emb y)
  rw [peer_peer]

theorem rband_restate (c : Dev nD) (h : Fin 4) (fd : Buf (Elt F) ((rSl h).view.loc ((peer c : Dev nD) : Thread nD τ))) :
    (((rSl h).view.loc ((peer c : Dev nD) : Thread nD τ) ↦[(rSl h).view.set]{fullShare} ((rSl h).view.write (Elt F) fd ((sSl h).view.read (Elt F) (sbufC m ρ c)) Finset.univ)) : sProp 𝕄) = recvPay m ρ (peer c) h :=
  pointsTo_congr (rband_land m ρ c h fd)

/-! ## A whole buffer is its four bands -/

/-- Every index of the buffer is in the band of its row divided by 256. -/
theorem bands_cover : (Finset.univ : Finset S1024x512.Idx) = (Finset.univ : Finset (Fin 4)).biUnion fun h => (rowR h).set := by
  ext i
  simp only [Finset.mem_univ, Finset.mem_biUnion, true_iff, true_and]
  have hi0 : (i 0).val < 1024 := ValueIdx.idx2_lt0 i
  have hi1 : (i 1).val < 512 := ValueIdx.idx2_lt1 i
  refine ⟨⟨(i 0).val / 256, by omega⟩, Rect.mem_set_unit.mpr (Fin.forall_fin_two.mpr ⟨?_, ?_⟩)⟩
  · show 256 * ((i 0).val / 256) ≤ (i 0).val ∧ (i 0).val < 256 * ((i 0).val / 256) + 256
    omega
  · show 0 ≤ (i 1).val ∧ (i 1).val < 0 + 512
    omega

/-- Two different bands share no row. -/
theorem bands_disjoint (h h' : Fin 4) (hne : h ≠ h') : Disjoint (rowR h).set (rowR h').set := by
  refine Rect.unit_disjoint 0 ?_
  show 256 * h.val + 256 ≤ 256 * h'.val ∨ 256 * h'.val + 256 ≤ 256 * h.val
  have : h.val ≠ h'.val := fun e => hne (Fin.ext e)
  omega

omit [FloatOps F] in
/-- A separating conjunction over the four bands, spelt out. -/
theorem bigSep_bands4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem sWhole_bands (c : Dev nD) (f : Buf (Elt F) ((sM : Memref sig .tc .vmem S1024x512 .bf16).view.loc (c : Thread nD τ))) :
    (((sM : Memref sig .tc .vmem S1024x512 .bf16).view.loc (c : Thread nD τ) ↦[(sM : Memref sig .tc .vmem S1024x512 .bf16).view.set]{fullShare} f) : sProp 𝕄)
      = iprop(sBand c 0 f ∗ sBand c 1 f ∗ sBand c 2 f ∗ sBand c 3 f) := by
  have hset : (sM : Memref sig .tc .vmem S1024x512 .bf16).view.set
      = (Finset.univ : Finset (Fin 4)).biUnion fun h => (sSl h).view.set := by
    refine (View.set_whole (cc0_scratch0 : Ref sig .tc)).trans (bands_cover.trans ?_)
    exact Finset.biUnion_congr rfl fun h _ => (View.set_slice_whole (cc0_scratch0 : Ref sig .tc) (rowR h)).symm
  refine (congrArg (fun I => (((sM : Memref sig .tc .vmem S1024x512 .bf16).view.loc (c : Thread nD τ) ↦[I]{fullShare} f) : sProp 𝕄)) hset).trans ?_
  refine (pointsTo_biUnion _ _ fun h _ h' _ hne => ?_).trans (bigSep_bands4 _)
  rw [View.set_slice_whole (cc0_scratch0 : Ref sig .tc) (rowR h), View.set_slice_whole (cc0_scratch0 : Ref sig .tc) (rowR h')]
  exact bands_disjoint h h' hne

omit [FloatOps F] in
theorem rWhole_bands (c : Dev nD) (f : Buf (Elt F) ((rM : Memref sig .tc .vmem S1024x512 .bf16).view.loc (c : Thread nD τ))) :
    rWhole c f = iprop(rBand c 0 f ∗ rBand c 1 f ∗ rBand c 2 f ∗ rBand c 3 f) := by
  have hset : (rM : Memref sig .tc .vmem S1024x512 .bf16).view.set
      = (Finset.univ : Finset (Fin 4)).biUnion fun h => (rSl h).view.set := by
    refine (View.set_whole (cc0_scratch1 : Ref sig .tc)).trans (bands_cover.trans ?_)
    exact Finset.biUnion_congr rfl fun h _ => (View.set_slice_whole (cc0_scratch1 : Ref sig .tc) (rowR h)).symm
  refine (congrArg (fun I => (((rM : Memref sig .tc .vmem S1024x512 .bf16).view.loc (c : Thread nD τ) ↦[I]{fullShare} f) : sProp 𝕄)) hset).trans ?_
  refine (pointsTo_biUnion _ _ fun h _ h' _ hne => ?_).trans (bigSep_bands4 _)
  rw [View.set_slice_whole (cc0_scratch1 : Ref sig .tc) (rowR h), View.set_slice_whole (cc0_scratch1 : Ref sig .tc) (rowR h')]
  exact bands_disjoint h h' hne

/-- info: 'Cert.KernelIdealP.sband_restate' depends on axioms: [propext, Classical.choice, Quot.sound] -/
#guard_msgs in #print axioms sband_restate

/-- info: 'Cert.KernelIdealP.rband_restate' depends on axioms: [propext, Classical.choice, Quot.sound] -/
#guard_msgs in #print axioms rband_restate

/-- info: 'Cert.KernelIdealP.sWhole_bands' depends on axioms: [propext, Classical.choice, Quot.sound] -/
#guard_msgs in #print axioms sWhole_bands

/-- info: 'Cert.KernelIdealP.rWhole_bands' depends on axioms: [propext, Classical.choice, Quot.sound] -/
#guard_msgs in #print axioms rWhole_bands

end Cert.KernelIdealP

end
-- ==== Proof.KernelIdealP.OutWrites.lean ====
/-
  The result block after the body's five stores.

  With x the device's coordinate on the first mesh axis, the first store covers rows [1024x, 1024x + 1024) of the
  2048 × 512 block and the r-th of the other four rows [1024(1 - x) + 256r, 1024(1 - x) + 256r + 256), each all 512
  columns: five row ranges, pairwise disjoint, that cover the 2048 rows. So what the block held before is gone, and
  each element holds the payload of the one store whose rows hold it, at the element's position within those rows.
-/
import proofs.«900407_g7700000000000408_dist_a2a_v7x_xyz2x2x2_x_m1024_n512_f32_1_alg».proof.Proof.KernelIdealP.Proto
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelIdealP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## A store through a unit-stride rectangle of a whole buffer, read at one element -/

section Generic

variable {sg : RefSig} {κ : Kind} {Val : EltTy → Type}

/-- The element at position `x` of the rectangle takes the payload at `x`. -/
theorem write_unit_of_mem (b : Ref sg κ) {off off' size : Fin b.ty.shape.rank → ℕ}
    (inb : ∀ a, off a + size a ≤ b.ty.shape.size a) (f : b.ty.Contents Val)
    (w : (Rect.unit off size inb).shape.Idx → Val b.ty.elt) (i : b.ty.Idx)
    (x : (Rect.unit off size inb).shape.Idx) (heq : off = off') (hx : ∀ a, (i a).val = off' a + (x a).val) :
    ((Memref.whole b).access (Rect.unit off size inb)).write Val f w Finset.univ i = w x := by
  subst heq
  have hy : ((Memref.whole b).access (Rect.unit off size inb)).emb x = i := funext fun a => Fin.ext (by
    show off a + 1 * (x a).val = (i a).val
    rw [hx a, Nat.one_mul])
  have h := View.write_emb_of_mem (v := (Memref.whole b).access (Rect.unit off size inb)) (Val := Val) f w
    (M := Finset.univ) (x := x) (Finset.mem_univ _)
  rw [hy] at h
  exact h

/-- An element that misses the rectangle on axis `a` keeps what it held. -/
theorem write_unit_of_not_mem (b : Ref sg κ) {off off' size : Fin b.ty.shape.rank → ℕ}
    (inb : ∀ a, off a + size a ≤ b.ty.shape.size a) (f : b.ty.Contents Val)
    (w : (Rect.unit off size inb).shape.Idx → Val b.ty.elt) (M : Finset (Rect.unit off size inb).shape.Idx)
    (i : b.ty.Idx) (heq : off = off') (a : Fin b.ty.shape.rank)
    (ha : (i a).val < off' a ∨ off' a + size a ≤ (i a).val) :
    ((Memref.whole b).access (Rect.unit off size inb)).write Val f w M i = f i := by
  subst heq
  refine View.write_of_not_mem _ _ _ (fun hm => ?_)
  have hs : i ∈ ((View.whole b).slice (Rect.unit off size inb)).set := View.setOn_subset_set _ M hm
  rw [View.set_slice_whole, Rect.mem_set_unit] at hs
  have := hs a
  omega

end Generic

/-! ## The five stores -/

variable {F : FTy → Type} [FloatOps F]

local notation "𝕄" => MT nD τ sig Unit (Elt F) ℕ UU ℕ

variable (m : (ℓ : Loc nD τ sig) → Buf (Elt F) ℓ) (ρ : Dev nD → PrngReg)

/-- The rows the first store covers: the device's own half of the rows. -/
abbrev R6 (c : Dev nD) : Rect S2048x512 := Rect.unit (s := S2048x512) (k0_off6 c) S1024x512.size (k0_off6_inb c)
/-- The rows the store of landed band `r` covers: band `r` of the other half of the rows. -/
abbrev R7 (c : Dev nD) (r : Fin 4) : Rect S2048x512 :=
  Rect.unit (s := S2048x512) (k0_off7 c (BitVec.ofNat 32 (256 * r.val))) S256x512.size (k0_off7_inb c r)

/-- The result block after the five stores, from what it held before. -/
def outW (c : Dev nD) (g : (cc0_stg1_0 : Ref sig .tc).ty.Contents (Elt F)) : (cc0_stg1_0 : Ref sig .tc).ty.Contents (Elt F) :=
  ((oM : Memref sig .tc .vmem S2048x512 .f32).access (R7 c 3)).write (Elt F)
    (((oM : Memref sig .tc .vmem S2048x512 .f32).access (R7 c 2)).write (Elt F)
      (((oM : Memref sig .tc .vmem S2048x512 .f32).access (R7 c 1)).write (Elt F)
        (((oM : Memref sig .tc .vmem S2048x512 .f32).access (R7 c 0)).write (Elt F)
          (((oM : Memref sig .tc .vmem S2048x512 .f32).access (R6 c)).write (Elt F) g (k0_pay6 (ldK m ρ c)) Finset.univ)
          (k0_pay7 (ldR m ρ c 0)) Finset.univ)
        (k0_pay8 (ldR m ρ c 1)) Finset.univ)
      (k0_pay9 (ldR m ρ c 2)) Finset.univ)
    (k0_pay1 (ldR m ρ c 3)) Finset.univ

omit [FloatOps F] in
/-- An element of the device's own half of the rows takes the first store's payload at its row within that half. -/
theorem land6 (c : Dev nD) (f : (cc0_stg1_0 : Ref sig .tc).ty.Contents (Elt F)) (w : FVec F S1024x512 .f32)
    (i : (cc0_stg1_0 : Ref sig .tc).ty.Idx) (h : (i 0).val / 1024 = c.val / 4) :
    ((oM : Memref sig .tc .vmem S2048x512 .f32).access (R6 c)).write (Elt F) f w Finset.univ i
      = w (ValueIdx.ix2 (⟨(i 0).val % 1024, Nat.mod_lt _ (by decide)⟩ : Fin 1024) (⟨(i 1).val, (i 1).isLt⟩ : Fin 512)) :=
  write_unit_of_mem (b := (cc0_stg1_0 : Ref sig .tc)) (k0_off6_inb c) f w i _ (k0_off6_eq c)
    (Fin.forall_fin_two.mpr ⟨by
      show (i 0).val = 1024 * (c.val / 4) + (i 0).val % 1024
      omega, by
      show (i 1).val = 0 + (i 1).val
      omega⟩)

omit [FloatOps F] in
/-- An element of band `r` of the other half of the rows takes that band's store's payload at its row within the band. -/
theorem land7 (c : Dev nD) (r : Fin 4) (f : (cc0_stg1_0 : Ref sig .tc).ty.Contents (Elt F)) (w : FVec F S256x512 .f32)
    (i : (cc0_stg1_0 : Ref sig .tc).ty.Idx)
    (h : (256 * r.val + 1024) - 1024 * (c.val / 4) ≤ (i 0).val ∧ (i 0).val < (256 * r.val + 1024) - 1024 * (c.val / 4) + 256) :
    ((oM : Memref sig .tc .vmem S2048x512 .f32).access (R7 c r)).write (Elt F) f w Finset.univ i
      = w (ValueIdx.ix2 (⟨(i 0).val % 256, Nat.mod_lt _ (by decide)⟩ : Fin 256) (⟨(i 1).val, (i 1).isLt⟩ : Fin 512)) :=
  write_unit_of_mem (b := (cc0_stg1_0 : Ref sig .tc)) (k0_off7_inb c r) f w i _ (k0_off7_eq c r)
    (Fin.forall_fin_two.mpr ⟨by
      show (i 0).val = ((256 * r.val + 1024) - 1024 * (c.val / 4)) + (i 0).val % 256
      have := r.isLt
      have := c.isLt
      omega, by
      show (i 1).val = 0 + (i 1).val
      omega⟩)

omit [FloatOps F] in
/-- An element outside band `r` of the other half of the rows keeps what it held through that band's store. -/
theorem peel7 (c : Dev nD) (r : Fin 4) (f : (cc0_stg1_0 : Ref sig .tc).ty.Contents (Elt F)) (w : FVec F S256x512 .f32)
    (i : (cc0_stg1_0 : Ref sig .tc).ty.Idx)
    (h : (i 0).val < (256 * r.val + 1024) - 1024 * (c.val / 4) ∨ (256 * r.val + 1024) - 1024 * (c.val / 4) + 256 ≤ (i 0).val) :
    ((oM : Memref sig .tc .vmem S2048x512 .f32).access (R7 c r)).write (Elt F) f w Finset.univ i = f i :=
  write_unit_of_not_mem (b := (cc0_stg1_0 : Ref sig .tc)) (k0_off7_inb c r) f w Finset.univ i (k0_off7_eq c r) 0 h

/-! ## The result block by rows -/

/-- On the device's own half of the rows the result block is the half of the columns it kept. -/
theorem outAt_own (c : Dev nD) (i : (cc0_stg1_0 : Ref sig .tc).ty.Idx) (h : (i 0).val / 1024 = c.val / 4) :
    outAt m ρ c i
      = k0_pay6 (ldK m ρ c)
          (ValueIdx.ix2 (⟨(i 0).val % 1024, Nat.mod_lt _ (by decide)⟩ : Fin 1024) (⟨(i 1).val, (i 1).isLt⟩ : Fin 512)) :=
  if_pos h

/-- On band `r` of the other half of the rows it is the landed band, widened. -/
theorem outAt_other (c : Dev nD) (i : (cc0_stg1_0 : Ref sig .tc).ty.Idx) (h : ¬ (i 0).val / 1024 = c.val / 4)
    (r : Fin 4) (hr : ((i 0).val % 1024) / 256 = r.val) :
    outAt m ρ c i
      = k0_pay7 (ldR m ρ c r)
          (ValueIdx.ix2 (⟨(i 0).val % 256, Nat.mod_lt _ (by decide)⟩ : Fin 256) (⟨(i 1).val, (i 1).isLt⟩ : Fin 512)) := by
  obtain ⟨rv, hrv⟩ := r
  change ((i 0).val % 1024) / 256 = rv at hr
  subst hr
  exact if_neg h

/-- The five stores cover the block: what it held before does not matter. -/
theorem outW_eq (c : Dev nD) (g : (cc0_stg1_0 : Ref sig .tc).ty.Contents (Elt F)) : outW m ρ c g = outAt m ρ c := by
  funext i
  have hi0 : (i 0).val < 2048 := (i 0).isLt
  have hc : c.val < 8 := c.isLt
  have v0 : (0 : Fin 4).val = 0 := rfl
  have v1 : (1 : Fin 4).val = 1 := rfl
  have v2 : (2 : Fin 4).val = 2 := rfl
  have v3 : (3 : Fin 4).val = 3 := rfl
  by_cases h6 : (i 0).val / 1024 = c.val / 4
  · refine (peel7 c 3 _ _ i (by omega)).trans ?_
    refine (peel7 c 2 _ _ i (by omega)).trans ?_
    refine (peel7 c 1 _ _ i (by omega)).trans ?_
    refine (peel7 c 0 _ _ i (by omega)).trans ?_
    refine (land6 c _ _ i h6).trans ?_
    exact (outAt_own m ρ c i h6).symm
  · have hr : ((i 0).val % 1024) / 256 = 0 ∨ ((i 0).val % 1024) / 256 = 1 ∨ ((i 0).val % 1024) / 256 = 2
        ∨ ((i 0).val % 1024) / 256 = 3 := by omega
    rcases hr with hr | hr | hr | hr
    · refine (peel7 c 3 _ _ i (by omega)).trans ?_
      refine (peel7 c 2 _ _ i (by omega)).trans ?_
      refine (peel7 c 1 _ _ i (by omega)).trans ?_
      refine (land7 c 0 _ _ i (by omega)).trans ?_
      exact (outAt_other m ρ c i h6 0 (hr.trans v0.symm)).symm
    · refine (peel7 c 3 _ _ i (by omega)).trans ?_
      refine (peel7 c 2 _ _ i (by omega)).trans ?_
      refine (land7 c 1 _ _ i (by omega)).trans ?_
      exact (outAt_other m ρ c i h6 1 (hr.trans v1.symm)).symm
    · refine (peel7 c 3 _ _ i (by omega)).trans ?_
      refine (land7 c 2 _ _ i (by omega)).trans ?_
      exact (outAt_other m ρ c i h6 2 (hr.trans v2.symm)).symm
    · refine (land7 c 3 _ _ i (by omega)).trans ?_
      exact (outAt_other m ρ c i h6 3 (hr.trans v3.symm)).symm

/-- info: 'Cert.KernelIdealP.outW_eq' depends on axioms: [propext, Classical.choice, Quot.sound] -/
#guard_msgs in #print axioms outW_eq

end Cert.KernelIdealP

end
-- ==== Proof.KernelIdealP.Body.lean ====
/-
  One device's body, stepped from its invariant: the signal to the partner's barrier hands over the device's own
  landing buffer; the barrier wait brings the partner's; each band is staged and sent (the band of the staging
  buffer lent to the transfer until its send wait, the band of the partner's landing buffer given up for good);
  the kept half is copied; each band's two waits bring back the staged band and the landed band, which is widened
  into the result block.
-/
import proofs.«900407_g7700000000000408_dist_a2a_v7x_xyz2x2x2_x_m1024_n512_f32_1_alg».proof.Proof.KernelIdealP.Data
import proofs.«900407_g7700000000000408_dist_a2a_v7x_xyz2x2x2_x_m1024_n512_f32_1_alg».proof.Proof.KernelIdealP.Bands
import proofs.«900407_g7700000000000408_dist_a2a_v7x_xyz2x2x2_x_m1024_n512_f32_1_alg».proof.Proof.KernelIdealP.OutWrites

noncomputable section

namespace Cert.KernelIdealP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 9 → ℕ)

def bodyPre (c : Dev nD) : sProp 𝕄 :=
  iprop((ghost m ρ K c ∗ creds c ∗ levAts L lv ∗ (∃ f, sWhole c f) ∗ ∃ f, rWhole c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- Band h's transfer to the partner: pays send duty h of the device's own send semaphore with the staged band, and
    receive duty h of the partner's receive semaphore with the band as it lands there. -/
theorem wp_send_band (κ₁ κ₂ : ℕ) (c n : Dev nD) (hn : n = peer c) (h : Fin 4)
    {hsc : (rSl h : Memref sig (Dev.tc n : Thread nD τ).2.kind .vmem S256x512 .bf16).view.ref.isScScratch = false}
    {hsrc : (sSl h : Memref sig .tc .vmem S256x512 .bf16).view.WordExact} {hdst : (rSl h : Memref sig .tc .vmem S256x512 .bf16).view.WordExact}
    {hsem : DmaTarget.Typed .vmem (.dma (recvS h)) (.remote (Dev.tc n : Thread nD τ) (rSl h : Memref sig .tc .vmem S256x512 .bf16) (.dma (sendS h)) hsc)}
    {α : Type} {Q : α → sProp 𝕄} {k : PUnit → Prog (TpuEff nD τ sig (Elt F) Λ₀ .tc) α}
    (fn : Buf (Elt F) ((rSl h : Memref sig .tc .vmem S256x512 .bf16).view.loc (peer c : Thread nD τ))) (O₀ O : CellTallies nD τ sig Unit)
    (hO : O₀ = O + tallyAt (recvCell (peer c) h) () (Nc h)) {W : Waits sig Unit} :
    iprop(cellInv ER (exRd m ρ) κ₁ (sendCell c h) ∗ cellInv ER (exRd m ρ) κ₂ (recvCell (peer c) h)
        ∗ sBand c h (sbufC m ρ c) ∗ rBand (peer c) h fn
        ∗ owes (c : Thread nD τ) O₀ W
        ∗ dutyTok ER (sendCell c h) 0 () ∗ reached ER (sendCell c h) 0
        ∗ dutyTok ER (recvCell (peer c) h) 0 () ∗ reached ER (recvCell (peer c) h) 0)
      ⊢ iprop(((cred (tallyAt (sendCell c h) () (sSl h : Memref sig .tc .vmem S256x512 .bf16).view.dmaCredit) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl h) (.remote (Dev.tc n : Thread nD τ) (rSl h) (.dma (sendS h)) hsc) (.dma (recvS h)) hsrc hdst hsem) k) Q) := by
  subst hn
  rw [sNc h]
  unfold sBand rBand
  exact Rounds.wp_send_pointsTo 𝒱₀ ER (exRd m ρ) (c : Thread nD τ) none (κ₁ := κ₁) (κ₂ := κ₂)
    (r₁ := 0) (r₂ := 0) (d₁ := ()) (d₂ := ()) (fd := fn)
    (by rw [duties_send]; exact Finset.mem_univ _) (by rw [duties_recv]; exact Finset.mem_univ _)
    () () (Nc h) rfl (amount_send m ρ c h ()) (amount_recv m ρ (peer c) h ()) O hO (W := W)
    (by rw [payload_send]; exact BI.Entails.refl _)
    (by rw [payload_recv]; exact Entails.of_eq (rband_restate m ρ c h fn))

theorem semS0 : ((SemArray.slice cc0_scratch2 (Rect.unit (s := S4) ![0] ![1] inb_S4_S1_0)).squeeze S_ squeezes_S1_S_).sem = sendS 0 := rfl
theorem semR0 : ((SemArray.slice cc0_scratch3 (Rect.unit (s := S4) ![0] ![1] inb_S4_S1_0)).squeeze S_ squeezes_S1_S_).sem = recvS 0 := rfl
theorem semS1 : ((SemArray.slice cc0_scratch2 (Rect.unit (s := S4) ![1] ![1] inb_S4_S1_1)).squeeze S_ squeezes_S1_S_).sem = sendS 1 := rfl
theorem semR1 : ((SemArray.slice cc0_scratch3 (Rect.unit (s := S4) ![1] ![1] inb_S4_S1_1)).squeeze S_ squeezes_S1_S_).sem = recvS 1 := rfl
theorem semS2 : ((SemArray.slice cc0_scratch2 (Rect.unit (s := S4) ![2] ![1] inb_S4_S1_2)).squeeze S_ squeezes_S1_S_).sem = sendS 2 := rfl
theorem semR2 : ((SemArray.slice cc0_scratch3 (Rect.unit (s := S4) ![2] ![1] inb_S4_S1_2)).squeeze S_ squeezes_S1_S_).sem = recvS 2 := rfl
theorem semS3 : ((SemArray.slice cc0_scratch2 (Rect.unit (s := S4) ![3] ![1] inb_S4_S1_3)).squeeze S_ squeezes_S1_S_).sem = sendS 3 := rfl
theorem semR3 : ((SemArray.slice cc0_scratch3 (Rect.unit (s := S4) ![3] ![1] inb_S4_S1_3)).squeeze S_ squeezes_S1_S_).sem = recvS 3 := rfl

/-- Band h staged: over whatever the band held, the store of the rounded loaded band leaves the staged contents. -/
theorem wp_stage_band (c : Dev nD) (h : Fin 4) (f0 : Buf (Elt F) (((sM : Memref sig .tc .vmem S1024x512 .bf16).access (rowR h)).loc (c : Thread nD τ)))
    {hl : (sM : Memref sig .tc .vmem S1024x512 .bf16).view.LoadsAt (rowR h).toLoadRect}
    {hx : ((sM : Memref sig .tc .vmem S1024x512 .bf16).access (rowR h)).Stores Finset.univ}
    {hm : (Finset.univ : Finset (rowR h).shape.Idx) = Finset.univ ∨ ∀ a, (rowR h).stride a = 1}
    {α : Type} {Q : α → sProp 𝕄} {k : PUnit → Prog (TpuEff nD τ sig (Elt F) Λ₀ .tc) α} :
    sBand c h f0
      ⊢ iprop((sBand c h (sbufC m ρ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load sM (rowR h).toLoadRect hl) fun _ => .op (.store sM (rowR h) (k0_pay2 (ldX m ρ c h)) Finset.univ hx hm) k) Q) := by
  have e := sband_restate m ρ c h f0
  unfold sBand at e ⊢
  iintro Hs Hk
  iapply (wp_load_rect 𝒱₀ (c : Thread nD τ) none Set.univ (m := sM) (Finset.Subset.refl _)) $$ Hs; iintro Hs
  iapply (wp_store 𝒱₀ (c : Thread nD τ) none Set.univ (m := sM) (r := rowR h) (Mk := Finset.univ) (S := ((sM : Memref sig .tc .vmem S1024x512 .bf16).access (rowR h)).set) (Finset.Subset.refl _)) $$ Hs; iintro Hs
  iapply Hk
  iapply (Entails.of_eq e)
  iexact Hs

/-- The barrier duty's payload at the partner's barrier, as a bare points-to, the partner's partner resolved; -/
theorem payload_barP (c : Dev nD) (d : Unit) : (exRd (F := F) m ρ).payload (barCell (peer c)) 0 d
    = iprop(∃ f, ((rM : Memref sig .tc .vmem S1024x512 .bf16).view.loc (c : Thread nD τ) ↦[(rM : Memref sig .tc .vmem S1024x512 .bf16).view.set]{fullShare} f : sProp 𝕄)) := by
  rw [payload_bar]; unfold barPay rWhole; rw [peer_peer]
/-- and at the device's own barrier. -/
theorem payload_barO (c : Dev nD) (d : Unit) : (exRd (F := F) m ρ).payload (barCell c) 0 d
    = iprop(∃ f, ((rM : Memref sig .tc .vmem S1024x512 .bf16).view.loc ((peer c : Dev nD) : Thread nD τ) ↦[(rM : Memref sig .tc .vmem S1024x512 .bf16).view.set]{fullShare} f : sProp 𝕄)) := by
  rw [payload_bar]; unfold barPay rWhole; rfl
theorem inv_bar (K : Dev nD × Fin 9 → ℕ) (c : Dev nD) :
    (bigSep Finset.univ fun ck : Dev nD × Fin 9 => (cellInv ER (exRd m ρ) (K ck) (kcell ck) : sProp 𝕄)) ⊢ cellInv ER (exRd m ρ) (K (c, 0)) (barCell c) := inv_at m ρ K (c, 0)
theorem reached_bar (c : Dev nD) :
    (bigSep Finset.univ fun ck : Dev nD × Fin 9 => (reached ER (kcell ck) 0 : sProp 𝕄)) ⊢ reached ER (barCell c) 0 := reached_at (F := F) (c, 0)

theorem bigSep_unit (Φ : Unit → sProp 𝕄) : bigSep Finset.univ Φ = Φ () := by
  rw [Finset.univ_unique (α := Unit), bigSep_singleton]

attribute [local sl_rounds] duties_bar amount_bar payload_barO expect_bar
attribute [local sl_rounds high] payload_barP

theorem dev1_eq (c : Dev nD) : (⟨k0_dev1 c, k0_dev1_lt c⟩ : Dev nD) = peer c := rfl

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost records linear payToks creds
  rw [bigSep_fin9]
  iintro ⟨⟨⟨⟨⟨#HI, #HR⟩, ⟨HatB, HatS0, HatS1, HatS2, HatS3, HatR0, HatR1, HatR2, HatR3⟩, HtBP, ⟨HtS0, HtS1, HtS2, HtS3⟩, ⟨HtRP0, HtRP1, HtRP2, HtRP3⟩⟩,
      ⟨HcB, HcR0, HcR1, HcR2, HcR3⟩, #Hlev, ⟨%fs0, Hs⟩, ⟨%fr0, Hr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [semS0, semS1, semS2, semS3, semR0, semR1, semR2, semR3]
  -- the signal to the partner's barrier (with it goes the device's own landing buffer) and the wait on its own
  -- barrier, owing receive credit only (the partner's landing buffer comes with it): the two remote steps the
  -- symbolic run takes from the invariants, the token, the tallies and the tables
  ihave HIbarP := (inv_bar m ρ K (peer c)) $$ HI
  icases HIbarP with #HIbarP
  ihave HIbar := (inv_bar m ρ K c) $$ HI
  icases HIbar with #HIbar
  ihave HRbarP := (reached_bar (F := F) (peer c)) $$ HR
  icases HRbarP with #HRbarP
  unfold O₀ O1 O2 O3 O4
  unfold rWhole
  have hmw := mayWait_bar (F := F) c
  unfold O1 O2 O3 O4 at hmw
  set_option sl_exec.maxSteps 2 in sl_exec
  ihave Hp := (Entails.of_eq (bigSep_unit _)) $$ HatB_pay1
  icases Hp with ⟨%fn, HrP⟩
  -- both scratch buffers by bands
  have eP := rWhole_bands (F := F) (peer c) fn
  unfold rWhole at eP
  ihave HrP' := (Entails.of_eq eP) $$ HrP
  icases HrP' with ⟨HrP0, HrP1, HrP2, HrP3⟩
  unfold sWhole
  ihave Hs' := (Entails.of_eq (sWhole_bands c fs0)) $$ Hs
  icases Hs' with ⟨Hs0, Hs1, Hs2, Hs3⟩

  -- band 0: staged, then sent
  iapply (wp_load 𝒱₀ (c : Thread nD τ) none Set.univ (m := xM) (Finset.subset_univ _)) $$ Hx; iintro Hx
  iapply (wp_stage_band m ρ c 0 fs0) $$ Hs0; iintro Hs0'
  iapply (wp_send_band m ρ (K (c, 1)) (K (peer c, 5)) c _ (dev2_eq c) 0 fn _ (O2 c) rfl) $$ [Hs0' HrP0 HO HtS0 HtRP0]
  · isplitr; · iapply (inv_at m ρ K (c, 1)); iexact HI
    isplitr; · iapply (inv_at m ρ K (peer c, 5)); iexact HI
    isplitl [Hs0']; · iexact Hs0'
    isplitl [HrP0]; · iexact HrP0
    isplitl [HO]; · iexact HO
    isplitl [HtS0]; · iexact HtS0
    isplitr; · iapply (reached_at (F := F) (c, 1)); iexact HR
    isplitl [HtRP0]; · iexact HtRP0
    iapply (reached_at (F := F) (peer c, 5)); iexact HR
  iintro ⟨HcS0, HO⟩

  -- band 1: staged, then sent
  iapply (wp_load 𝒱₀ (c : Thread nD τ) none Set.univ (m := xM) (Finset.subset_univ _)) $$ Hx; iintro Hx
  iapply (wp_stage_band m ρ c 1 fs0) $$ Hs1; iintro Hs1'
  unfold O2
  iapply (wp_send_band m ρ (K (c, 2)) (K (peer c, 6)) c _ (dev3_eq c) 1 fn _ (O3 c) rfl) $$ [Hs1' HrP1 HO HtS1 HtRP1]
  · isplitr; · iapply (inv_at m ρ K (c, 2)); iexact HI
    isplitr; · iapply (inv_at m ρ K (peer c, 6)); iexact HI
    isplitl [Hs1']; · iexact Hs1'
    isplitl [HrP1]; · iexact HrP1
    isplitl [HO]; · iexact HO
    isplitl [HtS1]; · iexact HtS1
    isplitr; · iapply (reached_at (F := F) (c, 2)); iexact HR
    isplitl [HtRP1]; · iexact HtRP1
    iapply (reached_at (F := F) (peer c, 6)); iexact HR
  iintro ⟨HcS1, HO⟩

  -- band 2: staged, then sent
  iapply (wp_load 𝒱₀ (c : Thread nD τ) none Set.univ (m := xM) (Finset.subset_univ _)) $$ Hx; iintro Hx
  iapply (wp_stage_band m ρ c 2 fs0) $$ Hs2; iintro Hs2'
  unfold O3
  iapply (wp_send_band m ρ (K (c, 3)) (K (peer c, 7)) c _ (dev4_eq c) 2 fn _ (O4 c) rfl) $$ [Hs2' HrP2 HO HtS2 HtRP2]
  · isplitr; · iapply (inv_at m ρ K (c, 3)); iexact HI
    isplitr; · iapply (inv_at m ρ K (peer c, 7)); iexact HI
    isplitl [Hs2']; · iexact Hs2'
    isplitl [HrP2]; · iexact HrP2
    isplitl [HO]; · iexact HO
    isplitl [HtS2]; · iexact HtS2
    isplitr; · iapply (reached_at (F := F) (c, 3)); iexact HR
    isplitl [HtRP2]; · iexact HtRP2
    iapply (reached_at (F := F) (peer c, 7)); iexact HR
  iintro ⟨HcS2, HO⟩

  -- band 3: staged, then sent
  iapply (wp_load 𝒱₀ (c : Thread nD τ) none Set.univ (m := xM) (Finset.subset_univ _)) $$ Hx; iintro Hx
  iapply (wp_stage_band m ρ c 3 fs0) $$ Hs3; iintro Hs3'
  unfold O4
  iapply (wp_send_band m ρ (K (c, 4)) (K (peer c, 8)) c _ (dev5_eq c) 3 fn _ (0) (zero_add _).symm) $$ [Hs3' HrP3 HO HtS3 HtRP3]
  · isplitr; · iapply (inv_at m ρ K (c, 4)); iexact HI
    isplitr; · iapply (inv_at m ρ K (peer c, 8)); iexact HI
    isplitl [Hs3']; · iexact Hs3'
    isplitl [HrP3]; · iexact HrP3
    isplitl [HO]; · iexact HO
    isplitl [HtS3]; · iexact HtS3
    isplitr; · iapply (reached_at (F := F) (c, 4)); iexact HR
    isplitl [HtRP3]; · iexact HtRP3
    iapply (reached_at (F := F) (peer c, 8)); iexact HR
  iintro ⟨HcS3, HO⟩
  -- the half it keeps, into its own rows of the result
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := R6 c) (Mk := Finset.univ) (Finset.subset_univ _)) $$ Hout; iintro Hout

  -- band 0: its send wait brings the staged band back, its receive wait the landed band, widened into the result
  iapply (Rounds.wp_wait_rest_token 𝒱₀ ER (exRd m ρ) (c : Thread nD τ) none (κ := K (c, 1))
      (wpE_waitDma2_eq 𝒱₀ (c : Thread nD τ) none Set.univ) (Set.mem_univ _) () (O := 0) (R := 0) (m := 0) (T := ∅)
      ((Nat.zero_add _).trans ((sNc 0).trans (expect_send m ρ c 0).symm))) $$ [HcS0 HO HatS0]
  · isplitr; · iapply (inv_at m ρ K (c, 1)); iexact HI
    isplitl [HcS0]; · iexact HcS0
    isplitl [HO]; · iexact HO
    isplitr; · rw [MayWait_zero]; iempintro
    iexact HatS0
  iintro ⟨HO, HatS0, -, Hpay⟩
  ihave Hs0 := (Entails.of_eq (rest_send m ρ c 0)) $$ Hpay
  iapply (Rounds.wp_wait_rest_token 𝒱₀ ER (exRd m ρ) (c : Thread nD τ) none (κ := K (c, 5))
      (wpE_waitDma2_eq 𝒱₀ (c : Thread nD τ) none Set.univ) (Set.mem_univ _) () (O := 0) (R := 0) (m := 0) (T := ∅)
      ((Nat.zero_add _).trans (expect_recv m ρ c 0).symm)) $$ [HcR0 HO HatR0]
  · isplitr; · iapply (inv_at m ρ K (c, 5)); iexact HI
    isplitl [HcR0]; · iexact HcR0
    isplitl [HO]; · iexact HO
    isplitr; · rw [MayWait_zero]; iempintro
    iexact HatR0
  iintro ⟨HO, HatR0, -, Hpay⟩
  ihave Hr0 := (Entails.of_eq (rest_recv m ρ c 0)) $$ Hpay
  imod (Rounds.cell_close ER (exRd m ρ) (Set.mem_univ (K (c, 1))) (fun h => h) (R := 0 + 1) (duties_later m ρ (sendCell c 0))) $$ [HatS0] with HzS0
  · isplitr; · iapply (inv_at m ρ K (c, 1)); iexact HI
    iexact HatS0
  imod (Rounds.cell_close ER (exRd m ρ) (Set.mem_univ (K (c, 5))) (fun h => h) (R := 0 + 1) (duties_later m ρ (recvCell c 0))) $$ [HatR0] with HzR0
  · isplitr; · iapply (inv_at m ρ K (c, 5)); iexact HI
    iexact HatR0
  unfold recvPay rBand
  iapply (wp_load_rect 𝒱₀ (c : Thread nD τ) none Set.univ (m := rM) (Finset.Subset.refl _)) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := R7 c 0) (Mk := Finset.univ) (Finset.subset_univ _)) $$ Hout; iintro Hout

  -- band 1: its send wait brings the staged band back, its receive wait the landed band, widened into the result
  iapply (Rounds.wp_wait_rest_token 𝒱₀ ER (exRd m ρ) (c : Thread nD τ) none (κ := K (c, 2))
      (wpE_waitDma2_eq 𝒱₀ (c : Thread nD τ) none Set.univ) (Set.mem_univ _) () (O := 0) (R := 0) (m := 0) (T := ∅)
      ((Nat.zero_add _).trans ((sNc 1).trans (expect_send m ρ c 1).symm))) $$ [HcS1 HO HatS1]
  · isplitr; · iapply (inv_at m ρ K (c, 2)); iexact HI
    isplitl [HcS1]; · iexact HcS1
    isplitl [HO]; · iexact HO
    isplitr; · rw [MayWait_zero]; iempintro
    iexact HatS1
  iintro ⟨HO, HatS1, -, Hpay⟩
  ihave Hs1 := (Entails.of_eq (rest_send m ρ c 1)) $$ Hpay
  iapply (Rounds.wp_wait_rest_token 𝒱₀ ER (exRd m ρ) (c : Thread nD τ) none (κ := K (c, 6))
      (wpE_waitDma2_eq 𝒱₀ (c : Thread nD τ) none Set.univ) (Set.mem_univ _) () (O := 0) (R := 0) (m := 0) (T := ∅)
      ((Nat.zero_add _).trans (expect_recv m ρ c 1).symm)) $$ [HcR1 HO HatR1]
  · isplitr; · iapply (inv_at m ρ K (c, 6)); iexact HI
    isplitl [HcR1]; · iexact HcR1
    isplitl [HO]; · iexact HO
    isplitr; · rw [MayWait_zero]; iempintro
    iexact HatR1
  iintro ⟨HO, HatR1, -, Hpay⟩
  ihave Hr1 := (Entails.of_eq (rest_recv m ρ c 1)) $$ Hpay
  imod (Rounds.cell_close ER (exRd m ρ) (Set.mem_univ (K (c, 2))) (fun h => h) (R := 0 + 1) (duties_later m ρ (sendCell c 1))) $$ [HatS1] with HzS1
  · isplitr; · iapply (inv_at m ρ K (c, 2)); iexact HI
    iexact HatS1
  imod (Rounds.cell_close ER (exRd m ρ) (Set.mem_univ (K (c, 6))) (fun h => h) (R := 0 + 1) (duties_later m ρ (recvCell c 1))) $$ [HatR1] with HzR1
  · isplitr; · iapply (inv_at m ρ K (c, 6)); iexact HI
    iexact HatR1
  unfold recvPay rBand
  iapply (wp_load_rect 𝒱₀ (c : Thread nD τ) none Set.univ (m := rM) (Finset.Subset.refl _)) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := R7 c 1) (Mk := Finset.univ) (Finset.subset_univ _)) $$ Hout; iintro Hout

  -- band 2: its send wait brings the staged band back, its receive wait the landed band, widened into the result
  iapply (Rounds.wp_wait_rest_token 𝒱₀ ER (exRd m ρ) (c : Thread nD τ) none (κ := K (c, 3))
      (wpE_waitDma2_eq 𝒱₀ (c : Thread nD τ) none Set.univ) (Set.mem_univ _) () (O := 0) (R := 0) (m := 0) (T := ∅)
      ((Nat.zero_add _).trans ((sNc 2).trans (expect_send m ρ c 2).symm))) $$ [HcS2 HO HatS2]
  · isplitr; · iapply (inv_at m ρ K (c, 3)); iexact HI
    isplitl [HcS2]; · iexact HcS2
    isplitl [HO]; · iexact HO
    isplitr; · rw [MayWait_zero]; iempintro
    iexact HatS2
  iintro ⟨HO, HatS2, -, Hpay⟩
  ihave Hs2 := (Entails.of_eq (rest_send m ρ c 2)) $$ Hpay
  iapply (Rounds.wp_wait_rest_token 𝒱₀ ER (exRd m ρ) (c : Thread nD τ) none (κ := K (c, 7))
      (wpE_waitDma2_eq 𝒱₀ (c : Thread nD τ) none Set.univ) (Set.mem_univ _) () (O := 0) (R := 0) (m := 0) (T := ∅)
      ((Nat.zero_add _).trans (expect_recv m ρ c 2).symm)) $$ [HcR2 HO HatR2]
  · isplitr; · iapply (inv_at m ρ K (c, 7)); iexact HI
    isplitl [HcR2]; · iexact HcR2
    isplitl [HO]; · iexact HO
    isplitr; · rw [MayWait_zero]; iempintro
    iexact HatR2
  iintro ⟨HO, HatR2, -, Hpay⟩
  ihave Hr2 := (Entails.of_eq (rest_recv m ρ c 2)) $$ Hpay
  imod (Rounds.cell_close ER (exRd m ρ) (Set.mem_univ (K (c, 3))) (fun h => h) (R := 0 + 1) (duties_later m ρ (sendCell c 2))) $$ [HatS2] with HzS2
  · isplitr; · iapply (inv_at m ρ K (c, 3)); iexact HI
    iexact HatS2
  imod (Rounds.cell_close ER (exRd m ρ) (Set.mem_univ (K (c, 7))) (fun h => h) (R := 0 + 1) (duties_later m ρ (recvCell c 2))) $$ [HatR2] with HzR2
  · isplitr; · iapply (inv_at m ρ K (c, 7)); iexact HI
    iexact HatR2
  unfold recvPay rBand
  iapply (wp_load_rect 𝒱₀ (c : Thread nD τ) none Set.univ (m := rM) (Finset.Subset.refl _)) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := R7 c 2) (Mk := Finset.univ) (Finset.subset_univ _)) $$ Hout; iintro Hout

  -- band 3: its send wait brings the staged band back, its receive wait the landed band, widened into the result
  iapply (Rounds.wp_wait_rest_token 𝒱₀ ER (exRd m ρ) (c : Thread nD τ) none (κ := K (c, 4))
      (wpE_waitDma2_eq 𝒱₀ (c : Thread nD τ) none Set.univ) (Set.mem_univ _) () (O := 0) (R := 0) (m := 0) (T := ∅)
      ((Nat.zero_add _).trans ((sNc 3).trans (expect_send m ρ c 3).symm))) $$ [HcS3 HO HatS3]
  · isplitr; · iapply (inv_at m ρ K (c, 4)); iexact HI
    isplitl [HcS3]; · iexact HcS3
    isplitl [HO]; · iexact HO
    isplitr; · rw [MayWait_zero]; iempintro
    iexact HatS3
  iintro ⟨HO, HatS3, -, Hpay⟩
  ihave Hs3 := (Entails.of_eq (rest_send m ρ c 3)) $$ Hpay
  iapply (Rounds.wp_wait_rest_token 𝒱₀ ER (exRd m ρ) (c : Thread nD τ) none (κ := K (c, 8))
      (wpE_waitDma2_eq 𝒱₀ (c : Thread nD τ) none Set.univ) (Set.mem_univ _) () (O := 0) (R := 0) (m := 0) (T := ∅)
      ((Nat.zero_add _).trans (expect_recv m ρ c 3).symm)) $$ [HcR3 HO HatR3]
  · isplitr; · iapply (inv_at m ρ K (c, 8)); iexact HI
    isplitl [HcR3]; · iexact HcR3
    isplitl [HO]; · iexact HO
    isplitr; · rw [MayWait_zero]; iempintro
    iexact HatR3
  iintro ⟨HO, HatR3, -, Hpay⟩
  ihave Hr3 := (Entails.of_eq (rest_recv m ρ c 3)) $$ Hpay
  imod (Rounds.cell_close ER (exRd m ρ) (Set.mem_univ (K (c, 4))) (fun h => h) (R := 0 + 1) (duties_later m ρ (sendCell c 3))) $$ [HatS3] with HzS3
  · isplitr; · iapply (inv_at m ρ K (c, 4)); iexact HI
    iexact HatS3
  imod (Rounds.cell_close ER (exRd m ρ) (Set.mem_univ (K (c, 8))) (fun h => h) (R := 0 + 1) (duties_later m ρ (recvCell c 3))) $$ [HatR3] with HzR3
  · isplitr; · iapply (inv_at m ρ K (c, 8)); iexact HI
    iexact HatR3
  unfold recvPay rBand
  iapply (wp_load_rect 𝒱₀ (c : Thread nD τ) none Set.univ (m := rM) (Finset.Subset.refl _)) $$ Hr3; iintro Hr3
  iapply (wp_load 𝒱₀ (c : Thread nD τ) none Set.univ (m := oM) (Finset.subset_univ _)) $$ Hout; iintro Hout
  iapply (wp_store 𝒱₀ (c : Thread nD τ) none Set.univ (m := oM) (r := R7 c 3) (Mk := Finset.univ) (Finset.subset_univ _)) $$ Hout; iintro Hout
  rw [wp_ret]; imodintro
  iapply Hk
  unfold bodyPost Φ₁ Dat.owesAt Pipeline.owesWithin ownZero
  rw [show (dats m ρ 0 c).owed t₀.succ = 0 from rfl]
  isplitl [Hs0 Hs1 Hs2 Hs3 Hr0 Hr1 Hr2 Hr3 HzS0 HzS1 HzS2 HzS3 HzR0 HzR1 HzR2 HzR3]
  · isplitl [Hs0 Hs1 Hs2 Hs3]
    · unfold sWhole sendPay
      iapply (Entails.of_eq (sWhole_bands c (sbufC m ρ c)).symm)
      isplitl [Hs0]; · iexact Hs0
      isplitl [Hs1]; · iexact Hs1
      isplitl [Hs2]; · iexact Hs2
      iexact Hs3
    isplitl [Hr0 Hr1 Hr2 Hr3]
    · iapply (Entails.of_eq (rWhole_bands c (rbufC m ρ c)).symm)
      unfold rBand
      isplitl [Hr0]; · iexact Hr0
      isplitl [Hr1]; · iexact Hr1
      isplitl [Hr2]; · iexact Hr2
      iexact Hr3
    isplitl [HzS0]; · iexact HzS0
    isplitl [HzS1]; · iexact HzS1
    isplitl [HzS2]; · iexact HzS2
    isplitl [HzS3]; · iexact HzS3
    isplitl [HzR0]; · iexact HzR0
    isplitl [HzR1]; · iexact HzR1
    isplitl [HzR2]; · iexact HzR2
    iexact HzR3
  isplitl [HO]
  · iexists (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W)))))))))
    isplitr; · ipureintro; exact fun _ _ => Or.inl trivial
    iexact HO
  isplitl [Hx]
  · iexists _; isplitr; · (ipureintro; rfl)
    iexact Hx
  iexists _; isplitr; · (ipureintro; exact outW_eq m ρ c g1)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on device c: the body, from the invariant before the point to the one after. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hs, Hr⟩, Ho, Hx, Hout⟩
  iapply (sound_body m ρ K c fun _ => bodyPost m ρ c)
  unfold bodyPre
  isplitr []
  · isplitl [Hg Hcr Hlev Hs Hr]
    · isplitl [Hg]; · iexact Hg
      isplitl [Hcr]; · iexact Hcr
      isplitl [Hlev]; · iexact Hlev
      isplitl [Hs]; · iexact Hs
      iexact Hr
    isplitl [Ho]; · iexact Ho
    isplitl [Hx] <;> iassumption
  · iintro H; iexact H

/-- info: 'Cert.KernelIdealP.body_obligation' depends on axioms: [propext, Classical.choice, Quot.sound] -/
#guard_msgs in #print axioms body_obligation

end Cert.KernelIdealP

end
-- ==== Proof.KernelIdealP.Launch.lean ====
/-
  The launch. Every device's nine semaphores of the exchange are funded at round 0 and given their invariants in one
  step for the whole machine; the records of that step are persistent and every device keeps a copy, with its place at
  its own nine semaphores and the tokens of the nine duties it pays: its own four send duties, and its partner's
  barrier duty and four receive duties, handed across the partner relation. The launch credit of a device is what the
  others owe its semaphores at launch: its partner alone owes it, one unit on the barrier and one band's credit on
  each receive semaphore. With each device's body obligation, the run of the whole program follows.
-/
import proofs.«900407_g7700000000000408_dist_a2a_v7x_xyz2x2x2_x_m1024_n512_f32_1_alg».proof.Proof.KernelIdealP.Data
import proofs.«900407_g7700000000000408_dist_a2a_v7x_xyz2x2x2_x_m1024_n512_f32_1_alg».proof.Proof.Gen.KernelIdeal.Launch
import proofs.«900407_g7700000000000408_dist_a2a_v7x_xyz2x2x2_x_m1024_n512_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 9 → SemLoc sig) := by decide

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def exCells : Finset (GSem nD τ sig) := Finset.univ.map ⟨kcell, kcell_injective⟩

/-- A device's own semaphores' duty tokens as minted: one per semaphore. -/
abbrev tokOf (ck : Dev nD × Fin 9) : GSem nD τ sig × ℕ × Unit := (kcell ck, 0, ())
theorem tokOf_injective : Function.Injective (tokOf : Dev nD × Fin 9 → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of a device's own semaphores. -/
def toks (c : Dev nD) : sProp 𝕄 := bigSep Finset.univ fun k : Fin 9 => dutyTok ER (kcell (c, k)) 0 ()

/-- What the launch element deals a device. -/
def G (c : Dev nD) : sProp 𝕄 :=
  iprop((bigSep Finset.univ fun k : Fin 9 => roundState ER (exRd m ρ) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 9 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the invariants -/

/-- The eight send and receive semaphores are the kernel's own; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5, 6, 7] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  unfold ownZero
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The records shared, the tokens dealt across the partner relation -/

theorem ghost_intro (K : Dev nD × Fin 9 → ℕ) (c : Dev nD) : iprop(records m ρ K ∗ linear c) ⊢ G' m ρ c := by
  unfold G' ghost
  iintro H
  iexists K
  iexact H

/-- The barrier token and the four receive tokens go to the partner; the four send tokens stay. -/
theorem toks_around : (bigSep Finset.univ fun c : Dev nD => (toks c : sProp 𝕄)) ⊢ bigSep Finset.univ fun c : Dev nD => payToks c := by
  have e : ∀ c : Dev nD, (toks c : sProp 𝕄)
      = iprop(dutyTok ER (barCell c) 0 ()
          ∗ dutyTok ER (sendCell c 0) 0 () ∗ dutyTok ER (sendCell c 1) 0 () ∗ dutyTok ER (sendCell c 2) 0 () ∗ dutyTok ER (sendCell c 3) 0 ()
          ∗ dutyTok ER (recvCell c 0) 0 () ∗ dutyTok ER (recvCell c 1) 0 () ∗ dutyTok ER (recvCell c 2) 0 () ∗ dutyTok ER (recvCell c 3) 0 ()) :=
    fun c => by unfold toks; rw [bigSep_fin9]
  rw [bigSep_congr (s := Finset.univ) fun c _ => e c]
  unfold payToks
  simp only [bigSep_sep']
  rw [bigSep_univ_equiv swap (fun c : Dev nD => (dutyTok ER (barCell c) 0 () : sProp 𝕄)),
    bigSep_univ_equiv swap (fun c : Dev nD => (dutyTok ER (recvCell c 0) 0 () : sProp 𝕄)),
    bigSep_univ_equiv swap (fun c : Dev nD => (dutyTok ER (recvCell c 1) 0 () : sProp 𝕄)),
    bigSep_univ_equiv swap (fun c : Dev nD => (dutyTok ER (recvCell c 2) 0 () : sProp 𝕄)),
    bigSep_univ_equiv swap (fun c : Dev nD => (dutyTok ER (recvCell c 3) 0 () : sProp 𝕄))]
  iintro ⟨HB, HS0, HS1, HS2, HS3, HR0, HR1, HR2, HR3⟩
  isplitl [HB]; · iexact HB
  isplitl [HS0 HS1 HS2 HS3]
  · isplitl [HS0]; · iexact HS0
    isplitl [HS1]; · iexact HS1
    isplitl [HS2]; · iexact HS2
    iexact HS3
  · isplitl [HR0]; · iexact HR0
    isplitl [HR1]; · iexact HR1
    isplitl [HR2]; · iexact HR2
    iexact HR3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (exRd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {h k : Fin 4} : Iff (recvCell a h = recvCell b k) (a = b ∧ h = k) :=
  ⟨fun e => ⟨Fin.ext (congrArg (fun g : GSem nD τ sig => g.1.1.val) e),
      recvS_inj (SemLoc.dma.inj (congrArg Prod.snd e))⟩, fun ⟨e1, e2⟩ => e1 ▸ e2 ▸ rfl⟩

/-- What device `d` owes device `c`'s barrier: one unit if it is `c`'s partner. -/
theorem owed_bar (d c : Dev nD) : O₀ d (barCell c) () = if d = peer c then 1 else 0 := by
  unfold O₀ O1 O2 O3 O4
  simp only [Pi.add_apply, Finsupp.add_apply, tallyAt_apply, and_true]
  have hne : ∀ k : Fin 4, ¬ barCell c = recvCell (peer d) k := fun k e => recv_ne_bar k (congrArg Prod.snd e).symm
  rw [if_neg (hne 3), if_neg (hne 2), if_neg (hne 1), if_neg (hne 0)]
  simp only [Nat.zero_add]
  by_cases h : d = peer c
  · subst h; rw [peer_peer, if_pos rfl, if_pos rfl]
  · rw [if_neg (fun h1 => h (by rw [← peer_peer d]; exact congrArg peer (bar_eq_iff.mp h1).symm)), if_neg h]

/-- What device `d` owes device `c`'s receive semaphore of band `h`: the band's credit if it is `c`'s partner. -/
theorem owed_recv (d c : Dev nD) (h : Fin 4) : O₀ d (recvCell c h) () = if d = peer c then Nc h else 0 := by
  unfold O₀ O1 O2 O3 O4
  simp only [Pi.add_apply, Finsupp.add_apply, tallyAt_apply, and_true]
  rw [if_neg (show ¬ recvCell c h = barCell (peer d) from fun e => recv_ne_bar h (congrArg Prod.snd e)), Nat.add_zero]
  by_cases hd : d = peer c
  · subst hd
    rw [peer_peer, if_pos rfl]
    have hk : ∀ h k : Fin 4, k ≠ h → ¬ recvCell c h = recvCell c k := fun h k hk e => hk (recv_eq_iff.mp e).2.symm
    have h4 : h = 0 ∨ h = 1 ∨ h = 2 ∨ h = 3 := by revert h; decide
    rcases h4 with rfl | rfl | rfl | rfl
    · rw [if_neg (hk 0 3 (by decide)), if_neg (hk 0 2 (by decide)), if_neg (hk 0 1 (by decide)), if_pos rfl, Nat.zero_add]
    · rw [if_neg (hk 1 3 (by decide)), if_neg (hk 1 2 (by decide)), if_pos rfl, if_neg (hk 1 0 (by decide)), Nat.zero_add, Nat.add_zero]
    · rw [if_neg (hk 2 3 (by decide)), if_pos rfl, if_neg (hk 2 1 (by decide)), if_neg (hk 2 0 (by decide)), Nat.zero_add, Nat.add_zero]
    · rw [if_pos rfl, if_neg (hk 3 2 (by decide)), if_neg (hk 3 1 (by decide)), if_neg (hk 3 0 (by decide)), Nat.add_zero]
  · have hne : ∀ k : Fin 4, ¬ recvCell c h = recvCell (peer d) k := fun k e =>
      hd (by rw [← peer_peer d]; exact congrArg peer (recv_eq_iff.mp e).1.symm)
    rw [if_neg (hne 3), if_neg (hne 2), if_neg (hne 1), if_neg (hne 0), if_neg hd]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) (h : Fin 4) :
    tallyOn (recvCell c h) (launchCredit (Pipeline.owing O₀) 0 (recvCell c h)) = (tallyAt (recvCell c h) () (Nc h) : CellTallies nD τ sig Unit) := by
  unfold tallyAt; refine congrArg _ (Finsupp.ext fun u => ?_); cases u
  rw [Pipeline.launchCredit_owing, Finsupp.single_eq_same, Finset.sum_congr rfl fun d _ => owed_recv d c h,
    Finset.sum_ite_eq' Finset.univ (peer c) fun _ => Nc h, if_pos (Finset.mem_univ _)]

theorem creds_intro (c : Dev nD) : (Pipeline.launchCred O₀ c : sProp 𝕄) ⊢ creds c := by
  unfold Pipeline.launchCred creds
  refine (bigSep_subset (t := [SemLoc.reg barS, SemLoc.dma (recvS 0), SemLoc.dma (recvS 1), SemLoc.dma (recvS 2), SemLoc.dma (recvS 3)].toFinset)
    (Finset.subset_univ _)).trans ?_
  rw [bigSep_eq_bigSepL_of_eq [SemLoc.reg barS, SemLoc.dma (recvS 0), SemLoc.dma (recvS 1), SemLoc.dma (recvS 2), SemLoc.dma (recvS 3)] rfl (by decide),
    ← launch_bar c, ← launch_recv c 0, ← launch_recv c 1, ← launch_recv c 2, ← launch_recv c 3]
  exact BI.Entails.refl _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hs0⟩, ⟨%f', Hr⟩⟩
  isplitl [Hs]; · iexact Hs
  isplitl [Hs0]
  · iexists f; rw [sWhole_eq]; iexact Hs0
  · iexists f'; rw [rWhole_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hs, Hr, Hz⟩
  isplitr; · iempintro
  isplitl [Hz]; · iexact Hz
  isplitl [Hs]
  · iexists (sbufC m ρ c); rw [← sWhole_eq]; iexact Hs
  · iexists (rbufC m ρ c); rw [← rWhole_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters, if every device's
    body meets its obligation: every weakly fair execution of the program — each device and its partner on the first
    mesh axis handshaking on the barrier semaphore, then exchanging four bands — terminates, and every final state has
    each device's result array at the computed contents and the argument unchanged. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealP.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealP

end
-- ==== Proof.KernelIdealP.Final.lean ====
/-
  What the launch leaves in the two windowed arrays: the argument array as it was, the result array holding the
  result block. Each window's one block is its whole array, so the one write-back replaces the array's contents.
-/
import proofs.«900407_g7700000000000408_dist_a2a_v7x_xyz2x2x2_x_m1024_n512_f32_1_alg».proof.Proof.KernelIdealP.Data
import proofs.«900407_g7700000000000408_dist_a2a_v7x_xyz2x2x2_x_m1024_n512_f32_1_alg».proof.Proof.Gen.KernelIdeal.Points
import Idealize.ShloMosaic.Lib.Pipeline.Value
import Idealize.ShloMosaic.Lib.Pipeline.Cells

noncomputable section

namespace Cert.KernelIdealP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array is never written: it ends as it was at launch. -/
theorem final_in (c : Dev nD) :
    (dats m ρ 0 c).arrAt (0 : Fin 2) cfg0.N = (s₀ m ρ).mem ((c : Thread nD τ).loc main_arg0) :=
  (dats m ρ 0 c).arrAt_in (0 : Fin 2) rfl _

/-- The result array after the one write-back holds the result block. -/
theorem final_out (c : Dev nD) :
    (dats m ρ 0 c).arrAt (1 : Fin 2) cfg0.N = outAt m ρ c := by
  have hN : cfg0.N = (t₀ : Fin cfg0.N).val + 1 := cfg0_N
  refine (congrArg ((dats m ρ 0 c).arrAt (1 : Fin 2)) hN).trans ?_
  rw [Dat.arrAt_succ, if_pos (flush0_1 t₀)]
  refine (Memref.write_access_unit_zero_univ (Elt F) main_v1 (funext fun a => Nat.zero_mul _) _ _ _).trans ?_
  funext i
  exact congrArg (outAt m ρ c) (funext fun a => Fin.ext rfl)

/-- info: 'Cert.KernelIdealP.final_in' depends on axioms: [propext, Classical.choice, Quot.sound] -/
#guard_msgs in #print axioms final_in
/-- info: 'Cert.KernelIdealP.final_out' depends on axioms: [propext, Classical.choice, Quot.sound] -/
#guard_msgs in #print axioms final_out

end Cert.KernelIdealP

end
-- ==== Proof.KernelP.Proto.lean ====
/-
  The exchange between a device and its partner on the first mesh axis, as a protocol.

  A device is numbered 4x + 2y + z; its partner has the other x and the same y, z. Each device holds rows
  [1024x, 1024x + 1024) of the whole array, all 1024 columns, and must end with all 2048 rows of columns
  [512x, 512x + 512). It keeps its own rows of those columns and needs the partner's rows of them; so it sends
  the partner the OTHER half of its columns, rounded to bf16, in four bands of 256 rows, band h through its own
  send semaphore h onto the partner's receive semaphore h, after the two have told each other (one unit on the
  partner's barrier semaphore) that their landing buffers exist.

  One round per semaphore, one duty per round. The barrier's duty is paid by the partner's signal and hands over
  the partner's whole landing buffer; send duty h returns band h of the staging buffer holding what was staged;
  receive duty h hands over band h of the landing buffer holding the partner's staged band.
-/
import proofs.«900407_g7700000000000408_dist_a2a_v7x_xyz2x2x2_x_m1024_n512_f32_1_alg».proof.Proof.Gen.Kernel
import proofs.«900407_g7700000000000408_dist_a2a_v7x_xyz2x2x2_x_m1024_n512_f32_1_alg».proof.Proof.Gen.Kernel.Skeleton
import proofs.«900407_g7700000000000408_dist_a2a_v7x_xyz2x2x2_x_m1024_n512_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the pipeline's staging cells, and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-! ## The partner -/

/-- The device with the other coordinate on the first mesh axis. -/
def peer (c : Dev nD) : Dev nD := ⟨k0_dev1 c, k0_dev1_lt c⟩

theorem peer_val (c : Dev nD) : (peer c).val = (2 * ((c.val / 2) % 2) + (c.val % 2) + 4) - 4 * (c.val / 4) := k0_dev1_eq c
theorem peer_peer (c : Dev nD) : peer (peer c) = c := by
  apply Fin.ext; rw [peer_val, peer_val]; have : c.val < 8 := c.isLt; omega
theorem peer_ne (c : Dev nD) : peer c ≠ c := fun h => by
  have h' := congrArg Fin.val h; rw [peer_val] at h'; have : c.val < 8 := c.isLt; omega
theorem peer_x (c : Dev nD) : (peer c).val / 4 = 1 - c.val / 4 := by rw [peer_val]; have : c.val < 8 := c.isLt; omega

/-- Every device id the body computes names the partner. -/
theorem dev2_eq (c : Dev nD) : (⟨k0_dev2 c, k0_dev2_lt c⟩ : Dev nD) = peer c := Fin.ext ((k0_dev2_eq c).trans (k0_dev1_eq c).symm)
theorem dev3_eq (c : Dev nD) : (⟨k0_dev3 c, k0_dev3_lt c⟩ : Dev nD) = peer c := Fin.ext ((k0_dev3_eq c).trans (k0_dev1_eq c).symm)
theorem dev4_eq (c : Dev nD) : (⟨k0_dev4 c, k0_dev4_lt c⟩ : Dev nD) = peer c := Fin.ext ((k0_dev4_eq c).trans (k0_dev1_eq c).symm)
theorem dev5_eq (c : Dev nD) : (⟨k0_dev5 c, k0_dev5_lt c⟩ : Dev nD) = peer c := Fin.ext ((k0_dev5_eq c).trans (k0_dev1_eq c).symm)

def swap : Dev nD ≃ Dev nD := ⟨peer, peer, peer_peer, peer_peer⟩

/-! ## The buffers, the bands, the semaphores -/

abbrev xM : Memref sig .tc .vmem S1024x1024 .f32 := Memref.whole cc0_stg0_0
abbrev oM : Memref sig .tc .vmem S2048x512 .f32 := Memref.whole cc0_stg1_0
abbrev sM : Memref sig .tc .vmem S1024x512 .bf16 := Memref.whole cc0_scratch0
abbrev rM : Memref sig .tc .vmem S1024x512 .bf16 := Memref.whole cc0_scratch1

/-- Band h: rows [256h, 256h + 256), all 512 columns. -/
def rowOff (h : Fin 4) : Fin 2 → ℕ := ![256 * h.val, 0]
theorem rowInb (h : Fin 4) : ∀ a, rowOff h a + S256x512.size a ≤ S1024x512.size a := by revert h; decide
abbrev rowR (h : Fin 4) : Rect S1024x512 := Rect.unit (s := S1024x512) (rowOff h) S256x512.size (rowInb h)
abbrev sSl (h : Fin 4) : Memref sig .tc .vmem S256x512 .bf16 := sM.slice (rowR h) (fun _ => rfl)
abbrev rSl (h : Fin 4) : Memref sig .tc .vmem S256x512 .bf16 := rM.slice (rowR h) (fun _ => rfl)

abbrev barS : Sem sig := (SemArray.scalar (sig.barrier 0 rfl) : Sems sig S_).sem
def sendS (h : Fin 4) : DmaSem sig := ⟨2 + h.val, by have := h.isLt; show 2 + h.val < 10; omega⟩
def recvS (h : Fin 4) : DmaSem sig := ⟨6 + h.val, by have := h.isLt; show 6 + h.val < 10; omega⟩

abbrev barCell (c : Dev nD) : GSem nD τ sig := ((c : Thread nD τ), .reg barS)
abbrev sendCell (c : Dev nD) (h : Fin 4) : GSem nD τ sig := ((c : Thread nD τ), .dma (sendS h))
abbrev recvCell (c : Dev nD) (h : Fin 4) : GSem nD τ sig := ((c : Thread nD τ), .dma (recvS h))

/-- What one band's transfer credits each of its two semaphores. -/
abbrev Nc (h : Fin 4) : ℕ := (rSl h).view.dmaCredit
theorem Nc_pos (h : Fin 4) : 0 < Nc h := View.dmaCredit_pos _ (by decide)
theorem sNc (h : Fin 4) : (sSl h).view.dmaCredit = Nc h := rfl

/-! ## Contents -/

/-- The device's block of the argument, as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- Where the body reads band h of the half it sends. -/
def offX (c : Dev nD) : Fin 4 → Fin 2 → ℕ
  | 0 => k0_off1 c | 1 => k0_off2 c | 2 => k0_off3 c | 3 => k0_off4 c
theorem offX_inb (c : Dev nD) (h : Fin 4) : ∀ a, offX c h a + S256x512.size a ≤ S1024x1024.size a := by
  fin_cases h
  · exact k0_off1_inb c
  · exact k0_off2_inb c
  · exact k0_off3_inb c
  · exact k0_off4_inb c

/-- Band h of the half a device sends, as loaded. -/
def ldX (c : Dev nD) (h : Fin 4) : Vec F S256x512 .f32 :=
  (xM : Memref sig .tc .vmem S1024x1024 .f32).view.readAt (Elt F)
    (Rect.unit (s := S1024x1024) (offX c h) S256x512.size (offX_inb c h)).toLoadRect (xstg m ρ c)

/-- The half a device keeps, as loaded. -/
def ldK (c : Dev nD) : Vec F S1024x512 .f32 :=
  (xM : Memref sig .tc .vmem S1024x1024 .f32).view.readAt (Elt F)
    (Rect.unit (s := S1024x1024) (k0_off5 c) S1024x512.size (k0_off5_inb c)).toLoadRect (xstg m ρ c)

/-- The staging buffer once all four bands are staged: row r of it is row r mod 256 of band r / 256, rounded. -/
def sbufC (c : Dev nD) : (cc0_scratch0 : Ref sig .tc).ty.Contents (Elt F) := fun i =>
  k0_pay2 (ldX m ρ c ⟨(i 0).val / 256, by have : (i 0).val < 1024 := (i 0).isLt; omega⟩)
    (ValueIdx.ix2 (⟨(i 0).val % 256, Nat.mod_lt _ (by decide)⟩ : Fin 256) (⟨(i 1).val, (i 1).isLt⟩ : Fin 512))

/-- The landing buffer once all four bands have landed: the partner's staging buffer. -/
def rbufC (c : Dev nD) : (cc0_scratch1 : Ref sig .tc).ty.Contents (Elt F) := sbufC m ρ (peer c)

/-- Band h of the landing buffer, as loaded. -/
def ldR (c : Dev nD) (h : Fin 4) : Vec F S256x512 .bf16 :=
  (rM : Memref sig .tc .vmem S1024x512 .bf16).view.readAt (Elt F) (rowR h).toLoadRect (rbufC m ρ c)

/-- The result block: rows of the device's own half of the rows hold the half of the columns it kept, the other
    rows what landed, widened again. -/
def outAt (c : Dev nD) : (cc0_stg1_0 : Ref sig .tc).ty.Contents (Elt F) := fun i =>
  if (i 0).val / 1024 = c.val / 4 then
    k0_pay6 (ldK m ρ c) (ValueIdx.ix2 (⟨(i 0).val % 1024, Nat.mod_lt _ (by decide)⟩ : Fin 1024) (⟨(i 1).val, (i 1).isLt⟩ : Fin 512))
  else
    k0_pay7 (ldR m ρ c ⟨((i 0).val % 1024) / 256, by have := Nat.mod_lt (i 0).val (show 0 < 1024 by decide); omega⟩)
      (ValueIdx.ix2 (⟨(i 0).val % 256, Nat.mod_lt _ (by decide)⟩ : Fin 256) (⟨(i 1).val, (i 1).isLt⟩ : Fin 512))

/-! ## Points-to assertions by band -/

def sBand (c : Dev nD) (h : Fin 4) (f : Buf (Elt F) ((sSl h).view.loc (c : Thread nD τ))) : sProp 𝕄 :=
  (sSl h).view.loc (c : Thread nD τ) ↦[(sSl h).view.set]{fullShare} f
def rBand (c : Dev nD) (h : Fin 4) (f : Buf (Elt F) ((rSl h).view.loc (c : Thread nD τ))) : sProp 𝕄 :=
  (rSl h).view.loc (c : Thread nD τ) ↦[(rSl h).view.set]{fullShare} f
def rWhole (c : Dev nD) (f : Buf (Elt F) ((rM : Memref sig .tc .vmem S1024x512 .bf16).view.loc (c : Thread nD τ))) : sProp 𝕄 :=
  (rM : Memref sig .tc .vmem S1024x512 .bf16).view.loc (c : Thread nD τ) ↦[(rM : Memref sig .tc .vmem S1024x512 .bf16).view.set]{fullShare} f

omit [FloatOps F] in
instance sBand_storable (c : Dev nD) (h : Fin 4) (f) : BI.Storable (upEmb : UEmb _ 𝕄) (sBand (F := F) c h f) := by unfold sBand; infer_instance
omit [FloatOps F] in
instance rBand_storable (c : Dev nD) (h : Fin 4) (f) : BI.Storable (upEmb : UEmb _ 𝕄) (rBand (F := F) c h f) := by unfold rBand; infer_instance
omit [FloatOps F] in
instance rWhole_storable (c : Dev nD) (f) : BI.Storable (upEmb : UEmb _ 𝕄) (rWhole (F := F) c f) := by unfold rWhole; infer_instance

/-! ## The schedule -/

def barPay (c : Dev nD) : sProp 𝕄 := iprop(∃ f, rWhole (peer c) f)
def sendPay (c : Dev nD) (h : Fin 4) : sProp 𝕄 := sBand c h (sbufC m ρ c)
def recvPay (c : Dev nD) (h : Fin 4) : sProp 𝕄 := rBand c h (rbufC m ρ c)

abbrev IsBar (g : GSem nD τ sig) : Prop := g.1.2 = .tc ∧ g.2 = .reg barS
abbrev IsSend (g : GSem nD τ sig) (h : Fin 4) : Prop := g.1.2 = .tc ∧ g.2 = .dma (sendS h)
abbrev IsRecv (g : GSem nD τ sig) (h : Fin 4) : Prop := g.1.2 = .tc ∧ g.2 = .dma (recvS h)
abbrev IsXfer (g : GSem nD τ sig) : Prop := g.1.2 = .tc ∧ ∃ h : Fin 4, g.2 = .dma (sendS h) ∨ g.2 = .dma (recvS h)

/-- Which band a DMA semaphore of the exchange serves. -/
def bandOf (q : DmaSem sig) : Fin 4 := ⟨(q.val + 2) % 4, Nat.mod_lt _ (by decide)⟩
theorem bandOf_send (h : Fin 4) : bandOf (sendS h) = h := by revert h; decide
theorem bandOf_recv (h : Fin 4) : bandOf (recvS h) = h := by revert h; decide

def exRd : Rounds.Schedule (GSem nD τ sig) Unit 𝕄 where
  duties g r := if r = 0 ∧ (IsBar g ∨ IsXfer g) then Finset.univ else ∅
  unitless _ := False
  amount g _ _ := match g.2 with
    | .reg _ => 1
    | .dma q => Nc (bandOf q)
  payload g _ _ := match g.2 with
    | .reg _ => barPay g.1.1
    | .dma q => if q.val < 6 then sendPay m ρ g.1.1 (bandOf q) else recvPay m ρ g.1.1 (bandOf q)
  amount_pos g _ _ _ := by
    rcases hg : g.2 with s | q
    · simp only [hg]; exact Nat.one_pos
    · simp only [hg]; exact Nc_pos _

end Cert.KernelP

end
-- ==== Proof.KernelP.Sched.lean ====
/-
  The schedule's tables read at each of a device's nine semaphores, what a device owes its partner at launch
  (one unit on the partner's barrier, one band's credit on each of the partner's four receive semaphores), and the
  levels that order the waits: barrier below receive, everything else lowest. A device waits on its barrier
  owing only receive credit, and on its send and receive semaphores owing nothing.
-/
import proofs.«900407_g7700000000000408_dist_a2a_v7x_xyz2x2x2_x_m1024_n512_f32_1_alg».proof.Proof.KernelP.Proto

noncomputable section

namespace Cert.KernelP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance exRd_payload_storable (g : GSem nD τ sig) (r : ℕ) (d : Unit) :
    BI.Storable (upEmb : UEmb _ 𝕄) ((exRd (F := F) m ρ).payload g r d) := by
  show BI.Storable upEmb (match g.2 with
    | .reg _ => barPay g.1.1
    | .dma q => if q.val < 6 then sendPay m ρ g.1.1 (bandOf q) else recvPay m ρ g.1.1 (bandOf q))
  unfold barPay sendPay recvPay
  (repeat' split) <;> infer_instance

section Tables
variable (c : Dev nD) (h : Fin 4)

theorem send_ne_bar : (SemLoc.dma (sendS h) : SemLoc sig) ≠ .reg barS := fun e => by cases e
theorem recv_ne_bar : (SemLoc.dma (recvS h) : SemLoc sig) ≠ .reg barS := fun e => by cases e
theorem send_ne_recv (h' : Fin 4) : (SemLoc.dma (sendS h) : SemLoc sig) ≠ .dma (recvS h') := by revert h h'; decide
theorem recv_ne_send (h' : Fin 4) : (SemLoc.dma (recvS h) : SemLoc sig) ≠ .dma (sendS h') := by revert h h'; decide
theorem sendS_inj {h h' : Fin 4} (e : sendS h = sendS h') : h = h' := by revert h h'; decide
theorem recvS_inj {h h' : Fin 4} (e : recvS h = recvS h') : h = h' := by revert h h'; decide

theorem duties_bar : (exRd (F := F) m ρ).duties (barCell c) 0 = Finset.univ := by
  dsimp only [exRd]; exact if_pos ⟨rfl, .inl ⟨rfl, rfl⟩⟩
theorem duties_send : (exRd (F := F) m ρ).duties (sendCell c h) 0 = Finset.univ := by
  dsimp only [exRd]; exact if_pos ⟨rfl, .inr ⟨rfl, h, .inl rfl⟩⟩
theorem duties_recv : (exRd (F := F) m ρ).duties (recvCell c h) 0 = Finset.univ := by
  dsimp only [exRd]; exact if_pos ⟨rfl, .inr ⟨rfl, h, .inr rfl⟩⟩
theorem duties_later (g : GSem nD τ sig) : ∀ r, 1 ≤ r → (exRd (F := F) m ρ).duties g r = ∅ :=
  fun r hr => by dsimp only [exRd]; rw [if_neg fun h => by omega]

theorem amount_bar (d : Unit) : (exRd (F := F) m ρ).amount (barCell c) 0 d = 1 := rfl
theorem amount_send (d : Unit) : (exRd (F := F) m ρ).amount (sendCell c h) 0 d = Nc h := by
  show Nc (bandOf (sendS h)) = Nc h; rw [bandOf_send]
theorem amount_recv (d : Unit) : (exRd (F := F) m ρ).amount (recvCell c h) 0 d = Nc h := by
  show Nc (bandOf (recvS h)) = Nc h; rw [bandOf_recv]

theorem expect_bar : (exRd (F := F) m ρ).expect (barCell c) 0 = 1 := by
  unfold Schedule.expect Schedule.amountOf
  rw [duties_bar, Finset.univ_unique, Finset.sum_singleton, amount_bar]
theorem expect_send : (exRd (F := F) m ρ).expect (sendCell c h) 0 = Nc h := by
  unfold Schedule.expect Schedule.amountOf
  rw [duties_send, Finset.univ_unique, Finset.sum_singleton, amount_send]
theorem expect_recv : (exRd (F := F) m ρ).expect (recvCell c h) 0 = Nc h := by
  unfold Schedule.expect Schedule.amountOf
  rw [duties_recv, Finset.univ_unique, Finset.sum_singleton, amount_recv]

theorem payload_bar (d : Unit) : (exRd (F := F) m ρ).payload (barCell c) 0 d = barPay c := rfl
theorem payload_send (d : Unit) : (exRd (F := F) m ρ).payload (sendCell c h) 0 d = sendPay m ρ c h := by
  show (if (sendS h).val < 6 then sendPay m ρ c (bandOf (sendS h)) else recvPay m ρ c (bandOf (sendS h))) = _
  rw [if_pos (by have := h.isLt; show 2 + h.val < 6; omega), bandOf_send]
theorem payload_recv (d : Unit) : (exRd (F := F) m ρ).payload (recvCell c h) 0 d = recvPay m ρ c h := by
  show (if (recvS h).val < 6 then sendPay m ρ c (bandOf (recvS h)) else recvPay m ρ c (bandOf (recvS h))) = _
  rw [if_neg (by show ¬ (6 + h.val < 6); omega), bandOf_recv]

theorem rest_bar : bigSep ((exRd (F := F) m ρ).duties (barCell c) 0 \ ∅) (fun d => (exRd (F := F) m ρ).payload (barCell c) 0 d) = barPay c := by
  rw [Finset.sdiff_empty, duties_bar, Finset.univ_unique, bigSep_singleton, payload_bar]
theorem rest_send : bigSep ((exRd (F := F) m ρ).duties (sendCell c h) 0 \ ∅) (fun d => (exRd (F := F) m ρ).payload (sendCell c h) 0 d) = sendPay m ρ c h := by
  rw [Finset.sdiff_empty, duties_send, Finset.univ_unique, bigSep_singleton, payload_send]
theorem rest_recv : bigSep ((exRd (F := F) m ρ).duties (recvCell c h) 0 \ ∅) (fun d => (exRd (F := F) m ρ).payload (recvCell c h) 0 d) = recvPay m ρ c h := by
  rw [Finset.sdiff_empty, duties_recv, Finset.univ_unique, bigSep_singleton, payload_recv]

end Tables

/-! ## What each device owes at launch; the levels -/

/-- After the barrier signal a device owes the partner's four receive semaphores a band's credit each, summed so that
    band 0's transfer peels the last summand, band 3's the first. -/
def O4 (c : Dev nD) : CellTallies nD τ sig Unit := tallyAt (recvCell (peer c) 3) () (Nc 3)
def O3 (c : Dev nD) : CellTallies nD τ sig Unit := O4 c + tallyAt (recvCell (peer c) 2) () (Nc 2)
def O2 (c : Dev nD) : CellTallies nD τ sig Unit := O3 c + tallyAt (recvCell (peer c) 1) () (Nc 1)
def O1 (c : Dev nD) : CellTallies nD τ sig Unit := O2 c + tallyAt (recvCell (peer c) 0) () (Nc 0)
/-- At launch: those, and one unit on the partner's barrier. -/
def O₀ (c : Dev nD) : CellTallies nD τ sig Unit := O1 c + tallyAt (barCell (peer c)) () 1

def L (g : GSem nD τ sig) : Finset Unit := if g.1.2 = .tc then {()} else ∅
/-- Barrier semaphores at 1, receive semaphores at 2, everything else (staging, send) at 0. -/
def lv (g : GSem nD τ sig) (_ : Unit) : ℕ :=
  match g.2 with
  | .reg _ => 1
  | .dma q => if 6 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (h : Fin 4) (u : Unit) : lv (recvCell c h) u = 2 := by
  show (if 6 ≤ (recvS h).val then 2 else 0) = 2; rw [if_pos (by show 6 ≤ 6 + h.val; omega)]

theorem O1_pos {c : Dev nD} {g : GSem nD τ sig} {u : Unit} (hp : 0 < O1 c g u) : ∃ h : Fin 4, g = recvCell (peer c) h := by
  unfold O1 O2 O3 O4 at hp
  simp only [Pi.add_apply, Finsupp.add_apply, tallyAt_apply] at hp
  by_contra hn
  rw [not_exists] at hn
  rw [if_neg (fun h' => hn 3 h'.1), if_neg (fun h' => hn 2 h'.1), if_neg (fun h' => hn 1 h'.1), if_neg (fun h' => hn 0 h'.1)] at hp
  exact Nat.lt_irrefl 0 hp

theorem O₀_pos {c : Dev nD} {g : GSem nD τ sig} {u : Unit} (hp : 0 < O₀ c g u) :
    (∃ h : Fin 4, g = recvCell (peer c) h) ∨ g = barCell (peer c) := by
  unfold O₀ at hp
  rw [Pi.add_apply, Finsupp.add_apply, tallyAt_apply] at hp
  by_cases hb : g = barCell (peer c) ∧ u = ()
  · exact .inr hb.1
  · rw [if_neg hb, Nat.add_zero] at hp; exact .inl (O1_pos hp)

/-- A wait on a semaphore at level 0 (staging, send) is allowed whatever of its launch debt a device still owes. -/
theorem mayWait_low (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨h, rfl⟩ | rfl <;> exact Finset.mem_singleton_self _)
      (fun p hp => by
        rw [Finset.mem_singleton.mp hp]; show (if 6 ≤ q.val then 2 else 0) ≤ 0; rw [if_neg (by omega)])
      (fun g u hg => by
        rcases O₀_pos hg with ⟨h, rfl⟩ | rfl
        · rw [lv_recv]; decide
        · rw [lv_bar]; decide)
  · rw [MayWait_zero]; iintro -; iempintro

/-- At its barrier wait a device owes receive credit only: above the barrier. -/
theorem mayWait_bar (c : Dev nD) :
    (levAts L lv : sProp 𝕄) ⊢ MayWait (c : Thread nD τ) (.reg barS) () (O1 c) :=
  MayOwe.of_cut (L := L) (lev := lv) 1 (fun p hp => by rw [Finset.mem_singleton.mp hp, L_tc]; exact Finset.mem_singleton_self _)
    (fun g u hg => by obtain ⟨h, rfl⟩ := O1_pos hg; exact Finset.mem_singleton_self _)
    (fun p hp => by rw [Finset.mem_singleton.mp hp]; exact le_refl 1)
    (fun g u hg => by obtain ⟨h, rfl⟩ := O1_pos hg; rw [lv_recv]; decide)

end Cert.KernelP

end
-- ==== Proof.KernelP.Data.lean ====
/-
  The proof data of the one grid point. Before the body a device holds its two scratch buffers at arbitrary
  contents, its place at round 0 of its nine semaphores, the tokens of the nine duties it pays (the partner's
  barrier and four receive duties, its own four send duties), credit for what it will wait for from the partner
  (one barrier unit, four bands' receive credit), and owes the partner exactly that. After the body the staging
  buffer holds the four staged bands, the landing buffer the partner's, the eight scoped semaphores are back at
  zero, nothing is owed, and the result block is the kept half beside the landed half.
-/
import proofs.«900407_g7700000000000408_dist_a2a_v7x_xyz2x2x2_x_m1024_n512_f32_1_alg».proof.Proof.KernelP.Sched
import proofs.«900407_g7700000000000408_dist_a2a_v7x_xyz2x2x2_x_m1024_n512_f32_1_alg».proof.Proof.Gen.Kernel.Points

noncomputable section

namespace Cert.KernelP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The nine semaphores of a device, enumerated -/

/-- The kernel's own (scoped) semaphores, as the launch indexes them: send 0–3, receive 0–3; -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)
/-- all nine of the exchange: the barrier, then those. -/
abbrev csem : Fin 9 → SemLoc sig := fun
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)
abbrev kcell (ck : Dev nD × Fin 9) : GSem nD τ sig := ((ck.1 : Thread nD τ), csem ck.2)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The ghost state -/

/-- Every semaphore's invariant, under the names the launch allocated them at, and that round 0 of each is reached. -/
def records (K : Dev nD × Fin 9 → ℕ) : sProp 𝕄 :=
  iprop((bigSep Finset.univ fun ck : Dev nD × Fin 9 => cellInv ER (exRd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem inv_at (K : Dev nD × Fin 9 → ℕ) (ck : Dev nD × Fin 9) :
    (bigSep Finset.univ fun ck : Dev nD × Fin 9 => (cellInv ER (exRd m ρ) (K ck) (kcell ck) : sProp 𝕄)) ⊢ cellInv ER (exRd m ρ) (K ck) (kcell ck) :=
  bigSep_elim (Finset.mem_univ ck)
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

/-- The tokens of the duties a device PAYS: the partner's barrier duty, the partner's four receive duties, its own
    four send duties. -/
def payToks (c : Dev nD) : sProp 𝕄 :=
  iprop(dutyTok ER (barCell (peer c)) 0 ()
    ∗ (dutyTok ER (sendCell c 0) 0 () ∗ dutyTok ER (sendCell c 1) 0 () ∗ dutyTok ER (sendCell c 2) 0 () ∗ dutyTok ER (sendCell c 3) 0 ())
    ∗ (dutyTok ER (recvCell (peer c) 0) 0 () ∗ dutyTok ER (recvCell (peer c) 1) 0 () ∗ dutyTok ER (recvCell (peer c) 2) 0 () ∗ dutyTok ER (recvCell (peer c) 3) 0 ()))

/-- What stays with one device: its place at round 0 of its nine semaphores, and the tokens it pays with. -/
def linear (c : Dev nD) : sProp 𝕄 :=
  iprop((bigSep Finset.univ fun k : Fin 9 => atPos ER (kcell (c, k)) 0 ∅ 0) ∗ payToks c)

def ghost (K : Dev nD × Fin 9 → ℕ) (c : Dev nD) : sProp 𝕄 := iprop(records m ρ K ∗ linear c)

/-- The credit a device waits with: one barrier unit, four bands' receive credit. -/
def creds (c : Dev nD) : sProp 𝕄 :=
  iprop(cred (tallyAt (barCell c) () 1)
    ∗ cred (tallyAt (recvCell c 0) () (Nc 0)) ∗ cred (tallyAt (recvCell c 1) () (Nc 1)) ∗ cred (tallyAt (recvCell c 2) () (Nc 2)) ∗ cred (tallyAt (recvCell c 3) () (Nc 3)))

def start (c : Dev nD) : sProp 𝕄 := iprop((∃ K, ghost m ρ K c) ∗ creds c ∗ levAts L lv)

def sWhole (c : Dev nD) (f : Buf (Elt F) ((sM : Memref sig .tc .vmem S1024x512 .bf16).view.loc (c : Thread nD τ))) : sProp 𝕄 :=
  (sM : Memref sig .tc .vmem S1024x512 .bf16).view.loc (c : Thread nD τ) ↦[(sM : Memref sig .tc .vmem S1024x512 .bf16).view.set]{fullShare} f

theorem sWhole_eq (c : Dev nD) (f : Buf (Elt F) ((c : Thread nD τ).loc cc0_scratch0)) :
    sWhole c f = (((c : Thread nD τ).loc cc0_scratch0) ↦{fullShare} f : sProp 𝕄) := by unfold sWhole; rw [View.set_whole]
theorem rWhole_eq (c : Dev nD) (f : Buf (Elt F) ((c : Thread nD τ).loc cc0_scratch1)) :
    rWhole c f = (((c : Thread nD τ).loc cc0_scratch1) ↦{fullShare} f : sProp 𝕄) := by unfold rWhole; rw [View.set_whole]

/-- The scoped semaphores of the exchange, back at zero. -/
def ownZero (c : Dev nD) : sProp 𝕄 :=
  iprop(semVal (sendCell c 0) 0 ∗ semVal (sendCell c 1) 0 ∗ semVal (sendCell c 2) 0 ∗ semVal (sendCell c 3) 0
    ∗ semVal (recvCell c 0) 0 ∗ semVal (recvCell c 1) 0 ∗ semVal (recvCell c 2) 0 ∗ semVal (recvCell c 3) 0)

def Φ₀ (c : Dev nD) : sProp 𝕄 := iprop(start m ρ c ∗ (∃ f, sWhole c f) ∗ ∃ f, rWhole c f)
def Φ₁ (c : Dev nD) : sProp 𝕄 := iprop(sWhole c (sbufC m ρ c) ∗ rWhole c (rbufC m ρ c) ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelP

end
-- ==== Proof.KernelP.Bands.lean ====
/-
  One band of 256 rows of the two bf16 scratch buffers.

  An index i of band h of a 1024 x 512 buffer has i 0 = 256 h + y 0 with y 0 < 256 and i 1 = y 1, so
  (i 0) / 256 = h and (i 0) % 256 = y 0. A store of a 256 x 512 payload through the band puts the payload's entry y
  at i; the staged contents read the same payload at the same y. A copy of band h of one buffer onto band h of
  another puts at i what the first buffer holds at i.
-/
import proofs.«900407_g7700000000000408_dist_a2a_v7x_xyz2x2x2_x_m1024_n512_f32_1_alg».proof.Proof.KernelP.Proto
import Idealize.ShloMosaic.Rules.PointsTo

noncomputable section

namespace Cert.KernelP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## An index of a band, by coordinates -/

/-- The row of the buffer under row y 0 of band h. -/
theorem band_row (h : Fin 4) (y : S256x512.Idx) : ((rowR h).emb y 0).val = 256 * h.val + (y 0).val :=
  (Rect.emb_apply (rowR h) y 0).trans (by show 256 * h.val + 1 * (y 0).val = _; rw [Nat.one_mul])

/-- The column of the buffer under column y 1 of band h. -/
theorem band_col (h : Fin 4) (y : S256x512.Idx) : ((rowR h).emb y 1).val = (y 1).val :=
  (Rect.emb_apply (rowR h) y 1).trans (by show 0 + 1 * (y 1).val = _; rw [Nat.one_mul, Nat.zero_add])

/-- The rounded band read at an entry depends on the band and the entry only. -/
theorem pay_congr (c : Dev nD) {h h' : Fin 4} (e : h' = h) {y y' : S256x512.Idx} (ey : y' = y) :
    k0_pay2 (ldX m ρ c h') y' = k0_pay2 (ldX m ρ c h) y := by subst e; subst ey; rfl

/-- The staged contents under entry y of band h: entry y of band h of the half sent, rounded. -/
theorem sbufC_band (c : Dev nD) (h : Fin 4) (y : S256x512.Idx) :
    sbufC m ρ c ((rowR h).emb y) = k0_pay2 (ldX m ρ c h) y := by
  have hy0 : (y 0).val < 256 := ValueIdx.idx2_lt0 y
  refine pay_congr m ρ c (Fin.ext ?_) ?_
  · show ((rowR h).emb y 0).val / 256 = h.val
    rw [band_row]; omega
  · refine Eq.trans ?_ (ValueIdx.eq_ix2 y).symm
    refine congrArg₂ ValueIdx.ix2 (Fin.ext ?_) (Fin.ext ?_)
    · show ((rowR h).emb y 0).val % 256 = (y 0).val
      rw [band_row]; omega
    · exact band_col h y

/-! ## The store of a band -/

theorem sband_store (c : Dev nD) (h : Fin 4) (f0 : Buf (Elt F) (((sM : Memref sig .tc .vmem S1024x512 .bf16).access (rowR h)).loc (c : Thread nD τ))) :
    ∀ i ∈ ((sM : Memref sig .tc .vmem S1024x512 .bf16).access (rowR h)).set,
      (((sM : Memref sig .tc .vmem S1024x512 .bf16).access (rowR h)).write (Elt F) f0 (k0_pay2 (ldX m ρ c h)) Finset.univ) i = sbufC m ρ c i := by
  intro i hi
  obtain ⟨y, -, rfl⟩ := Finset.mem_map.mp hi
  refine (View.write_emb_of_mem _ _ (Finset.mem_univ y)).trans ?_
  refine (cast_eq _ _).trans ?_
  exact (sbufC_band m ρ c h y).symm

theorem sband_restate (c : Dev nD) (h : Fin 4) (f0 : Buf (Elt F) (((sM : Memref sig .tc .vmem S1024x512 .bf16).access (rowR h)).loc (c : Thread nD τ))) :
    ((((sM : Memref sig .tc .vmem S1024x512 .bf16).access (rowR h)).loc (c : Thread nD τ) ↦[((sM : Memref sig .tc .vmem S1024x512 .bf16).access (rowR h)).set]{fullShare} (((sM : Memref sig .tc .vmem S1024x512 .bf16).access (rowR h)).write (Elt F) f0 (k0_pay2 (ldX m ρ c h)) Finset.univ)) : sProp 𝕄) = sBand c h (sbufC m ρ c) :=
  pointsTo_congr (sband_store m ρ c h f0)

/-! ## The landing of a band -/

theorem rband_land (c : Dev nD) (h : Fin 4) (fd : Buf (Elt F) ((rSl h).view.loc ((peer c : Dev nD) : Thread nD τ))) :
    ∀ i ∈ (rSl h).view.set, ((rSl h).view.write (Elt F) fd ((sSl h).view.read (Elt F) (sbufC m ρ c)) Finset.univ) i = rbufC m ρ (peer c) i := by
  intro i hi
  obtain ⟨y, -, rfl⟩ := Finset.mem_map.mp hi
  refine (View.write_emb_of_mem _ _ (Finset.mem_univ y)).trans ?_
  refine (cast_eq _ _).trans ?_
  refine (View.read_apply _ y).trans ?_
  refine (cast_eq _ _).trans ?_
  show sbufC m ρ c ((rowR h).emb y) = sbufC m ρ (peer (peer c)) ((rowR h).emb y)
  rw [peer_peer]

theorem rband_restate (c : Dev nD) (h : Fin 4) (fd : Buf (Elt F) ((rSl h).view.loc ((peer c : Dev nD) : Thread nD τ))) :
    (((rSl h).view.loc ((peer c : Dev nD) : Thread nD τ) ↦[(rSl h).view.set]{fullShare} ((rSl h).view.write (Elt F) fd ((sSl h).view.read (Elt F) (sbufC m ρ c)) Finset.univ)) : sProp 𝕄) = recvPay m ρ (peer c) h :=
  pointsTo_congr (rband_land m ρ c h fd)

/-! ## A whole buffer is its four bands -/

/-- Every index of the buffer is in the band of its row divided by 256. -/
theorem bands_cover : (Finset.univ : Finset S1024x512.Idx) = (Finset.univ : Finset (Fin 4)).biUnion fun h => (rowR h).set := by
  ext i
  simp only [Finset.mem_univ, Finset.mem_biUnion, true_iff, true_and]
  have hi0 : (i 0).val < 1024 := ValueIdx.idx2_lt0 i
  have hi1 : (i 1).val < 512 := ValueIdx.idx2_lt1 i
  refine ⟨⟨(i 0).val / 256, by omega⟩, Rect.mem_set_unit.mpr (Fin.forall_fin_two.mpr ⟨?_, ?_⟩)⟩
  · show 256 * ((i 0).val / 256) ≤ (i 0).val ∧ (i 0).val < 256 * ((i 0).val / 256) + 256
    omega
  · show 0 ≤ (i 1).val ∧ (i 1).val < 0 + 512
    omega

/-- Two different bands share no row. -/
theorem bands_disjoint (h h' : Fin 4) (hne : h ≠ h') : Disjoint (rowR h).set (rowR h').set := by
  refine Rect.unit_disjoint 0 ?_
  show 256 * h.val + 256 ≤ 256 * h'.val ∨ 256 * h'.val + 256 ≤ 256 * h.val
  have : h.val ≠ h'.val := fun e => hne (Fin.ext e)
  omega

omit [FloatOps F] in
/-- A separating conjunction over the four bands, spelt out. -/
theorem bigSep_bands4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem sWhole_bands (c : Dev nD) (f : Buf (Elt F) ((sM : Memref sig .tc .vmem S1024x512 .bf16).view.loc (c : Thread nD τ))) :
    (((sM : Memref sig .tc .vmem S1024x512 .bf16).view.loc (c : Thread nD τ) ↦[(sM : Memref sig .tc .vmem S1024x512 .bf16).view.set]{fullShare} f) : sProp 𝕄)
      = iprop(sBand c 0 f ∗ sBand c 1 f ∗ sBand c 2 f ∗ sBand c 3 f) := by
  have hset : (sM : Memref sig .tc .vmem S1024x512 .bf16).view.set
      = (Finset.univ : Finset (Fin 4)).biUnion fun h => (sSl h).view.set := by
    refine (View.set_whole (cc0_scratch0 : Ref sig .tc)).trans (bands_cover.trans ?_)
    exact Finset.biUnion_congr rfl fun h _ => (View.set_slice_whole (cc0_scratch0 : Ref sig .tc) (rowR h)).symm
  refine (congrArg (fun I => (((sM : Memref sig .tc .vmem S1024x512 .bf16).view.loc (c : Thread nD τ) ↦[I]{fullShare} f) : sProp 𝕄)) hset).trans ?_
  refine (pointsTo_biUnion _ _ fun h _ h' _ hne => ?_).trans (bigSep_bands4 _)
  rw [View.set_slice_whole (cc0_scratch0 : Ref sig .tc) (rowR h), View.set_slice_whole (cc0_scratch0 : Ref sig .tc) (rowR h')]
  exact bands_disjoint h h' hne

omit [FloatOps F] in
theorem rWhole_bands (c : Dev nD) (f : Buf (Elt F) ((rM : Memref sig .tc .vmem S1024x512 .bf16).view.loc (c : Thread nD τ))) :
    rWhole c f = iprop(rBand c 0 f ∗ rBand c 1 f ∗ rBand c 2 f ∗ rBand c 3 f) := by
  have hset : (rM : Memref sig .tc .vmem S1024x512 .bf16).view.set
      = (Finset.univ : Finset (Fin 4)).biUnion fun h => (rSl h).view.set := by
    refine (View.set_whole (cc0_scratch1 : Ref sig .tc)).trans (bands_cover.trans ?_)
    exact Finset.biUnion_congr rfl fun h _ => (View.set_slice_whole (cc0_scratch1 : Ref sig .tc) (rowR h)).symm
  refine (congrArg (fun I => (((rM : Memref sig .tc .vmem S1024x512 .bf16).view.loc (c : Thread nD τ) ↦[I]{fullShare} f) : sProp 𝕄)) hset).trans ?_
  refine (pointsTo_biUnion _ _ fun h _ h' _ hne => ?_).trans (bigSep_bands4 _)
  rw [View.set_slice_whole (cc0_scratch1 : Ref sig .tc) (rowR h), View.set_slice_whole (cc0_scratch1 : Ref sig .tc) (rowR h')]
  exact bands_disjoint h h' hne

/-- info: 'Cert.KernelP.sband_restate' depends on axioms: [propext, Classical.choice, Quot.sound] -/
#guard_msgs in #print axioms sband_restate

/-- info: 'Cert.KernelP.rband_restate' depends on axioms: [propext, Classical.choice, Quot.sound] -/
#guard_msgs in #print axioms rband_restate

/-- info: 'Cert.KernelP.sWhole_bands' depends on axioms: [propext, Classical.choice, Quot.sound] -/
#guard_msgs in #print axioms sWhole_bands

/-- info: 'Cert.KernelP.rWhole_bands' depends on axioms: [propext, Classical.choice, Quot.sound] -/
#guard_msgs in #print axioms rWhole_bands

end Cert.KernelP

end
-- ==== Proof.KernelP.OutWrites.lean ====
/-
  The result block after the body's five stores.

  With x the device's coordinate on the first mesh axis, the first store covers rows [1024x, 1024x + 1024) of the
  2048 × 512 block and the r-th of the other four rows [1024(1 - x) + 256r, 1024(1 - x) + 256r + 256), each all 512
  columns: five row ranges, pairwise disjoint, that cover the 2048 rows. So what the block held before is gone, and
  each element holds the payload of the one store whose rows hold it, at the element's position within those rows.
-/
import proofs.«900407_g7700000000000408_dist_a2a_v7x_xyz2x2x2_x_m1024_n512_f32_1_alg».proof.Proof.KernelP.Proto
import Idealize.ShloMosaic.Lib.Pipeline.Launch
import Idealize.ShloMosaic.Lib.Pipeline.Kit
import Idealize.ShloMosaic.Lib.Pipeline.Value
import Idealize.ShloMosaic.Lib.ValueIdx
import Idealize.ShloMosaic.Lib.Tactic

noncomputable section

namespace Cert.KernelP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## A store through a unit-stride rectangle of a whole buffer, read at one element -/

section Generic

variable {sg : RefSig} {κ : Kind} {Val : EltTy → Type}

/-- The element at position `x` of the rectangle takes the payload at `x`. -/
theorem write_unit_of_mem (b : Ref sg κ) {off off' size : Fin b.ty.shape.rank → ℕ}
    (inb : ∀ a, off a + size a ≤ b.ty.shape.size a) (f : b.ty.Contents Val)
    (w : (Rect.unit off size inb).shape.Idx → Val b.ty.elt) (i : b.ty.Idx)
    (x : (Rect.unit off size inb).shape.Idx) (heq : off = off') (hx : ∀ a, (i a).val = off' a + (x a).val) :
    ((Memref.whole b).access (Rect.unit off size inb)).write Val f w Finset.univ i = w x := by
  subst heq
  have hy : ((Memref.whole b).access (Rect.unit off size inb)).emb x = i := funext fun a => Fin.ext (by
    show off a + 1 * (x a).val = (i a).val
    rw [hx a, Nat.one_mul])
  have h := View.write_emb_of_mem (v := (Memref.whole b).access (Rect.unit off size inb)) (Val := Val) f w
    (M := Finset.univ) (x := x) (Finset.mem_univ _)
  rw [hy] at h
  exact h

/-- An element that misses the rectangle on axis `a` keeps what it held. -/
theorem write_unit_of_not_mem (b : Ref sg κ) {off off' size : Fin b.ty.shape.rank → ℕ}
    (inb : ∀ a, off a + size a ≤ b.ty.shape.size a) (f : b.ty.Contents Val)
    (w : (Rect.unit off size inb).shape.Idx → Val b.ty.elt) (M : Finset (Rect.unit off size inb).shape.Idx)
    (i : b.ty.Idx) (heq : off = off') (a : Fin b.ty.shape.rank)
    (ha : (i a).val < off' a ∨ off' a + size a ≤ (i a).val) :
    ((Memref.whole b).access (Rect.unit off size inb)).write Val f w M i = f i := by
  subst heq
  refine View.write_of_not_mem _ _ _ (fun hm => ?_)
  have hs : i ∈ ((View.whole b).slice (Rect.unit off size inb)).set := View.setOn_subset_set _ M hm
  rw [View.set_slice_whole, Rect.mem_set_unit] at hs
  have := hs a
  omega

end Generic

/-! ## The five stores -/

variable {F : FTy → Type} [FloatOps F]

local notation "𝕄" => MT nD τ sig Unit (Elt F) ℕ UU ℕ

variable (m : (ℓ : Loc nD τ sig) → Buf (Elt F) ℓ) (ρ : Dev nD → PrngReg)

/-- The rows the first store covers: the device's own half of the rows. -/
abbrev R6 (c : Dev nD) : Rect S2048x512 := Rect.unit (s := S2048x512) (k0_off6 c) S1024x512.size (k0_off6_inb c)
/-- The rows the store of landed band `r` covers: band `r` of the other half of the rows. -/
abbrev R7 (c : Dev nD) (r : Fin 4) : Rect S2048x512 :=
  Rect.unit (s := S2048x512) (k0_off7 c (BitVec.ofNat 32 (256 * r.val))) S256x512.size (k0_off7_inb c r)

/-- The result block after the five stores, from what it held before. -/
def outW (c : Dev nD) (g : (cc0_stg1_0 : Ref sig .tc).ty.Contents (Elt F)) : (cc0_stg1_0 : Ref sig .tc).ty.Contents (Elt F) :=
  ((oM : Memref sig .tc .vmem S2048x512 .f32).access (R7 c 3)).write (Elt F)
    (((oM : Memref sig .tc .vmem S2048x512 .f32).access (R7 c 2)).write (Elt F)
      (((oM : Memref sig .tc .vmem S2048x512 .f32).access (R7 c 1)).write (Elt F)
        (((oM : Memref sig .tc .vmem S2048x512 .f32).access (R7 c 0)).write (Elt F)
          (((oM : Memref sig .tc .vmem S2048x512 .f32).access (R6 c)).write (Elt F) g (k0_pay6 (ldK m ρ c)) Finset.univ)
          (k0_pay7 (ldR m ρ c 0)) Finset.univ)
        (k0_pay8 (ldR m ρ c 1)) Finset.univ)
      (k0_pay9 (ldR m ρ c 2)) Finset.univ)
    (k0_pay1 (ldR m ρ c 3)) Finset.univ

omit [FloatOps F] in
/-- An element of the device's own half of the rows takes the first store's payload at its row within that half. -/
theorem land6 (c : Dev nD) (f : (cc0_stg1_0 : Ref sig .tc).ty.Contents (Elt F)) (w : FVec F S1024x512 .f32)
    (i : (cc0_stg1_0 : Ref sig .tc).ty.Idx) (h : (i 0).val / 1024 = c.val / 4) :
    ((oM : Memref sig .tc .vmem S2048x512 .f32).access (R6 c)).write (Elt F) f w Finset.univ i
      = w (ValueIdx.ix2 (⟨(i 0).val % 1024, Nat.mod_lt _ (by decide)⟩ : Fin 1024) (⟨(i 1).val, (i 1).isLt⟩ : Fin 512)) :=
  write_unit_of_mem (b := (cc0_stg1_0 : Ref sig .tc)) (k0_off6_inb c) f w i _ (k0_off6_eq c)
    (Fin.forall_fin_two.mpr ⟨by
      show (i 0).val = 1024 * (c.val / 4) + (i 0).val % 1024
      omega, by
      show (i 1).val = 0 + (i 1).val
      omega⟩)

omit [FloatOps F] in
/-- An element of band `r` of the other half of the rows takes that band's store's payload at its row within the band. -/
theorem land7 (c : Dev nD) (r : Fin 4) (f : (cc0_stg1_0 : Ref sig .tc).ty.Contents (Elt F)) (w : FVec F S256x512 .f32)
    (i : (cc0_stg1_0 : Ref sig .tc).ty.Idx)
    (h : (256 * r.val + 1024) - 1024 * (c.val / 4) ≤ (i 0).val ∧ (i 0).val < (256 * r.val + 1024) - 1024 * (c.val / 4) + 256) :
    ((oM : Memref sig .tc .vmem S2048x512 .f32).access (R7 c r)).write (Elt F) f w Finset.univ i
      = w (ValueIdx.ix2 (⟨(i 0).val % 256, Nat.mod_lt _ (by decide)⟩ : Fin 256) (⟨(i 1).val, (i 1).isLt⟩ : Fin 512)) :=
  write_unit_of_mem (b := (cc0_stg1_0 : Ref sig .tc)) (k0_off7_inb c r) f w i _ (k0_off7_eq c r)
    (Fin.forall_fin_two.mpr ⟨by
      show (i 0).val = ((256 * r.val + 1024) - 1024 * (c.val / 4)) + (i 0).val % 256
      have := r.isLt
      have := c.isLt
      omega, by
      show (i 1).val = 0 + (i 1).val
      omega⟩)

omit [FloatOps F] in
/-- An element outside band `r` of the other half of the rows keeps what it held through that band's store. -/
theorem peel7 (c : Dev nD) (r : Fin 4) (f : (cc0_stg1_0 : Ref sig .tc).ty.Contents (Elt F)) (w : FVec F S256x512 .f32)
    (i : (cc0_stg1_0 : Ref sig .tc).ty.Idx)
    (h : (i 0).val < (256 * r.val + 1024) - 1024 * (c.val / 4) ∨ (256 * r.val + 1024) - 1024 * (c.val / 4) + 256 ≤ (i 0).val) :
    ((oM : Memref sig .tc .vmem S2048x512 .f32).access (R7 c r)).write (Elt F) f w Finset.univ i = f i :=
  write_unit_of_not_mem (b := (cc0_stg1_0 : Ref sig .tc)) (k0_off7_inb c r) f w Finset.univ i (k0_off7_eq c r) 0 h

/-! ## The result block by rows -/

/-- On the device's own half of the rows the result block is the half of the columns it kept. -/
theorem outAt_own (c : Dev nD) (i : (cc0_stg1_0 : Ref sig .tc).ty.Idx) (h : (i 0).val / 1024 = c.val / 4) :
    outAt m ρ c i
      = k0_pay6 (ldK m ρ c)
          (ValueIdx.ix2 (⟨(i 0).val % 1024, Nat.mod_lt _ (by decide)⟩ : Fin 1024) (⟨(i 1).val, (i 1).isLt⟩ : Fin 512)) :=
  if_pos h

/-- On band `r` of the other half of the rows it is the landed band, widened. -/
theorem outAt_other (c : Dev nD) (i : (cc0_stg1_0 : Ref sig .tc).ty.Idx) (h : ¬ (i 0).val / 1024 = c.val / 4)
    (r : Fin 4) (hr : ((i 0).val % 1024) / 256 = r.val) :
    outAt m ρ c i
      = k0_pay7 (ldR m ρ c r)
          (ValueIdx.ix2 (⟨(i 0).val % 256, Nat.mod_lt _ (by decide)⟩ : Fin 256) (⟨(i 1).val, (i 1).isLt⟩ : Fin 512)) := by
  obtain ⟨rv, hrv⟩ := r
  change ((i 0).val % 1024) / 256 = rv at hr
  subst hr
  exact if_neg h

/-- The five stores cover the block: what it held before does not matter. -/
theorem outW_eq (c : Dev nD) (g : (cc0_stg1_0 : Ref sig .tc).ty.Contents (Elt F)) : outW m ρ c g = outAt m ρ c := by
  funext i
  have hi0 : (i 0).val < 2048 := (i 0).isLt
  have hc : c.val < 8 := c.isLt
  have v0 : (0 : Fin 4).val = 0 := rfl
  have v1 : (1 : Fin 4).val = 1 := rfl
  have v2 : (2 : Fin 4).val = 2 := rfl
  have v3 : (3 : Fin 4).val = 3 := rfl
  by_cases h6 : (i 0).val / 1024 = c.val / 4
  · refine (peel7 c 3 _ _ i (by omega)).trans ?_
    refine (peel7 c 2 _ _ i (by omega)).trans ?_
    refine (peel7 c 1 _ _ i (by omega)).trans ?_
    refine (peel7 c 0 _ _ i (by omega)).trans ?_
    refine (land6 c _ _ i h6).trans ?_
    exact (outAt_own m ρ c i h6).symm
  · have hr : ((i 0).val % 1024) / 256 = 0 ∨ ((i 0).val % 1024) / 256 = 1 ∨ ((i 0).val % 1024) / 256 = 2
        ∨ ((i 0).val % 1024) / 256 = 3 := by omega
    rcases hr with hr | hr | hr | hr
    · refine (peel7 c 3 _ _ i (by omega)).trans ?_
      refine (peel7 c 2 _ _ i (by omega)).trans ?_
      refine (peel7 c 1 _ _ i (by omega)).trans ?_
      refine (land7 c 0 _ _ i (by omega)).trans ?_
      exact (outAt_other m ρ c i h6 0 (hr.trans v0.symm)).symm
    · refine (peel7 c 3 _ _ i (by omega)).trans ?_
      refine (peel7 c 2 _ _ i (by omega)).trans ?_
      refine (land7 c 1 _ _ i (by omega)).trans ?_
      exact (outAt_other m ρ c i h6 1 (hr.trans v1.symm)).symm
    · refine (peel7 c 3 _ _ i (by omega)).trans ?_
      refine (land7 c 2 _ _ i (by omega)).trans ?_
      exact (outAt_other m ρ c i h6 2 (hr.trans v2.symm)).symm
    · refine (land7 c 3 _ _ i (by omega)).trans ?_
      exact (outAt_other m ρ c i h6 3 (hr.trans v3.symm)).symm

/-- info: 'Cert.KernelP.outW_eq' depends on axioms: [propext, Classical.choice, Quot.sound] -/
#guard_msgs in #print axioms outW_eq

end Cert.KernelP

end
-- ==== Proof.KernelP.Body.lean ====
/-
  One device's body, stepped from its invariant: the signal to the partner's barrier hands over the device's own
  landing buffer; the barrier wait brings the partner's; each band is staged and sent (the band of the staging
  buffer lent to the transfer until its send wait, the band of the partner's landing buffer given up for good);
  the kept half is copied; each band's two waits bring back the staged band and the landed band, which is widened
  into the result block.
-/
import proofs.«900407_g7700000000000408_dist_a2a_v7x_xyz2x2x2_x_m1024_n512_f32_1_alg».proof.Proof.KernelP.Data
import proofs.«900407_g7700000000000408_dist_a2a_v7x_xyz2x2x2_x_m1024_n512_f32_1_alg».proof.Proof.KernelP.Bands
import proofs.«900407_g7700000000000408_dist_a2a_v7x_xyz2x2x2_x_m1024_n512_f32_1_alg».proof.Proof.KernelP.OutWrites

noncomputable section

namespace Cert.KernelP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 9 → ℕ)

def bodyPre (c : Dev nD) : sProp 𝕄 :=
  iprop((ghost m ρ K c ∗ creds c ∗ levAts L lv ∗ (∃ f, sWhole c f) ∗ ∃ f, rWhole c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- Band h's transfer to the partner: pays send duty h of the device's own send semaphore with the staged band, and
    receive duty h of the partner's receive semaphore with the band as it lands there. -/
theorem wp_send_band (κ₁ κ₂ : ℕ) (c n : Dev nD) (hn : n = peer c) (h : Fin 4)
    {hsc : (rSl h : Memref sig (Dev.tc n : Thread nD τ).2.kind .vmem S256x512 .bf16).view.ref.isScScratch = false}
    {hsrc : (sSl h : Memref sig .tc .vmem S256x512 .bf16).view.WordExact} {hdst : (rSl h : Memref sig .tc .vmem S256x512 .bf16).view.WordExact}
    {hsem : DmaTarget.Typed .vmem (.dma (recvS h)) (.remote (Dev.tc n : Thread nD τ) (rSl h : Memref sig .tc .vmem S256x512 .bf16) (.dma (sendS h)) hsc)}
    {α : Type} {Q : α → sProp 𝕄} {k : PUnit → Prog (TpuEff nD τ sig (Elt F) Λ₀ .tc) α}
    (fn : Buf (Elt F) ((rSl h : Memref sig .tc .vmem S256x512 .bf16).view.loc (peer c : Thread nD τ))) (O₀ O : CellTallies nD τ sig Unit)
    (hO : O₀ = O + tallyAt (recvCell (peer c) h) () (Nc h)) {W : Waits sig Unit} :
    iprop(cellInv ER (exRd m ρ) κ₁ (sendCell c h) ∗ cellInv ER (exRd m ρ) κ₂ (recvCell (peer c) h)
        ∗ sBand c h (sbufC m ρ c) ∗ rBand (peer c) h fn
        ∗ owes (c : Thread nD τ) O₀ W
        ∗ dutyTok ER (sendCell c h) 0 () ∗ reached ER (sendCell c h) 0
        ∗ dutyTok ER (recvCell (peer c) h) 0 () ∗ reached ER (recvCell (peer c) h) 0)
      ⊢ iprop(((cred (tallyAt (sendCell c h) () (sSl h : Memref sig .tc .vmem S256x512 .bf16).view.dmaCredit) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl h) (.remote (Dev.tc n : Thread nD τ) (rSl h) (.dma (sendS h)) hsc) (.dma (recvS h)) hsrc hdst hsem) k) Q) := by
  subst hn
  rw [sNc h]
  unfold sBand rBand
  exact Rounds.wp_send_pointsTo 𝒱₀ ER (exRd m ρ) (c : Thread nD τ) none (κ₁ := κ₁) (κ₂ := κ₂)
    (r₁ := 0) (r₂ := 0) (d₁ := ()) (d₂ := ()) (fd := fn)
    (by rw [duties_send]; exact Finset.mem_univ _) (by rw [duties_recv]; exact Finset.mem_univ _)
    () () (Nc h) rfl (amount_send m ρ c h ()) (amount_recv m ρ (peer c) h ()) O hO (W := W)
    (by rw [payload_send]; exact BI.Entails.refl _)
    (by rw [payload_recv]; exact Entails.of_eq (rband_restate m ρ c h fn))

theorem semS0 : ((SemArray.slice cc0_scratch2 (Rect.unit (s := S4) ![0] ![1] inb_S4_S1_0)).squeeze S_ squeezes_S1_S_).sem = sendS 0 := rfl
theorem semR0 : ((SemArray.slice cc0_scratch3 (Rect.unit (s := S4) ![0] ![1] inb_S4_S1_0)).squeeze S_ squeezes_S1_S_).sem = recvS 0 := rfl
theorem semS1 : ((SemArray.slice cc0_scratch2 (Rect.unit (s := S4) ![1] ![1] inb_S4_S1_1)).squeeze S_ squeezes_S1_S_).sem = sendS 1 := rfl
theorem semR1 : ((SemArray.slice cc0_scratch3 (Rect.unit (s := S4) ![1] ![1] inb_S4_S1_1)).squeeze S_ squeezes_S1_S_).sem = recvS 1 := rfl
theorem semS2 : ((SemArray.slice cc0_scratch2 (Rect.unit (s := S4) ![2] ![1] inb_S4_S1_2)).squeeze S_ squeezes_S1_S_).sem = sendS 2 := rfl
theorem semR2 : ((SemArray.slice cc0_scratch3 (Rect.unit (s := S4) ![2] ![1] inb_S4_S1_2)).squeeze S_ squeezes_S1_S_).sem = recvS 2 := rfl
theorem semS3 : ((SemArray.slice cc0_scratch2 (Rect.unit (s := S4) ![3] ![1] inb_S4_S1_3)).squeeze S_ squeezes_S1_S_).sem = sendS 3 := rfl
theorem semR3 : ((SemArray.slice cc0_scratch3 (Rect.unit (s := S4) ![3] ![1] inb_S4_S1_3)).squeeze S_ squeezes_S1_S_).sem = recvS 3 := rfl

/-- Band h staged: over whatever the band held, the store of the rounded loaded band leaves the staged contents. -/
theorem wp_stage_band (c : Dev nD) (h : Fin 4) (f0 : Buf (Elt F) (((sM : Memref sig .tc .vmem S1024x512 .bf16).access (rowR h)).loc (c : Thread nD τ)))
    {hl : (sM : Memref sig .tc .vmem S1024x512 .bf16).view.LoadsAt (rowR h).toLoadRect}
    {hx : ((sM : Memref sig .tc .vmem S1024x512 .bf16).access (rowR h)).Stores Finset.univ}
    {hm : (Finset.univ : Finset (rowR h).shape.Idx) = Finset.univ ∨ ∀ a, (rowR h).stride a = 1}
    {α : Type} {Q : α → sProp 𝕄} {k : PUnit → Prog (TpuEff nD τ sig (Elt F) Λ₀ .tc) α} :
    sBand c h f0
      ⊢ iprop((sBand c h (sbufC m ρ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load sM (rowR h).toLoadRect hl) fun _ => .op (.store sM (rowR h) (k0_pay2 (ldX m ρ c h)) Finset.univ hx hm) k) Q) := by
  have e := sband_restate m ρ c h f0
  unfold sBand at e ⊢
  iintro Hs Hk
  iapply (wp_load_rect 𝒱₀ (c : Thread nD τ) none Set.univ (m := sM) (Finset.Subset.refl _)) $$ Hs; iintro Hs
  iapply (wp_store 𝒱₀ (c : Thread nD τ) none Set.univ (m := sM) (r := rowR h) (Mk := Finset.univ) (S := ((sM : Memref sig .tc .vmem S1024x512 .bf16).access (rowR h)).set) (Finset.Subset.refl _)) $$ Hs; iintro Hs
  iapply Hk
  iapply (Entails.of_eq e)
  iexact Hs

/-- The barrier duty's payload at the partner's barrier, as a bare points-to, the partner's partner resolved; -/
theorem payload_barP (c : Dev nD) (d : Unit) : (exRd (F := F) m ρ).payload (barCell (peer c)) 0 d
    = iprop(∃ f, ((rM : Memref sig .tc .vmem S1024x512 .bf16).view.loc (c : Thread nD τ) ↦[(rM : Memref sig .tc .vmem S1024x512 .bf16).view.set]{fullShare} f : sProp 𝕄)) := by
  rw [payload_bar]; unfold barPay rWhole; rw [peer_peer]
/-- and at the device's own barrier. -/
theorem payload_barO (c : Dev nD) (d : Unit) : (exRd (F := F) m ρ).payload (barCell c) 0 d
    = iprop(∃ f, ((rM : Memref sig .tc .vmem S1024x512 .bf16).view.loc ((peer c : Dev nD) : Thread nD τ) ↦[(rM : Memref sig .tc .vmem S1024x512 .bf16).view.set]{fullShare} f : sProp 𝕄)) := by
  rw [payload_bar]; unfold barPay rWhole; rfl
theorem inv_bar (K : Dev nD × Fin 9 → ℕ) (c : Dev nD) :
    (bigSep Finset.univ fun ck : Dev nD × Fin 9 => (cellInv ER (exRd m ρ) (K ck) (kcell ck) : sProp 𝕄)) ⊢ cellInv ER (exRd m ρ) (K (c, 0)) (barCell c) := inv_at m ρ K (c, 0)
theorem reached_bar (c : Dev nD) :
    (bigSep Finset.univ fun ck : Dev nD × Fin 9 => (reached ER (kcell ck) 0 : sProp 𝕄)) ⊢ reached ER (barCell c) 0 := reached_at (F := F) (c, 0)

theorem bigSep_unit (Φ : Unit → sProp 𝕄) : bigSep Finset.univ Φ = Φ () := by
  rw [Finset.univ_unique (α := Unit), bigSep_singleton]

attribute [local sl_rounds] duties_bar amount_bar payload_barO expect_bar
attribute [local sl_rounds high] payload_barP

theorem dev1_eq (c : Dev nD) : (⟨k0_dev1 c, k0_dev1_lt c⟩ : Dev nD) = peer c := rfl

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost records linear payToks creds
  rw [bigSep_fin9]
  iintro ⟨⟨⟨⟨⟨#HI, #HR⟩, ⟨HatB, HatS0, HatS1, HatS2, HatS3, HatR0, HatR1, HatR2, HatR3⟩, HtBP, ⟨HtS0, HtS1, HtS2, HtS3⟩, ⟨HtRP0, HtRP1, HtRP2, HtRP3⟩⟩,
      ⟨HcB, HcR0, HcR1, HcR2, HcR3⟩, #Hlev, ⟨%fs0, Hs⟩, ⟨%fr0, Hr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [semS0, semS1, semS2, semS3, semR0, semR1, semR2, semR3]
  -- the signal to the partner's barrier (with it goes the device's own landing buffer) and the wait on its own
  -- barrier, owing receive credit only (the partner's landing buffer comes with it): the two remote steps the
  -- symbolic run takes from the invariants, the token, the tallies and the tables
  ihave HIbarP := (inv_bar m ρ K (peer c)) $$ HI
  icases HIbarP with #HIbarP
  ihave HIbar := (inv_bar m ρ K c) $$ HI
  icases HIbar with #HIbar
  ihave HRbarP := (reached_bar (F := F) (peer c)) $$ HR
  icases HRbarP with #HRbarP
  unfold O₀ O1 O2 O3 O4
  unfold rWhole
  have hmw := mayWait_bar (F := F) c
  unfold O1 O2 O3 O4 at hmw
  set_option sl_exec.maxSteps 2 in sl_exec
  ihave Hp := (Entails.of_eq (bigSep_unit _)) $$ HatB_pay1
  icases Hp with ⟨%fn, HrP⟩
  -- both scratch buffers by bands
  have eP := rWhole_bands (F := F) (peer c) fn
  unfold rWhole at eP
  ihave HrP' := (Entails.of_eq eP) $$ HrP
  icases HrP' with ⟨HrP0, HrP1, HrP2, HrP3⟩
  unfold sWhole
  ihave Hs' := (Entails.of_eq (sWhole_bands c fs0)) $$ Hs
  icases Hs' with ⟨Hs0, Hs1, Hs2, Hs3⟩

  -- band 0: staged, then sent
  iapply (wp_load 𝒱₀ (c : Thread nD τ) none Set.univ (m := xM) (Finset.subset_univ _)) $$ Hx; iintro Hx
  iapply (wp_stage_band m ρ c 0 fs0) $$ Hs0; iintro Hs0'
  iapply (wp_send_band m ρ (K (c, 1)) (K (peer c, 5)) c _ (dev2_eq c) 0 fn _ (O2 c) rfl) $$ [Hs0' HrP0 HO HtS0 HtRP0]
  · isplitr; · iapply (inv_at m ρ K (c, 1)); iexact HI
    isplitr; · iapply (inv_at m ρ K (peer c, 5)); iexact HI
    isplitl [Hs0']; · iexact Hs0'
    isplitl [HrP0]; · iexact HrP0
    isplitl [HO]; · iexact HO
    isplitl [HtS0]; · iexact HtS0
    isplitr; · iapply (reached_at (F := F) (c, 1)); iexact HR
    isplitl [HtRP0]; · iexact HtRP0
    iapply (reached_at (F := F) (peer c, 5)); iexact HR
  iintro ⟨HcS0, HO⟩

  -- band 1: staged, then sent
  iapply (wp_load 𝒱₀ (c : Thread nD τ) none Set.univ (m := xM) (Finset.subset_univ _)) $$ Hx; iintro Hx
  iapply (wp_stage_band m ρ c 1 fs0) $$ Hs1; iintro Hs1'
  unfold O2
  iapply (wp_send_band m ρ (K (c, 2)) (K (peer c, 6)) c _ (dev3_eq c) 1 fn _ (O3 c) rfl) $$ [Hs1' HrP1 HO HtS1 HtRP1]
  · isplitr; · iapply (inv_at m ρ K (c, 2)); iexact HI
    isplitr; · iapply (inv_at m ρ K (peer c, 6)); iexact HI
    isplitl [Hs1']; · iexact Hs1'
    isplitl [HrP1]; · iexact HrP1
    isplitl [HO]; · iexact HO
    isplitl [HtS1]; · iexact HtS1
    isplitr; · iapply (reached_at (F := F) (c, 2)); iexact HR
    isplitl [HtRP1]; · iexact HtRP1
    iapply (reached_at (F := F) (peer c, 6)); iexact HR
  iintro ⟨HcS1, HO⟩

  -- band 2: staged, then sent
  iapply (wp_load 𝒱₀ (c : Thread nD τ) none Set.univ (m := xM) (Finset.subset_univ _)) $$ Hx; iintro Hx
  iapply (wp_stage_band m ρ c 2 fs0) $$ Hs2; iintro Hs2'
  unfold O3
  iapply (wp_send_band m ρ (K (c, 3)) (K (peer c, 7)) c _ (dev4_eq c) 2 fn _ (O4 c) rfl) $$ [Hs2' HrP2 HO HtS2 HtRP2]
  · isplitr; · iapply (inv_at m ρ K (c, 3)); iexact HI
    isplitr; · iapply (inv_at m ρ K (peer c, 7)); iexact HI
    isplitl [Hs2']; · iexact Hs2'
    isplitl [HrP2]; · iexact HrP2
    isplitl [HO]; · iexact HO
    isplitl [HtS2]; · iexact HtS2
    isplitr; · iapply (reached_at (F := F) (c, 3)); iexact HR
    isplitl [HtRP2]; · iexact HtRP2
    iapply (reached_at (F := F) (peer c, 7)); iexact HR
  iintro ⟨HcS2, HO⟩

  -- band 3: staged, then sent
  iapply (wp_load 𝒱₀ (c : Thread nD τ) none Set.univ (m := xM) (Finset.subset_univ _)) $$ Hx; iintro Hx
  iapply (wp_stage_band m ρ c 3 fs0) $$ Hs3; iintro Hs3'
  unfold O4
  iapply (wp_send_band m ρ (K (c, 4)) (K (peer c, 8)) c _ (dev5_eq c) 3 fn _ (0) (zero_add _).symm) $$ [Hs3' HrP3 HO HtS3 HtRP3]
  · isplitr; · iapply (inv_at m ρ K (c, 4)); iexact HI
    isplitr; · iapply (inv_at m ρ K (peer c, 8)); iexact HI
    isplitl [Hs3']; · iexact Hs3'
    isplitl [HrP3]; · iexact HrP3
    isplitl [HO]; · iexact HO
    isplitl [HtS3]; · iexact HtS3
    isplitr; · iapply (reached_at (F := F) (c, 4)); iexact HR
    isplitl [HtRP3]; · iexact HtRP3
    iapply (reached_at (F := F) (peer c, 8)); iexact HR
  iintro ⟨HcS3, HO⟩
  -- the half it keeps, into its own rows of the result
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := R6 c) (Mk := Finset.univ) (Finset.subset_univ _)) $$ Hout; iintro Hout

  -- band 0: its send wait brings the staged band back, its receive wait the landed band, widened into the result
  iapply (Rounds.wp_wait_rest_token 𝒱₀ ER (exRd m ρ) (c : Thread nD τ) none (κ := K (c, 1))
      (wpE_waitDma2_eq 𝒱₀ (c : Thread nD τ) none Set.univ) (Set.mem_univ _) () (O := 0) (R := 0) (m := 0) (T := ∅)
      ((Nat.zero_add _).trans ((sNc 0).trans (expect_send m ρ c 0).symm))) $$ [HcS0 HO HatS0]
  · isplitr; · iapply (inv_at m ρ K (c, 1)); iexact HI
    isplitl [HcS0]; · iexact HcS0
    isplitl [HO]; · iexact HO
    isplitr; · rw [MayWait_zero]; iempintro
    iexact HatS0
  iintro ⟨HO, HatS0, -, Hpay⟩
  ihave Hs0 := (Entails.of_eq (rest_send m ρ c 0)) $$ Hpay
  iapply (Rounds.wp_wait_rest_token 𝒱₀ ER (exRd m ρ) (c : Thread nD τ) none (κ := K (c, 5))
      (wpE_waitDma2_eq 𝒱₀ (c : Thread nD τ) none Set.univ) (Set.mem_univ _) () (O := 0) (R := 0) (m := 0) (T := ∅)
      ((Nat.zero_add _).trans (expect_recv m ρ c 0).symm)) $$ [HcR0 HO HatR0]
  · isplitr; · iapply (inv_at m ρ K (c, 5)); iexact HI
    isplitl [HcR0]; · iexact HcR0
    isplitl [HO]; · iexact HO
    isplitr; · rw [MayWait_zero]; iempintro
    iexact HatR0
  iintro ⟨HO, HatR0, -, Hpay⟩
  ihave Hr0 := (Entails.of_eq (rest_recv m ρ c 0)) $$ Hpay
  imod (Rounds.cell_close ER (exRd m ρ) (Set.mem_univ (K (c, 1))) (fun h => h) (R := 0 + 1) (duties_later m ρ (sendCell c 0))) $$ [HatS0] with HzS0
  · isplitr; · iapply (inv_at m ρ K (c, 1)); iexact HI
    iexact HatS0
  imod (Rounds.cell_close ER (exRd m ρ) (Set.mem_univ (K (c, 5))) (fun h => h) (R := 0 + 1) (duties_later m ρ (recvCell c 0))) $$ [HatR0] with HzR0
  · isplitr; · iapply (inv_at m ρ K (c, 5)); iexact HI
    iexact HatR0
  unfold recvPay rBand
  iapply (wp_load_rect 𝒱₀ (c : Thread nD τ) none Set.univ (m := rM) (Finset.Subset.refl _)) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := R7 c 0) (Mk := Finset.univ) (Finset.subset_univ _)) $$ Hout; iintro Hout

  -- band 1: its send wait brings the staged band back, its receive wait the landed band, widened into the result
  iapply (Rounds.wp_wait_rest_token 𝒱₀ ER (exRd m ρ) (c : Thread nD τ) none (κ := K (c, 2))
      (wpE_waitDma2_eq 𝒱₀ (c : Thread nD τ) none Set.univ) (Set.mem_univ _) () (O := 0) (R := 0) (m := 0) (T := ∅)
      ((Nat.zero_add _).trans ((sNc 1).trans (expect_send m ρ c 1).symm))) $$ [HcS1 HO HatS1]
  · isplitr; · iapply (inv_at m ρ K (c, 2)); iexact HI
    isplitl [HcS1]; · iexact HcS1
    isplitl [HO]; · iexact HO
    isplitr; · rw [MayWait_zero]; iempintro
    iexact HatS1
  iintro ⟨HO, HatS1, -, Hpay⟩
  ihave Hs1 := (Entails.of_eq (rest_send m ρ c 1)) $$ Hpay
  iapply (Rounds.wp_wait_rest_token 𝒱₀ ER (exRd m ρ) (c : Thread nD τ) none (κ := K (c, 6))
      (wpE_waitDma2_eq 𝒱₀ (c : Thread nD τ) none Set.univ) (Set.mem_univ _) () (O := 0) (R := 0) (m := 0) (T := ∅)
      ((Nat.zero_add _).trans (expect_recv m ρ c 1).symm)) $$ [HcR1 HO HatR1]
  · isplitr; · iapply (inv_at m ρ K (c, 6)); iexact HI
    isplitl [HcR1]; · iexact HcR1
    isplitl [HO]; · iexact HO
    isplitr; · rw [MayWait_zero]; iempintro
    iexact HatR1
  iintro ⟨HO, HatR1, -, Hpay⟩
  ihave Hr1 := (Entails.of_eq (rest_recv m ρ c 1)) $$ Hpay
  imod (Rounds.cell_close ER (exRd m ρ) (Set.mem_univ (K (c, 2))) (fun h => h) (R := 0 + 1) (duties_later m ρ (sendCell c 1))) $$ [HatS1] with HzS1
  · isplitr; · iapply (inv_at m ρ K (c, 2)); iexact HI
    iexact HatS1
  imod (Rounds.cell_close ER (exRd m ρ) (Set.mem_univ (K (c, 6))) (fun h => h) (R := 0 + 1) (duties_later m ρ (recvCell c 1))) $$ [HatR1] with HzR1
  · isplitr; · iapply (inv_at m ρ K (c, 6)); iexact HI
    iexact HatR1
  unfold recvPay rBand
  iapply (wp_load_rect 𝒱₀ (c : Thread nD τ) none Set.univ (m := rM) (Finset.Subset.refl _)) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := R7 c 1) (Mk := Finset.univ) (Finset.subset_univ _)) $$ Hout; iintro Hout

  -- band 2: its send wait brings the staged band back, its receive wait the landed band, widened into the result
  iapply (Rounds.wp_wait_rest_token 𝒱₀ ER (exRd m ρ) (c : Thread nD τ) none (κ := K (c, 3))
      (wpE_waitDma2_eq 𝒱₀ (c : Thread nD τ) none Set.univ) (Set.mem_univ _) () (O := 0) (R := 0) (m := 0) (T := ∅)
      ((Nat.zero_add _).trans ((sNc 2).trans (expect_send m ρ c 2).symm))) $$ [HcS2 HO HatS2]
  · isplitr; · iapply (inv_at m ρ K (c, 3)); iexact HI
    isplitl [HcS2]; · iexact HcS2
    isplitl [HO]; · iexact HO
    isplitr; · rw [MayWait_zero]; iempintro
    iexact HatS2
  iintro ⟨HO, HatS2, -, Hpay⟩
  ihave Hs2 := (Entails.of_eq (rest_send m ρ c 2)) $$ Hpay
  iapply (Rounds.wp_wait_rest_token 𝒱₀ ER (exRd m ρ) (c : Thread nD τ) none (κ := K (c, 7))
      (wpE_waitDma2_eq 𝒱₀ (c : Thread nD τ) none Set.univ) (Set.mem_univ _) () (O := 0) (R := 0) (m := 0) (T := ∅)
      ((Nat.zero_add _).trans (expect_recv m ρ c 2).symm)) $$ [HcR2 HO HatR2]
  · isplitr; · iapply (inv_at m ρ K (c, 7)); iexact HI
    isplitl [HcR2]; · iexact HcR2
    isplitl [HO]; · iexact HO
    isplitr; · rw [MayWait_zero]; iempintro
    iexact HatR2
  iintro ⟨HO, HatR2, -, Hpay⟩
  ihave Hr2 := (Entails.of_eq (rest_recv m ρ c 2)) $$ Hpay
  imod (Rounds.cell_close ER (exRd m ρ) (Set.mem_univ (K (c, 3))) (fun h => h) (R := 0 + 1) (duties_later m ρ (sendCell c 2))) $$ [HatS2] with HzS2
  · isplitr; · iapply (inv_at m ρ K (c, 3)); iexact HI
    iexact HatS2
  imod (Rounds.cell_close ER (exRd m ρ) (Set.mem_univ (K (c, 7))) (fun h => h) (R := 0 + 1) (duties_later m ρ (recvCell c 2))) $$ [HatR2] with HzR2
  · isplitr; · iapply (inv_at m ρ K (c, 7)); iexact HI
    iexact HatR2
  unfold recvPay rBand
  iapply (wp_load_rect 𝒱₀ (c : Thread nD τ) none Set.univ (m := rM) (Finset.Subset.refl _)) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := R7 c 2) (Mk := Finset.univ) (Finset.subset_univ _)) $$ Hout; iintro Hout

  -- band 3: its send wait brings the staged band back, its receive wait the landed band, widened into the result
  iapply (Rounds.wp_wait_rest_token 𝒱₀ ER (exRd m ρ) (c : Thread nD τ) none (κ := K (c, 4))
      (wpE_waitDma2_eq 𝒱₀ (c : Thread nD τ) none Set.univ) (Set.mem_univ _) () (O := 0) (R := 0) (m := 0) (T := ∅)
      ((Nat.zero_add _).trans ((sNc 3).trans (expect_send m ρ c 3).symm))) $$ [HcS3 HO HatS3]
  · isplitr; · iapply (inv_at m ρ K (c, 4)); iexact HI
    isplitl [HcS3]; · iexact HcS3
    isplitl [HO]; · iexact HO
    isplitr; · rw [MayWait_zero]; iempintro
    iexact HatS3
  iintro ⟨HO, HatS3, -, Hpay⟩
  ihave Hs3 := (Entails.of_eq (rest_send m ρ c 3)) $$ Hpay
  iapply (Rounds.wp_wait_rest_token 𝒱₀ ER (exRd m ρ) (c : Thread nD τ) none (κ := K (c, 8))
      (wpE_waitDma2_eq 𝒱₀ (c : Thread nD τ) none Set.univ) (Set.mem_univ _) () (O := 0) (R := 0) (m := 0) (T := ∅)
      ((Nat.zero_add _).trans (expect_recv m ρ c 3).symm)) $$ [HcR3 HO HatR3]
  · isplitr; · iapply (inv_at m ρ K (c, 8)); iexact HI
    isplitl [HcR3]; · iexact HcR3
    isplitl [HO]; · iexact HO
    isplitr; · rw [MayWait_zero]; iempintro
    iexact HatR3
  iintro ⟨HO, HatR3, -, Hpay⟩
  ihave Hr3 := (Entails.of_eq (rest_recv m ρ c 3)) $$ Hpay
  imod (Rounds.cell_close ER (exRd m ρ) (Set.mem_univ (K (c, 4))) (fun h => h) (R := 0 + 1) (duties_later m ρ (sendCell c 3))) $$ [HatS3] with HzS3
  · isplitr; · iapply (inv_at m ρ K (c, 4)); iexact HI
    iexact HatS3
  imod (Rounds.cell_close ER (exRd m ρ) (Set.mem_univ (K (c, 8))) (fun h => h) (R := 0 + 1) (duties_later m ρ (recvCell c 3))) $$ [HatR3] with HzR3
  · isplitr; · iapply (inv_at m ρ K (c, 8)); iexact HI
    iexact HatR3
  unfold recvPay rBand
  iapply (wp_load_rect 𝒱₀ (c : Thread nD τ) none Set.univ (m := rM) (Finset.Subset.refl _)) $$ Hr3; iintro Hr3
  iapply (wp_load 𝒱₀ (c : Thread nD τ) none Set.univ (m := oM) (Finset.subset_univ _)) $$ Hout; iintro Hout
  iapply (wp_store 𝒱₀ (c : Thread nD τ) none Set.univ (m := oM) (r := R7 c 3) (Mk := Finset.univ) (Finset.subset_univ _)) $$ Hout; iintro Hout
  rw [wp_ret]; imodintro
  iapply Hk
  unfold bodyPost Φ₁ Dat.owesAt Pipeline.owesWithin ownZero
  rw [show (dats m ρ 0 c).owed t₀.succ = 0 from rfl]
  isplitl [Hs0 Hs1 Hs2 Hs3 Hr0 Hr1 Hr2 Hr3 HzS0 HzS1 HzS2 HzS3 HzR0 HzR1 HzR2 HzR3]
  · isplitl [Hs0 Hs1 Hs2 Hs3]
    · unfold sWhole sendPay
      iapply (Entails.of_eq (sWhole_bands c (sbufC m ρ c)).symm)
      isplitl [Hs0]; · iexact Hs0
      isplitl [Hs1]; · iexact Hs1
      isplitl [Hs2]; · iexact Hs2
      iexact Hs3
    isplitl [Hr0 Hr1 Hr2 Hr3]
    · iapply (Entails.of_eq (rWhole_bands c (rbufC m ρ c)).symm)
      unfold rBand
      isplitl [Hr0]; · iexact Hr0
      isplitl [Hr1]; · iexact Hr1
      isplitl [Hr2]; · iexact Hr2
      iexact Hr3
    isplitl [HzS0]; · iexact HzS0
    isplitl [HzS1]; · iexact HzS1
    isplitl [HzS2]; · iexact HzS2
    isplitl [HzS3]; · iexact HzS3
    isplitl [HzR0]; · iexact HzR0
    isplitl [HzR1]; · iexact HzR1
    isplitl [HzR2]; · iexact HzR2
    iexact HzR3
  isplitl [HO]
  · iexists (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W)))))))))
    isplitr; · ipureintro; exact fun _ _ => Or.inl trivial
    iexact HO
  isplitl [Hx]
  · iexists _; isplitr; · (ipureintro; rfl)
    iexact Hx
  iexists _; isplitr; · (ipureintro; exact outW_eq m ρ c g1)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on device c: the body, from the invariant before the point to the one after. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hs, Hr⟩, Ho, Hx, Hout⟩
  iapply (sound_body m ρ K c fun _ => bodyPost m ρ c)
  unfold bodyPre
  isplitr []
  · isplitl [Hg Hcr Hlev Hs Hr]
    · isplitl [Hg]; · iexact Hg
      isplitl [Hcr]; · iexact Hcr
      isplitl [Hlev]; · iexact Hlev
      isplitl [Hs]; · iexact Hs
      iexact Hr
    isplitl [Ho]; · iexact Ho
    isplitl [Hx] <;> iassumption
  · iintro H; iexact H

/-- info: 'Cert.KernelP.body_obligation' depends on axioms: [propext, Classical.choice, Quot.sound] -/
#guard_msgs in #print axioms body_obligation

end Cert.KernelP

end
-- ==== Proof.KernelP.Launch.lean ====
/-
  The launch. Every device's nine semaphores of the exchange are funded at round 0 and given their invariants in one
  step for the whole machine; the records of that step are persistent and every device keeps a copy, with its place at
  its own nine semaphores and the tokens of the nine duties it pays: its own four send duties, and its partner's
  barrier duty and four receive duties, handed across the partner relation. The launch credit of a device is what the
  others owe its semaphores at launch: its partner alone owes it, one unit on the barrier and one band's credit on
  each receive semaphore. With each device's body obligation, the run of the whole program follows.
-/
import proofs.«900407_g7700000000000408_dist_a2a_v7x_xyz2x2x2_x_m1024_n512_f32_1_alg».proof.Proof.KernelP.Data
import proofs.«900407_g7700000000000408_dist_a2a_v7x_xyz2x2x2_x_m1024_n512_f32_1_alg».proof.Proof.Gen.Kernel.Launch
import proofs.«900407_g7700000000000408_dist_a2a_v7x_xyz2x2x2_x_m1024_n512_f32_1_alg».proof.Proof.Gen.Kernel.Points
import Idealize.ShloMosaic.Lib.Pipeline.Launch
import Idealize.ShloMosaic.Lib.Pipeline.Kit
import Idealize.ShloMosaic.Lib.Tactic

noncomputable section

namespace Cert.KernelP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 9 → SemLoc sig) := by decide

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def exCells : Finset (GSem nD τ sig) := Finset.univ.map ⟨kcell, kcell_injective⟩

/-- A device's own semaphores' duty tokens as minted: one per semaphore. -/
abbrev tokOf (ck : Dev nD × Fin 9) : GSem nD τ sig × ℕ × Unit := (kcell ck, 0, ())
theorem tokOf_injective : Function.Injective (tokOf : Dev nD × Fin 9 → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of a device's own semaphores. -/
def toks (c : Dev nD) : sProp 𝕄 := bigSep Finset.univ fun k : Fin 9 => dutyTok ER (kcell (c, k)) 0 ()

/-- What the launch element deals a device. -/
def G (c : Dev nD) : sProp 𝕄 :=
  iprop((bigSep Finset.univ fun k : Fin 9 => roundState ER (exRd m ρ) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 9 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the invariants -/

/-- The eight send and receive semaphores are the kernel's own; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5, 6, 7] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  unfold ownZero
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The records shared, the tokens dealt across the partner relation -/

theorem ghost_intro (K : Dev nD × Fin 9 → ℕ) (c : Dev nD) : iprop(records m ρ K ∗ linear c) ⊢ G' m ρ c := by
  unfold G' ghost
  iintro H
  iexists K
  iexact H

/-- The barrier token and the four receive tokens go to the partner; the four send tokens stay. -/
theorem toks_around : (bigSep Finset.univ fun c : Dev nD => (toks c : sProp 𝕄)) ⊢ bigSep Finset.univ fun c : Dev nD => payToks c := by
  have e : ∀ c : Dev nD, (toks c : sProp 𝕄)
      = iprop(dutyTok ER (barCell c) 0 ()
          ∗ dutyTok ER (sendCell c 0) 0 () ∗ dutyTok ER (sendCell c 1) 0 () ∗ dutyTok ER (sendCell c 2) 0 () ∗ dutyTok ER (sendCell c 3) 0 ()
          ∗ dutyTok ER (recvCell c 0) 0 () ∗ dutyTok ER (recvCell c 1) 0 () ∗ dutyTok ER (recvCell c 2) 0 () ∗ dutyTok ER (recvCell c 3) 0 ()) :=
    fun c => by unfold toks; rw [bigSep_fin9]
  rw [bigSep_congr (s := Finset.univ) fun c _ => e c]
  unfold payToks
  simp only [bigSep_sep']
  rw [bigSep_univ_equiv swap (fun c : Dev nD => (dutyTok ER (barCell c) 0 () : sProp 𝕄)),
    bigSep_univ_equiv swap (fun c : Dev nD => (dutyTok ER (recvCell c 0) 0 () : sProp 𝕄)),
    bigSep_univ_equiv swap (fun c : Dev nD => (dutyTok ER (recvCell c 1) 0 () : sProp 𝕄)),
    bigSep_univ_equiv swap (fun c : Dev nD => (dutyTok ER (recvCell c 2) 0 () : sProp 𝕄)),
    bigSep_univ_equiv swap (fun c : Dev nD => (dutyTok ER (recvCell c 3) 0 () : sProp 𝕄))]
  iintro ⟨HB, HS0, HS1, HS2, HS3, HR0, HR1, HR2, HR3⟩
  isplitl [HB]; · iexact HB
  isplitl [HS0 HS1 HS2 HS3]
  · isplitl [HS0]; · iexact HS0
    isplitl [HS1]; · iexact HS1
    isplitl [HS2]; · iexact HS2
    iexact HS3
  · isplitl [HR0]; · iexact HR0
    isplitl [HR1]; · iexact HR1
    isplitl [HR2]; · iexact HR2
    iexact HR3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (exRd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {h k : Fin 4} : Iff (recvCell a h = recvCell b k) (a = b ∧ h = k) :=
  ⟨fun e => ⟨Fin.ext (congrArg (fun g : GSem nD τ sig => g.1.1.val) e),
      recvS_inj (SemLoc.dma.inj (congrArg Prod.snd e))⟩, fun ⟨e1, e2⟩ => e1 ▸ e2 ▸ rfl⟩

/-- What device `d` owes device `c`'s barrier: one unit if it is `c`'s partner. -/
theorem owed_bar (d c : Dev nD) : O₀ d (barCell c) () = if d = peer c then 1 else 0 := by
  unfold O₀ O1 O2 O3 O4
  simp only [Pi.add_apply, Finsupp.add_apply, tallyAt_apply, and_true]
  have hne : ∀ k : Fin 4, ¬ barCell c = recvCell (peer d) k := fun k e => recv_ne_bar k (congrArg Prod.snd e).symm
  rw [if_neg (hne 3), if_neg (hne 2), if_neg (hne 1), if_neg (hne 0)]
  simp only [Nat.zero_add]
  by_cases h : d = peer c
  · subst h; rw [peer_peer, if_pos rfl, if_pos rfl]
  · rw [if_neg (fun h1 => h (by rw [← peer_peer d]; exact congrArg peer (bar_eq_iff.mp h1).symm)), if_neg h]

/-- What device `d` owes device `c`'s receive semaphore of band `h`: the band's credit if it is `c`'s partner. -/
theorem owed_recv (d c : Dev nD) (h : Fin 4) : O₀ d (recvCell c h) () = if d = peer c then Nc h else 0 := by
  unfold O₀ O1 O2 O3 O4
  simp only [Pi.add_apply, Finsupp.add_apply, tallyAt_apply, and_true]
  rw [if_neg (show ¬ recvCell c h = barCell (peer d) from fun e => recv_ne_bar h (congrArg Prod.snd e)), Nat.add_zero]
  by_cases hd : d = peer c
  · subst hd
    rw [peer_peer, if_pos rfl]
    have hk : ∀ h k : Fin 4, k ≠ h → ¬ recvCell c h = recvCell c k := fun h k hk e => hk (recv_eq_iff.mp e).2.symm
    have h4 : h = 0 ∨ h = 1 ∨ h = 2 ∨ h = 3 := by revert h; decide
    rcases h4 with rfl | rfl | rfl | rfl
    · rw [if_neg (hk 0 3 (by decide)), if_neg (hk 0 2 (by decide)), if_neg (hk 0 1 (by decide)), if_pos rfl, Nat.zero_add]
    · rw [if_neg (hk 1 3 (by decide)), if_neg (hk 1 2 (by decide)), if_pos rfl, if_neg (hk 1 0 (by decide)), Nat.zero_add, Nat.add_zero]
    · rw [if_neg (hk 2 3 (by decide)), if_pos rfl, if_neg (hk 2 1 (by decide)), if_neg (hk 2 0 (by decide)), Nat.zero_add, Nat.add_zero]
    · rw [if_pos rfl, if_neg (hk 3 2 (by decide)), if_neg (hk 3 1 (by decide)), if_neg (hk 3 0 (by decide)), Nat.add_zero]
  · have hne : ∀ k : Fin 4, ¬ recvCell c h = recvCell (peer d) k := fun k e =>
      hd (by rw [← peer_peer d]; exact congrArg peer (recv_eq_iff.mp e).1.symm)
    rw [if_neg (hne 3), if_neg (hne 2), if_neg (hne 1), if_neg (hne 0), if_neg hd]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) (h : Fin 4) :
    tallyOn (recvCell c h) (launchCredit (Pipeline.owing O₀) 0 (recvCell c h)) = (tallyAt (recvCell c h) () (Nc h) : CellTallies nD τ sig Unit) := by
  unfold tallyAt; refine congrArg _ (Finsupp.ext fun u => ?_); cases u
  rw [Pipeline.launchCredit_owing, Finsupp.single_eq_same, Finset.sum_congr rfl fun d _ => owed_recv d c h,
    Finset.sum_ite_eq' Finset.univ (peer c) fun _ => Nc h, if_pos (Finset.mem_univ _)]

theorem creds_intro (c : Dev nD) : (Pipeline.launchCred O₀ c : sProp 𝕄) ⊢ creds c := by
  unfold Pipeline.launchCred creds
  refine (bigSep_subset (t := [SemLoc.reg barS, SemLoc.dma (recvS 0), SemLoc.dma (recvS 1), SemLoc.dma (recvS 2), SemLoc.dma (recvS 3)].toFinset)
    (Finset.subset_univ _)).trans ?_
  rw [bigSep_eq_bigSepL_of_eq [SemLoc.reg barS, SemLoc.dma (recvS 0), SemLoc.dma (recvS 1), SemLoc.dma (recvS 2), SemLoc.dma (recvS 3)] rfl (by decide),
    ← launch_bar c, ← launch_recv c 0, ← launch_recv c 1, ← launch_recv c 2, ← launch_recv c 3]
  exact BI.Entails.refl _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hs0⟩, ⟨%f', Hr⟩⟩
  isplitl [Hs]; · iexact Hs
  isplitl [Hs0]
  · iexists f; rw [sWhole_eq]; iexact Hs0
  · iexists f'; rw [rWhole_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hs, Hr, Hz⟩
  isplitr; · iempintro
  isplitl [Hz]; · iexact Hz
  isplitl [Hs]
  · iexists (sbufC m ρ c); rw [← sWhole_eq]; iexact Hs
  · iexists (rbufC m ρ c); rw [← rWhole_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters, if every device's
    body meets its obligation: every weakly fair execution of the program — each device and its partner on the first
    mesh axis handshaking on the barrier semaphore, then exchanging four bands — terminates, and every final state has
    each device's result array at the computed contents and the argument unchanged. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelP.run_main' depends on axioms: [propext, Classical.choice, Quot.sound] -/
#guard_msgs in #print axioms run_main

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelP

end
-- ==== Proof.KernelP.Final.lean ====
/-
  What the launch leaves in the two windowed arrays: the argument array as it was, the result array holding the
  result block. Each window's one block is its whole array, so the one write-back replaces the array's contents.
-/
import proofs.«900407_g7700000000000408_dist_a2a_v7x_xyz2x2x2_x_m1024_n512_f32_1_alg».proof.Proof.KernelP.Data
import proofs.«900407_g7700000000000408_dist_a2a_v7x_xyz2x2x2_x_m1024_n512_f32_1_alg».proof.Proof.Gen.Kernel.Points
import Idealize.ShloMosaic.Lib.Pipeline.Value
import Idealize.ShloMosaic.Lib.Pipeline.Cells

noncomputable section

namespace Cert.KernelP

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array is never written: it ends as it was at launch. -/
theorem final_in (c : Dev nD) :
    (dats m ρ 0 c).arrAt (0 : Fin 2) cfg0.N = (s₀ m ρ).mem ((c : Thread nD τ).loc main_arg0) :=
  (dats m ρ 0 c).arrAt_in (0 : Fin 2) rfl _

/-- The result array after the one write-back holds the result block. -/
theorem final_out (c : Dev nD) :
    (dats m ρ 0 c).arrAt (1 : Fin 2) cfg0.N = outAt m ρ c := by
  have hN : cfg0.N = (t₀ : Fin cfg0.N).val + 1 := cfg0_N
  refine (congrArg ((dats m ρ 0 c).arrAt (1 : Fin 2)) hN).trans ?_
  rw [Dat.arrAt_succ, if_pos (flush0_1 t₀)]
  refine (Memref.write_access_unit_zero_univ (Elt F) main_v1 (funext fun a => Nat.zero_mul _) _ _ _).trans ?_
  funext i
  exact congrArg (outAt m ρ c) (funext fun a => Fin.ext rfl)

/-- info: 'Cert.KernelP.final_in' depends on axioms: [propext, Classical.choice, Quot.sound] -/
#guard_msgs in #print axioms final_in
/-- info: 'Cert.KernelP.final_out' depends on axioms: [propext, Classical.choice, Quot.sound] -/
#guard_msgs in #print axioms final_out

end Cert.KernelP

end
-- ==== Proof.OutValue.lean ====
/-
  At the ideal instance, what a device's result block holds after the exchange, as a block of the whole array.
-/
import proofs.«900407_g7700000000000408_dist_a2a_v7x_xyz2x2x2_x_m1024_n512_f32_1_alg».proof.Proof.KernelIdealP.Proto
import proofs.«900407_g7700000000000408_dist_a2a_v7x_xyz2x2x2_x_m1024_n512_f32_1_alg».proof.Defs
import Idealize.ShloMosaic.Lib.Layout
import Idealize.ShloMosaic.PureOps.Ideal
import Idealize.ShloMosaic.Lib.Pipeline.Value
import Idealize.ShloMosaic.Lib.ValueIdx

noncomputable section

namespace Cert.OutValue

open Cert.KernelIdeal Cert.KernelIdeal.Gen Cert.KernelIdealP
open Idealize.ShloMosaic Idealize.ShloMosaic.ValueIdx
open Idealize.ShloMosaic.TcCoe
open Idealize.SL.Sem

variable (m : (ℓ : Loc nD τ sig) → Buf (Elt Ideal) ℓ) (ρ : Dev nD → PrngReg)

/-- The staged argument block is the device's argument buffer. -/
theorem xstg_eq (c : Dev nD) : xstg (F := Ideal) m ρ c = m ((c : Thread nD τ).loc main_arg0) := by
  unfold xstg
  exact Memref.read_access_unit_zero (Elt Ideal) main_arg0 (funext fun a => Nat.zero_mul _) _ _

/-- The half a device keeps, at row r and column j: its argument block at column 512x + j. -/
theorem ldK_apply (c : Dev nD) (r : Fin 1024) (j : Fin 512) :
    ldK (F := Ideal) m ρ c (ix2 r j)
      = m ((c : Thread nD τ).loc main_arg0)
          (ix2 (⟨r.val, r.isLt⟩ : Fin 1024) (⟨512 * (c.val / 4) + j.val, by have : c.val < 8 := c.isLt; have := j.isLt; omega⟩ : Fin 1024)) := by
  unfold ldK
  rw [xstg_eq]
  refine congrArg (m ((c : Thread nD τ).loc main_arg0)) (funext fun a => Fin.ext ?_)
  match a with
  | ⟨0, _⟩ =>
    show k0_off5 c 0 + 1 * r.val = r.val
    rw [k0_off5_eq]; show 0 + 1 * r.val = r.val; omega
  | ⟨1, _⟩ =>
    show k0_off5 c 1 + 1 * j.val = 512 * (c.val / 4) + j.val
    rw [k0_off5_eq]; show 512 * (c.val / 4) + 1 * j.val = 512 * (c.val / 4) + j.val; omega

/-- Where band h of the half a device sends is read, in closed form. -/
theorem offX_eq (c : Dev nD) (h : Fin 4) : offX c h = ![256 * h.val, 512 - 512 * (c.val / 4)] := by
  fin_cases h
  · exact k0_off1_eq c
  · exact k0_off2_eq c
  · exact k0_off3_eq c
  · exact k0_off4_eq c

/-- Band h of the half a device sends, at row y and column j: its argument block at row 256h + y and
    column 512(1 - x) + j. -/
theorem ldX_apply (c : Dev nD) (h : Fin 4) (y : Fin 256) (j : Fin 512) :
    ldX (F := Ideal) m ρ c h (ix2 y j)
      = m ((c : Thread nD τ).loc main_arg0)
          (ix2 (⟨256 * h.val + y.val, by have := h.isLt; have := y.isLt; omega⟩ : Fin 1024)
            (⟨(512 - 512 * (c.val / 4)) + j.val, by have : c.val < 8 := c.isLt; have := j.isLt; omega⟩ : Fin 1024)) := by
  unfold ldX
  rw [xstg_eq]
  refine congrArg (m ((c : Thread nD τ).loc main_arg0)) (funext fun a => Fin.ext ?_)
  match a with
  | ⟨0, _⟩ =>
    show offX c h 0 + 1 * y.val = 256 * h.val + y.val
    rw [offX_eq]; show 256 * h.val + 1 * y.val = 256 * h.val + y.val; omega
  | ⟨1, _⟩ =>
    show offX c h 1 + 1 * j.val = (512 - 512 * (c.val / 4)) + j.val
    rw [offX_eq]; show (512 - 512 * (c.val / 4)) + 1 * j.val = (512 - 512 * (c.val / 4)) + j.val; omega

/-! ## The payloads at the ideal instance: format changes and same-shape casts are the identity -/

theorem pay2_apply (v : Vec Ideal S256x512 .f32) (i : S256x512.Idx) : (k0_pay2 (F := Ideal) v i : EReal) = v i := by
  unfold k0_pay2
  rw [shapeCast_self, truncf_apply, shapeCast_self]

theorem pay6_apply (v : Vec Ideal S1024x512 .f32) (i : S1024x512.Idx) : (k0_pay6 (F := Ideal) v i : EReal) = v i := by
  unfold k0_pay6
  exact congrFun (shapeCast_self _ _) i

theorem pay7_apply (v : Vec Ideal S256x512 .bf16) (i : S256x512.Idx) : (k0_pay7 (F := Ideal) v i : EReal) = v i := rfl

/-! ## The staging and landing buffers -/

/-- Row r, column j of the full staging buffer: the device's argument block at row r and column 512(1 - x) + j. -/
theorem sbufC_apply (c : Dev nD) (r : Fin 1024) (j : Fin 512) :
    (sbufC (F := Ideal) m ρ c (ix2 r j) : EReal)
      = m ((c : Thread nD τ).loc main_arg0)
          (ix2 (⟨r.val, r.isLt⟩ : Fin 1024)
            (⟨(512 - 512 * (c.val / 4)) + j.val, by have : c.val < 8 := c.isLt; have := j.isLt; omega⟩ : Fin 1024)) := by
  have hr : r.val / 256 < 4 := by have := r.isLt; omega
  show (k0_pay2 (F := Ideal) (ldX m ρ c ⟨r.val / 256, hr⟩)
      (ix2 (⟨r.val % 256, Nat.mod_lt _ (by decide)⟩ : Fin 256) (⟨j.val, j.isLt⟩ : Fin 512)) : EReal) = _
  rw [pay2_apply, ldX_apply]
  refine congrArg (m ((c : Thread nD τ).loc main_arg0)) (funext fun a => ?_)
  match a with
  | ⟨0, _⟩ => exact Fin.ext (by show 256 * (r.val / 256) + r.val % 256 = r.val; omega)
  | ⟨1, _⟩ => rfl

/-- Band h of the landing buffer, at row y and column j: the partner's staging buffer at row 256h + y. -/
theorem ldR_apply (c : Dev nD) (h : Fin 4) (y : Fin 256) (j : Fin 512) :
    (ldR (F := Ideal) m ρ c h (ix2 y j) : EReal)
      = sbufC (F := Ideal) m ρ (peer c)
          (ix2 (⟨256 * h.val + y.val, by have := h.isLt; have := y.isLt; omega⟩ : Fin 1024) (⟨j.val, j.isLt⟩ : Fin 512)) := by
  unfold ldR rbufC
  refine congrArg (sbufC (F := Ideal) m ρ (peer c)) (funext fun a => Fin.ext ?_)
  match a with
  | ⟨0, _⟩ => show 256 * h.val + 1 * y.val = 256 * h.val + y.val; omega
  | ⟨1, _⟩ => show 0 + 1 * j.val = j.val; omega

/-! ## Blocks of the whole array -/

/-- A device's block coordinate on the first mesh axis of a 2 × 2 × 2 mesh. -/
theorem meshLin_x (c : ℕ) : Layout.meshLin [2, 2, 2] c [0] = c / 4 % 2 := by
  show (c / 4) % 2 * 1 + 0 = c / 4 % 2; omega

theorem meshLin_none (c : ℕ) : Layout.meshLin [2, 2, 2] c [] = 0 := rfl

variable (v0 : Buf (Elt Ideal) (((0 : Dev Cert.ReferenceIdeal.nD).tc : Thread Cert.ReferenceIdeal.nD Cert.ReferenceIdeal.τ).loc Cert.ReferenceIdeal.main_arg0))

/-- Row r, column k of device c's block of rows: the whole array at row 1024x + r. -/
theorem rowBlock_apply (c : Dev nD) (r : Fin 1024) (k : Fin 1024) :
    (Layout.blockN ⟨2, ![1024, 1024]⟩ ⟨2, ![2048, 1024]⟩ (Layout.meshBlock [2, 2, 2] ![[0], []] c) v0) (ix2 r k)
      = v0 (ix2 (⟨1024 * (c.val / 4) + r.val, by have : c.val < 8 := c.isLt; have := r.isLt; omega⟩ : Fin 2048) (⟨k.val, k.isLt⟩ : Fin 1024)) := by
  rw [Layout.blockN_apply]
  refine congrArg v0 (funext fun a => Fin.ext ?_)
  have hc : c.val < 8 := c.isLt
  match a with
  | ⟨0, _⟩ =>
    show Layout.meshLin [2, 2, 2] c.val [0] * 1024 + r.val = 1024 * (c.val / 4) + r.val
    rw [meshLin_x]; omega
  | ⟨1, _⟩ =>
    show Layout.meshLin [2, 2, 2] c.val [] * 1024 + k.val = k.val
    rw [meshLin_none]; omega

/-- Row R, column j of device c's block of columns: the whole array at column 512x + j. -/
theorem colBlock_apply (c : Dev nD) (R : Fin 2048) (j : Fin 512) :
    (Layout.blockN ⟨2, ![2048, 512]⟩ ⟨2, ![2048, 1024]⟩ (Layout.meshBlock [2, 2, 2] ![[], [0]] c) v0) (ix2 R j)
      = v0 (ix2 (⟨R.val, R.isLt⟩ : Fin 2048) (⟨512 * (c.val / 4) + j.val, by have : c.val < 8 := c.isLt; have := j.isLt; omega⟩ : Fin 1024)) := by
  rw [Layout.blockN_apply]
  refine congrArg v0 (funext fun a => Fin.ext ?_)
  have hc : c.val < 8 := c.isLt
  match a with
  | ⟨0, _⟩ =>
    show Layout.meshLin [2, 2, 2] c.val [] * 2048 + R.val = R.val
    rw [meshLin_none]; omega
  | ⟨1, _⟩ =>
    show Layout.meshLin [2, 2, 2] c.val [0] * 512 + j.val = 512 * (c.val / 4) + j.val
    rw [meshLin_x]; omega

/-! ## The result block -/

variable (hm : ∀ c : Dev Cert.KernelIdeal.nD,
    m ((c.tc : Thread Cert.KernelIdeal.nD Cert.KernelIdeal.τ).loc Cert.KernelIdeal.main_arg0)
      = Layout.blockN ⟨2, ![1024, 1024]⟩ ⟨2, ![2048, 1024]⟩ (Layout.meshBlock [2, 2, 2] ![[0], []] c) v0)

include hm in
/-- Row r, column k of a device's argument buffer: the whole array at row 1024x + r. -/
theorem arg_apply (c : Dev nD) (r : Fin 1024) (k : Fin 1024) :
    m ((c : Thread nD τ).loc main_arg0) (ix2 r k)
      = v0 (ix2 (⟨1024 * (c.val / 4) + r.val, by have : c.val < 8 := c.isLt; have := r.isLt; omega⟩ : Fin 2048) (⟨k.val, k.isLt⟩ : Fin 1024)) :=
  (congrFun (hm c) (ix2 r k)).trans (rowBlock_apply v0 c r k)

include hm in
/-- Row R, column j of the result block: the whole array at column 512x + j, in both halves of the rows. -/
theorem outAt_apply (c : Dev nD) (R : Fin 2048) (j : Fin 512) :
    (outAt (F := Ideal) m ρ c (ix2 R j) : EReal)
      = v0 (ix2 (⟨R.val, R.isLt⟩ : Fin 2048) (⟨512 * (c.val / 4) + j.val, by have : c.val < 8 := c.isLt; have := j.isLt; omega⟩ : Fin 1024)) := by
  have hc : c.val < 8 := c.isLt
  have hR : R.val < 2048 := R.isLt
  have hR4 : R.val % 1024 / 256 < 4 := by omega
  show (if R.val / 1024 = c.val / 4 then
      k0_pay6 (F := Ideal) (ldK m ρ c)
        (ix2 (⟨R.val % 1024, Nat.mod_lt _ (by decide)⟩ : Fin 1024) (⟨j.val, j.isLt⟩ : Fin 512))
    else
      k0_pay7 (F := Ideal) (ldR m ρ c ⟨R.val % 1024 / 256, hR4⟩)
        (ix2 (⟨R.val % 256, Nat.mod_lt _ (by decide)⟩ : Fin 256) (⟨j.val, j.isLt⟩ : Fin 512))) = _
  by_cases hx : R.val / 1024 = c.val / 4
  · rw [if_pos hx, pay6_apply, ldK_apply, arg_apply m v0 hm]
    refine congrArg v0 (funext fun a => ?_)
    match a with
    | ⟨0, _⟩ => exact Fin.ext (by show 1024 * (c.val / 4) + R.val % 1024 = R.val; omega)
    | ⟨1, _⟩ => rfl
  · rw [if_neg hx, pay7_apply, ldR_apply, sbufC_apply, arg_apply m v0 hm]
    have hp : (peer c).val / 4 = 1 - c.val / 4 := peer_x c
    refine congrArg v0 (funext fun a => ?_)
    match a with
    | ⟨0, _⟩ =>
      exact Fin.ext (by
        show 1024 * ((peer c).val / 4) + (256 * (R.val % 1024 / 256) + R.val % 256) = R.val
        rw [hp]; omega)
    | ⟨1, _⟩ =>
      exact Fin.ext (by
        show (512 - 512 * ((peer c).val / 4)) + j.val = 512 * (c.val / 4) + j.val
        rw [hp]; omega)

/-- At the ideal instance, when every device's argument block is its block of rows of the whole array, the result
    block of device c is its block of columns of the whole array. -/
theorem outAt_ideal (m : (ℓ : Loc Cert.KernelIdeal.nD Cert.KernelIdeal.τ Cert.KernelIdeal.sig) → Buf (Elt Ideal) ℓ) (ρ : Dev Cert.KernelIdeal.nD → PrngReg)
    (v0 : Buf (Elt Ideal) (((0 : Dev Cert.ReferenceIdeal.nD).tc : Thread Cert.ReferenceIdeal.nD Cert.ReferenceIdeal.τ).loc Cert.ReferenceIdeal.main_arg0))
    (hm : ∀ c : Dev Cert.KernelIdeal.nD, m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[0], []] c) v0)
    (c : Dev Cert.KernelIdeal.nD) :
    Cert.KernelIdealP.outAt (F := Ideal) m ρ c = Layout.blockN ⟨2, ![2048, 512]⟩ ⟨2, ![2048, 1024]⟩ (Layout.meshBlock [2, 2, 2] ![[], [0]] c) v0 := by
  funext i
  obtain ⟨R, j, rfl⟩ : ∃ (R : Fin 2048) (j : Fin 512), i = ix2 R j := ⟨i 0, i 1, eq_ix2 i⟩
  exact (outAt_apply m ρ v0 hm c R j).trans (colBlock_apply v0 c R j).symm

/-- info: 'Cert.OutValue.outAt_ideal' depends on axioms: [propext, Classical.choice, Quot.sound] -/
#guard_msgs in #print axioms outAt_ideal

end Cert.OutValue

end
-- ==== Proof.RefRun.lean ====
/-
  The reference program returns its argument: one device, no kernel, no host operation. Its run, read back:
  every weakly fair execution terminates and every buffer ends holding what it held at launch.
-/
import proofs.«900407_g7700000000000408_dist_a2a_v7x_xyz2x2x2_x_m1024_n512_f32_1_alg».proof.Defs
import proofs.«900407_g7700000000000408_dist_a2a_v7x_xyz2x2x2_x_m1024_n512_f32_1_alg».proof.Proof.Gen.ReferenceIdeal
import proofs.«900407_g7700000000000408_dist_a2a_v7x_xyz2x2x2_x_m1024_n512_f32_1_alg».proof.Proof.Gen.Pre_finite_inputs_ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

/-- @main's operations: none. -/
abbrev ops : List (HloOp τ sig (Elt Ideal)) := []

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig := trivial

/-- From any memory with zero counters: every weakly fair execution of @main terminates with the argument array
    unchanged. -/
theorem run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD, r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run defs _ _).mono (fun _ h c => h c main_arg0)
    (run_seq scopedRefs_eq scopedSems_eq defs main (fun _ => ops) main_eq (fun _ => ops_sub) m' g'
      (fun _ _ h => nomatch h))

/-- The reference runs and its argument array ends unchanged. -/
theorem frame_ref : Cert.frame_ReferenceIdeal (hReferenceIdeal := Cert.ReferenceIdeal.Gen.facts) (hPre_finite_inputs_ReferenceIdeal := Cert.Pre_finite_inputs_ReferenceIdeal.Gen.facts) :=
  fun m g _ => run m g

/-- The reference's half of the algebraic claim: its result ends holding the whole array it was launched with. -/
theorem algebraic_ref (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run _ _ _).mono (fun _ h => ⟨h 0, h 0⟩) (run m' g')

/-- info: 'Cert.RefRun.run' depends on axioms: [propext, Classical.choice, Quot.sound] -/
#guard_msgs in #print axioms run
/-- info: 'Cert.RefRun.frame_ref' depends on axioms: [propext, Classical.choice, Quot.sound] -/
#guard_msgs in #print axioms frame_ref
/-- info: 'Cert.RefRun.algebraic_ref' depends on axioms: [propext, Classical.choice, Quot.sound] -/
#guard_msgs in #print axioms algebraic_ref

end Cert.RefRun

end
-- ==== Proof.lean ====
/-
  Eight devices, numbered 4x + 2y + z, hold the whole array by blocks of rows: device (x, y, z) holds rows
  [1024x, 1024x + 1024). Each keeps its own rows of the half [512x, 512x + 512) of the columns and receives from
  its partner, the device with the other x, the partner's rows of that half; so its result block is that half of
  the columns of the whole array, all 2048 rows, and that is the block of the whole array the reference, which is
  the identity, returns to it. The received half crosses rounded to bf16 and is widened again: over the extended
  reals both format changes are the identity, so the values agree exactly. Each program's frame is its run with
  the values dropped: the argument array is read and never written.
-/
import proofs.«900407_g7700000000000408_dist_a2a_v7x_xyz2x2x2_x_m1024_n512_f32_1_alg».proof.Defs
import proofs.«900407_g7700000000000408_dist_a2a_v7x_xyz2x2x2_x_m1024_n512_f32_1_alg».proof.Proof.Gen.Kernel
import proofs.«900407_g7700000000000408_dist_a2a_v7x_xyz2x2x2_x_m1024_n512_f32_1_alg».proof.Proof.Gen.Kernel.Skeleton
import proofs.«900407_g7700000000000408_dist_a2a_v7x_xyz2x2x2_x_m1024_n512_f32_1_alg».proof.Proof.Gen.Kernel.Launch
import proofs.«900407_g7700000000000408_dist_a2a_v7x_xyz2x2x2_x_m1024_n512_f32_1_alg».proof.Proof.Gen.Kernel.Points
import proofs.«900407_g7700000000000408_dist_a2a_v7x_xyz2x2x2_x_m1024_n512_f32_1_alg».proof.Proof.Gen.Kernel.Frame
import proofs.«900407_g7700000000000408_dist_a2a_v7x_xyz2x2x2_x_m1024_n512_f32_1_alg».proof.Proof.Gen.KernelIdeal
import proofs.«900407_g7700000000000408_dist_a2a_v7x_xyz2x2x2_x_m1024_n512_f32_1_alg».proof.Proof.Gen.KernelIdeal.Skeleton
import proofs.«900407_g7700000000000408_dist_a2a_v7x_xyz2x2x2_x_m1024_n512_f32_1_alg».proof.Proof.Gen.KernelIdeal.Launch
import proofs.«900407_g7700000000000408_dist_a2a_v7x_xyz2x2x2_x_m1024_n512_f32_1_alg».proof.Proof.Gen.KernelIdeal.Points
import proofs.«900407_g7700000000000408_dist_a2a_v7x_xyz2x2x2_x_m1024_n512_f32_1_alg».proof.Proof.Gen.KernelIdeal.Frame
import proofs.«900407_g7700000000000408_dist_a2a_v7x_xyz2x2x2_x_m1024_n512_f32_1_alg».proof.Proof.Gen.ReferenceIdeal
import proofs.«900407_g7700000000000408_dist_a2a_v7x_xyz2x2x2_x_m1024_n512_f32_1_alg».proof.Proof.Gen.Pre_finite_inputs_Kernel
import proofs.«900407_g7700000000000408_dist_a2a_v7x_xyz2x2x2_x_m1024_n512_f32_1_alg».proof.Proof.Gen.Pre_finite_inputs_ReferenceIdeal
import proofs.«900407_g7700000000000408_dist_a2a_v7x_xyz2x2x2_x_m1024_n512_f32_1_alg».proof.Proof.KernelIdealP.Body
import proofs.«900407_g7700000000000408_dist_a2a_v7x_xyz2x2x2_x_m1024_n512_f32_1_alg».proof.Proof.KernelIdealP.Launch
import proofs.«900407_g7700000000000408_dist_a2a_v7x_xyz2x2x2_x_m1024_n512_f32_1_alg».proof.Proof.KernelIdealP.Final
import proofs.«900407_g7700000000000408_dist_a2a_v7x_xyz2x2x2_x_m1024_n512_f32_1_alg».proof.Proof.KernelP.Body
import proofs.«900407_g7700000000000408_dist_a2a_v7x_xyz2x2x2_x_m1024_n512_f32_1_alg».proof.Proof.KernelP.Launch
import proofs.«900407_g7700000000000408_dist_a2a_v7x_xyz2x2x2_x_m1024_n512_f32_1_alg».proof.Proof.KernelP.Final
import proofs.«900407_g7700000000000408_dist_a2a_v7x_xyz2x2x2_x_m1024_n512_f32_1_alg».proof.Proof.OutValue
import proofs.«900407_g7700000000000408_dist_a2a_v7x_xyz2x2x2_x_m1024_n512_f32_1_alg».proof.Proof.RefRun
import Idealize.ShloMosaic.Adequacy
import Idealize.ShloMosaic.Init

noncomputable section

namespace Cert.Proof

open Idealize.ShloMosaic Idealize.SL.Sem

/-- The word-level program runs and its argument array ends as it began. -/
theorem frame_p : Cert.frame_Kernel (hKernel := Cert.Kernel.Gen.facts) (hPre_finite_inputs_Kernel := Cert.Pre_finite_inputs_Kernel.Gen.facts) :=
  fun m ρ _ =>
    (θ_run (Cert.Kernel.defs (F := Bits)) _ _).mono
      (fun r h c => (h c (0 : Fin 2)).trans (Cert.KernelP.final_in m ρ c))
      (Cert.KernelP.run_main (F := Bits) m ρ (Cert.KernelP.body_obligation m ρ))

/-- The same program over the extended reals runs and its argument array ends as it began. -/
theorem frame_pi : Cert.frame_KernelIdeal (hKernelIdeal := Cert.KernelIdeal.Gen.facts) (hPre_finite_inputs_Kernel := Cert.Pre_finite_inputs_Kernel.Gen.facts) :=
  fun m ρ _ =>
    (θ_run (Cert.KernelIdeal.defs (F := Ideal)) _ _).mono
      (fun r h c => (h c (0 : Fin 2)).trans (Cert.KernelIdealP.final_in m ρ c))
      (Cert.KernelIdealP.run_main (F := Ideal) m ρ (Cert.KernelIdealP.body_obligation m ρ))

/-- The reference runs and its argument array ends as it began. -/
theorem frame_ri : Cert.frame_ReferenceIdeal (hReferenceIdeal := Cert.ReferenceIdeal.Gen.facts) (hPre_finite_inputs_ReferenceIdeal := Cert.Pre_finite_inputs_ReferenceIdeal.Gen.facts) :=
  Cert.RefRun.frame_ref

/-- The idealization rewrote no operation. -/
theorem preserves : Cert.preserves_Kernel_KernelIdeal := trivial

/-- Over the extended reals, from argument blocks that are the devices' blocks of rows of the reference's array,
    every device's result block ends as its block of columns of that array, which the reference returns. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m g m' g' _ hagree
  refine ⟨m' (((0 : Dev Cert.ReferenceIdeal.nD).tc : Thread Cert.ReferenceIdeal.nD Cert.ReferenceIdeal.τ).loc Cert.ReferenceIdeal.main_arg0), ?_, Cert.RefRun.algebraic_ref m' g'⟩
  exact (θ_run (Cert.KernelIdeal.defs (F := Ideal)) _ _).mono
    (fun r h c =>
      ⟨((h c (1 : Fin 2)).trans (Cert.KernelIdealP.final_out m g c)).trans (Cert.OutValue.outAt_ideal m g _ hagree c),
        (h c (0 : Fin 2)).trans (Cert.KernelIdealP.final_in m g c)⟩)
    (Cert.KernelIdealP.run_main (F := Ideal) m g (Cert.KernelIdealP.body_obligation m g))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  ⟨frame_p, frame_pi, frame_ri, preserves, algebraic⟩⟩

end Cert.Proof

end
